-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S64x512 : Shape := ⟨2, ![64, 512]⟩
abbrev S4096x128 : Shape := ⟨2, ![4096, 128]⟩
abbrev S8x128 : Shape := ⟨2, ![8, 128]⟩
abbrev S64x128 : Shape := ⟨2, ![64, 128]⟩
abbrev S64x2129920 : Shape := ⟨2, ![64, 2129920]⟩
abbrev S64 : Shape := ⟨1, ![64]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S8x128 : S_.BroadcastsInDim S8x128 (![] : Fin 0 → Fin S8x128.rank)
  reducesTo_S8x128_S_d0_1 : S8x128.ReducesTo [0, 1] S_
  bcast_S_S64x128 : S_.BroadcastsInDim S64x128 (![] : Fin 0 → Fin S64x128.rank)
  reducesTo_S64x128_S_d0_1 : S64x128.ReducesTo [0, 1] S_
  bcast_S_S64x2129920 : S_.BroadcastsInDim S64x2129920 (![] : Fin 0 → Fin S64x2129920.rank)
  reducesTo_S64x2129920_S_d0_1 : S64x2129920.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x2129920 .f32) (main_arg6 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64x2129920 .f32 := Host.absf main_arg5
  let main_cst_6 : FVec F S_ .f32 := constant S_ .f32 0x7F800000#32
  let main_v20 : FVec F S64x2129920 .f32 := broadcastInDim S64x2129920 ![] bcast_S_S64x2129920 main_cst_6
  let main_v21 : IVec S64x2129920 1 := cmpf .olt main_v19 main_v20
  let main_c_7 : IVec S_ 1 := constantI S_ 1 1#1
  let main_v22 : IVec S_ 1 := (fun x v => Host.reduce IntOp.andi x v reducesTo_S64x2129920_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : IVec S4096 32) (main_arg1 : FVec F S64x512 .f32) (main_arg2 : FVec F S4096x128 .f32) (main_arg3 : FVec F S8x128 .f32) (main_arg4 : FVec F S64x128 .f32) (main_arg5 : FVec F S64x2129920 .f32) (main_arg6 : FVec F S64 .f32) : IVec S_ 1 :=
  let main_v0 : FVec F S64x512 .f32 := Host.absf main_arg1
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S4096x128 .f32 := Host.absf main_arg2
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S8x128 .f32 := Host.absf main_arg3
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_v13 main_v16
-- ==== Kernel.lean ====
abbrev S4096 : Shape := ⟨1, ![4096]⟩
abbrev S64x512 : Shape := ⟨2, ![64, 512]⟩
abbrev S4096x128 : Shape := ⟨2, ![4096, 128]⟩
abbrev S8x128 : Shape := ⟨2, ![8, 128]⟩
abbrev S64x128 : Shape := ⟨2, ![64, 128]⟩
abbrev S64x2129920 : Shape := ⟨2, ![64, 2129920]⟩
abbrev S64 : Shape := ⟨1, ![64]⟩
abbrev S_ : Shape := ⟨0, ![]⟩
abbrev S64x1 : Shape := ⟨2, ![64, 1]⟩
abbrev S64x32768 : Shape := ⟨2, ![64, 32768]⟩
abbrev S512x128 : Shape := ⟨2, ![512, 128]⟩
abbrev S512 : Shape := ⟨1, ![512]⟩
abbrev S64x4096 : Shape := ⟨2, ![64, 4096]⟩
abbrev S512x1x128 : Shape := ⟨3, ![512, 1, 128]⟩
abbrev S1x8x128 : Shape := ⟨3, ![1, 8, 128]⟩
abbrev S512x8x128 : Shape := ⟨3, ![512, 8, 128]⟩
abbrev S512x1x1 : Shape := ⟨3, ![512, 1, 1]⟩
abbrev S128x4096 : Shape := ⟨2, ![128, 4096]⟩
abbrev S1x4096 : Shape := ⟨2, ![1, 4096]⟩
abbrev S64x1x512 : Shape := ⟨3, ![64, 1, 512]⟩
abbrev S64x1x32768 : Shape := ⟨3, ![64, 1, 32768]⟩
abbrev S2x1x64 : Shape := ⟨3, ![2, 1, 64]⟩
abbrev S1x1x512 : Shape := ⟨3, ![1, 1, 512]⟩
abbrev S1x1x32768 : Shape := ⟨3, ![1, 1, 32768]⟩
abbrev S64x33280 : Shape := ⟨2, ![64, 33280]⟩
abbrev S1x1x64 : Shape := ⟨3, ![1, 1, 64]⟩
abbrev S1x64 : Shape := ⟨2, ![1, 64]⟩
abbrev S1x512 : Shape := ⟨2, ![1, 512]⟩
abbrev S1x32768 : Shape := ⟨2, ![1, 32768]⟩
abbrev S512x64 : Shape := ⟨2, ![512, 64]⟩
abbrev S32768x64 : Shape := ⟨2, ![32768, 64]⟩

abbrev nBuf : Space → Nat
  | .hbm => 35
  | .vmem => 18
  | .smem => 0
  | _ => 0

abbrev bufTy : (tb : Table) → Fin (tcTables nBuf tb) → BufTy
  | .hbm, ⟨0, _⟩ => ⟨S4096, .i32⟩
  | .hbm, ⟨1, _⟩ => ⟨S64x512, .f32⟩
  | .hbm, ⟨2, _⟩ => ⟨S4096x128, .f32⟩
  | .hbm, ⟨3, _⟩ => ⟨S8x128, .f32⟩
  | .hbm, ⟨4, _⟩ => ⟨S64x128, .f32⟩
  | .hbm, ⟨5, _⟩ => ⟨S64x2129920, .f32⟩
  | .hbm, ⟨6, _⟩ => ⟨S64, .f32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S4096, .f32⟩
  | .hbm, ⟨11, _⟩ => ⟨S64x128, .f32⟩
  | .hbm, ⟨12, _⟩ => ⟨S_, .f32⟩
  | .hbm, ⟨13, _⟩ => ⟨S64, .f32⟩
  | .hbm, ⟨14, _⟩ => ⟨S64x1, .f32⟩
  | .hbm, ⟨15, _⟩ => ⟨S64x1, .f32⟩
  | .hbm, ⟨16, _⟩ => ⟨S64x32768, .f32⟩
  | .hbm, ⟨17, _⟩ => ⟨S64x1x512, .f32⟩
  | .hbm, ⟨18, _⟩ => ⟨S64x1x32768, .f32⟩
  | .hbm, ⟨19, _⟩ => ⟨S2x1x64, .f32⟩
  | .hbm, ⟨20, _⟩ => ⟨S1x1x64, .f32⟩
  | .hbm, ⟨21, _⟩ => ⟨S64, .f32⟩
  | .hbm, ⟨22, _⟩ => ⟨S1x1x64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S1x64, .f32⟩
  | .local _ .vmem, ⟨0, _⟩ => ⟨S512x128, .f32⟩
  | .local _ .vmem, ⟨1, _⟩ => ⟨S512x128, .f32⟩
  | .local _ .vmem, ⟨2, _⟩ => ⟨S8x128, .f32⟩
  | .local _ .vmem, ⟨3, _⟩ => ⟨S64x128, .f32⟩
  | .local _ .vmem, ⟨4, _⟩ => ⟨S512, .f32⟩
  | .local _ .vmem, ⟨5, _⟩ => ⟨S512, .f32⟩
  | .local _ .vmem, ⟨6, _⟩ => ⟨S64x1, .f32⟩
  | .local _ .vmem, ⟨7, _⟩ => ⟨S64x4096, .f32⟩
  | .local _ .vmem, ⟨8, _⟩ => ⟨S64x4096, .f32⟩
  | .local _ .vmem, ⟨9, _⟩ => ⟨S1x1x512, .f32⟩
  | .local _ .vmem, ⟨10, _⟩ => ⟨S1x1x512, .f32⟩
  | .local _ .vmem, ⟨11, _⟩ => ⟨S1x1x32768, .f32⟩
  | .local _ .vmem, ⟨12, _⟩ => ⟨S1x1x32768, .f32⟩
  | .local _ .vmem, ⟨13, _⟩ => ⟨S64x33280, .f32⟩
  | .local _ .vmem, ⟨14, _⟩ => ⟨S64x33280, .f32⟩
  | .local _ .vmem, ⟨15, _⟩ => ⟨S1x1x64, .f32⟩
  | .local _ .vmem, ⟨16, _⟩ => ⟨S1x1x64, .f32⟩
  | .local _ .vmem, ⟨17, _⟩ => ⟨S1x64, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 32], ![false, false]⟩

def k1_cond2 (i : grid1.Coords) : BitVec 1 :=
  let arg1 : BitVec 32 := BitVec.ofNat 32 (i 1).val
  let c31_i32 : BitVec 32 := 31#32
  let v25 : BitVec 1 := Scalar.cmpi .eq arg1 c31_i32
  let v26 : BitVec 32 := Scalar.extui v25
  let c0_i32_13 : BitVec 32 := 0#32
  let v27 : BitVec 1 := Scalar.cmpi .ne v26 c0_i32_13
  v27

def cc1_transform_0 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x32768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x33280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S4096 : S_.BroadcastsInDim S4096 (![] : Fin 0 → Fin S4096.rank)
  reducesTo_S64x128_S64_d1 : S64x128.ReducesTo [1] S64
  h_S_ : 0 < S_.numel
  bcast_S64_S64x1_0 : S64.BroadcastsInDim S64x1 (![0] : Fin 1 → Fin S64x1.rank)
  inb_S512x128_S512x128_0_0 : ∀ a, (![0, 0] : Fin 2 → Nat) a + S512x128.size a ≤ S512x128.size a
  h_S512x128 : 0 < S512x128.numel
  inb_S8x128_S8x128_0_0 : ∀ a, (![0, 0] : Fin 2 → Nat) a + S8x128.size a ≤ S8x128.size a
  h_S8x128 : 0 < S8x128.numel
  inb_S64x128_S64x128_0_0 : ∀ a, (![0, 0] : Fin 2 → Nat) a + S64x128.size a ≤ S64x128.size a
  h_S64x128 : 0 < S64x128.numel
  inb_S512_S512_0 : ∀ a, (![0] : Fin 1 → Nat) a + S512.size a ≤ S512.size a
  h_S512 : 0 < S512.numel
  shapeCasts_S512_S512 : S512.ShapeCasts S512
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S512x128_S512x1x128 : S512x128.ShapeCasts S512x1x128
  shapeCasts_S8x128_S1x8x128 : S8x128.ShapeCasts S1x8x128
  broadcasts_S512x1x128_S512x8x128 : S512x1x128.Broadcasts S512x8x128
  broadcasts_S1x8x128_S512x8x128 : S1x8x128.Broadcasts S512x8x128
  shapeCasts_S512_S512x1x1 : S512.ShapeCasts S512x1x1
  broadcasts_S512x1x1_S512x8x128 : S512x1x1.Broadcasts S512x8x128
  shapeCasts_S512x8x128_S4096x128 : S512x8x128.ShapeCasts S4096x128
  reduces_S4096x128_S4096 : S4096x128.Reduces [1] S4096
  bitsLt_bf16_f32 : FTy.bits .bf16 < FTy.bits .f32
  transposes_S4096x128_p1_0_S128x4096 : S4096x128.Transposes [1, 0] S128x4096
  shapeCasts_S4096_S1x4096 : S4096.ShapeCasts S1x4096
  broadcasts_S64x1_S64x4096 : S64x1.Broadcasts S64x4096
  broadcasts_S1x4096_S64x4096 : S1x4096.Broadcasts S64x4096
  inb_S64x4096_S64x4096_0_0 : ∀ a, (![0, 0] : Fin 2 → Nat) a + S64x4096.size a ≤ S64x4096.size a
  h_S64x4096 : 0 < S64x4096.numel
  bcast_S64x512_S64x1x512_0_2 : S64x512.BroadcastsInDim S64x1x512 (![0, 2] : Fin 2 → Fin S64x1x512.rank)
  bcast_S64x32768_S64x1x32768_0_2 : S64x32768.BroadcastsInDim S64x1x32768 (![0, 2] : Fin 2 → Fin S64x1x32768.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  shapeCasts_S1x1x512_S1x512 : S1x1x512.ShapeCasts S1x512
  inb_S1x1x32768_S1x1x32768_0_0_0 : ∀ a, (![0, 0, 0] : Fin 3 → Nat) a + S1x1x32768.size a ≤ S1x1x32768.size a
  h_S1x1x32768 : 0 < S1x1x32768.numel
  shapeCasts_S1x1x32768_S1x1x32768 : S1x1x32768.ShapeCasts S1x1x32768
  shapeCasts_S1x1x32768_S1x32768 : S1x1x32768.ShapeCasts S1x32768
  inb_S64x33280_S64x33280_0_0 : ∀ a, (![0, 0] : Fin 2 → Nat) a + S64x33280.size a ≤ S64x33280.size a
  h_S64x33280 : 0 < S64x33280.numel
  slices_S64x33280_o0_0_S64x512 : S64x33280.Slices ![0, 0] S64x512
  slices_S64x33280_o0_512_S64x32768 : S64x33280.Slices ![0, 512] S64x32768
  transposes_S64x512_p1_0_S512x64 : S64x512.Transposes [1, 0] S512x64
  transposes_S64x32768_p1_0_S32768x64 : S64x32768.Transposes [1, 0] S32768x64
  shapeCasts_S1x64_S1x1x64 : S1x64.ShapeCasts S1x1x64
  inb_S1x1x64_S1x1x64_0_0_0 : ∀ a, (![0, 0, 0] : Fin 3 → Nat) a + S1x1x64.size a ≤ S1x1x64.size a
  h_S1x1x64 : 0 < S1x1x64.numel
  slices_S2x1x64_S1x1x64_0_0_0 : S2x1x64.Slices ![0, 0, 0] S1x1x64
  shapeCasts_S1x1x64_S64 : S1x1x64.ShapeCasts S64
  slices_S2x1x64_S1x1x64_1_0_0 : S2x1x64.Slices ![1, 0, 0] S1x1x64
  bcast_S_S64 : S_.BroadcastsInDim S64 (![] : Fin 0 → Fin S64.rank)
  shapeCasts_S64_S1x64 : S64.ShapeCasts S1x64
  dot_S64x128_S128x4096_S64x4096_1_0_0_1_n_n_wf : DotDims.WF S64x128 S128x4096 S64x4096 [1] [0] [0] [1] [] []
  dot_S1x512_S512x64_S1x64_1_0_0_1_n_n_wf : DotDims.WF S1x512 S512x64 S1x64 [1] [0] [0] [1] [] []
  dot_S1x32768_S32768x64_S1x64_1_0_0_1_n_n_wf : DotDims.WF S1x32768 S32768x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S4096.size a
  hwx0_3 : ∀ i : grid0.Coords, EltTy.bits .f32 = 32 ∨ (Rect.block (s := S4096) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x4096.size a ≤ S64x32768.size a
  hwx0_5 : ∀ i : grid0.Coords, EltTy.bits .f32 = 32 ∨ (Rect.block (s := S64x32768) S64x4096.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512.size a ≤ S64x1x512.size a
  hwx1_0 : ∀ i : grid1.Coords, EltTy.bits .f32 = 32 ∨ (Rect.block (s := S64x1x512) S1x1x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x32768.size a ≤ S64x1x32768.size a
  hwx1_1 : ∀ i : grid1.Coords, EltTy.bits .f32 = 32 ∨ (Rect.block (s := S64x1x32768) S1x1x32768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x33280.size a ≤ S64x2129920.size a
  hwx1_2 : ∀ i : grid1.Coords, EltTy.bits .f32 = 32 ∨ (Rect.block (s := S64x2129920) S64x33280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x64.size a ≤ S2x1x64.size a
  hwx1_3 : ∀ i : grid1.Coords, EltTy.bits .f32 = 32 ∨ (Rect.block (s := S2x1x64) S1x1x64.size (cc1_transform_3 i) (hinb1_3 i)).WholeWords (EltTy.packing .f32)

variable [Facts₀]

def dot_S64x128_S128x4096_S64x4096_1_0_0_1_n_n : DotDims S64x128 S128x4096 S64x4096 where
  lhsContracting := [1]
  rhsContracting := [0]
  lhsNonContracting := [0]
  rhsNonContracting := [1]
  lhsBatch := []
  rhsBatch := []
  wf := dot_S64x128_S128x4096_S64x4096_1_0_0_1_n_n_wf
def dot_S1x512_S512x64_S1x64_1_0_0_1_n_n : DotDims S1x512 S512x64 S1x64 where
  lhsContracting := [1]
  rhsContracting := [0]
  lhsNonContracting := [0]
  rhsNonContracting := [1]
  lhsBatch := []
  rhsBatch := []
  wf := dot_S1x512_S512x64_S1x64_1_0_0_1_n_n_wf
def dot_S1x32768_S32768x64_S1x64_1_0_0_1_n_n : DotDims S1x32768 S32768x64 S1x64 where
  lhsContracting := [1]
  rhsContracting := [0]
  lhsNonContracting := [0]
  rhsNonContracting := [1]
  lhsBatch := []
  rhsBatch := []
  wf := dot_S1x32768_S32768x64_S1x64_1_0_0_1_n_n_wf

abbrev win0_0 : Pipeline.Window sig grid0 :=
  Pipeline.Window.ofSpec (Memref.whole main_arg2) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S64x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8) S1x1x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x1x32768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x33280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096 : Shape := ⟨1, ![4096]⟩
abbrev S64x512 : Shape := ⟨2, ![64, 512]⟩
abbrev S4096x128 : Shape := ⟨2, ![4096, 128]⟩
abbrev S8x128 : Shape := ⟨2, ![8, 128]⟩
abbrev S64x128 : Shape := ⟨2, ![64, 128]⟩
abbrev S64x2129920 : Shape := ⟨2, ![64, 2129920]⟩
abbrev S64 : Shape := ⟨1, ![64]⟩
abbrev S_ : Shape := ⟨0, ![]⟩
abbrev S4096x1x128 : Shape := ⟨3, ![4096, 1, 128]⟩
abbrev S1x8x128 : Shape := ⟨3, ![1, 8, 128]⟩
abbrev S4096x8x128 : Shape := ⟨3, ![4096, 8, 128]⟩
abbrev S4096x1x1 : Shape := ⟨3, ![4096, 1, 1]⟩
abbrev S32768x128 : Shape := ⟨2, ![32768, 128]⟩
abbrev S32768 : Shape := ⟨1, ![32768]⟩
abbrev S64x32768 : Shape := ⟨2, ![64, 32768]⟩
abbrev S64x1 : Shape := ⟨2, ![64, 1]⟩
abbrev S1x32768 : Shape := ⟨2, ![1, 32768]⟩
abbrev S64x33280 : Shape := ⟨2, ![64, 33280]⟩
abbrev S1x2129920 : Shape := ⟨2, ![1, 2129920]⟩
abbrev S2129920x64 : Shape := ⟨2, ![2129920, 64]⟩
abbrev S1x64 : Shape := ⟨2, ![1, 64]⟩

abbrev nBuf : Space → Nat
  | .hbm => 66
  | .vmem => 0
  | .smem => 0
  | _ => 0

abbrev bufTy : (tb : Table) → Fin (tcTables nBuf tb) → BufTy
  | .hbm, ⟨0, _⟩ => ⟨S4096, .i32⟩
  | .hbm, ⟨1, _⟩ => ⟨S64x512, .f32⟩
  | .hbm, ⟨2, _⟩ => ⟨S4096x128, .f32⟩
  | .hbm, ⟨3, _⟩ => ⟨S8x128, .f32⟩
  | .hbm, ⟨4, _⟩ => ⟨S64x128, .f32⟩
  | .hbm, ⟨5, _⟩ => ⟨S64x2129920, .f32⟩
  | .hbm, ⟨6, _⟩ => ⟨S64, .f32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S4096, .f32⟩
  | .hbm, ⟨11, _⟩ => ⟨S4096x1x128, .f32⟩
  | .hbm, ⟨12, _⟩ => ⟨S1x8x128, .f32⟩
  | .hbm, ⟨13, _⟩ => ⟨S4096x8x128, .f32⟩
  | .hbm, ⟨14, _⟩ => ⟨S4096x8x128, .f32⟩
  | .hbm, ⟨15, _⟩ => ⟨S4096x8x128, .f32⟩
  | .hbm, ⟨16, _⟩ => ⟨S4096x1x1, .f32⟩
  | .hbm, ⟨17, _⟩ => ⟨S4096x8x128, .f32⟩
  | .hbm, ⟨18, _⟩ => ⟨S4096x8x128, .f32⟩
  | .hbm, ⟨19, _⟩ => ⟨S32768x128, .f32⟩
  | .hbm, ⟨20, _⟩ => ⟨S32768x128, .f32⟩
  | .hbm, ⟨21, _⟩ => ⟨S_, .f32⟩
  | .hbm, ⟨22, _⟩ => ⟨S32768, .f32⟩
  | .hbm, ⟨23, _⟩ => ⟨S_, .f32⟩
  | .hbm, ⟨24, _⟩ => ⟨S32768, .f32⟩
  | .hbm, ⟨25, _⟩ => ⟨S32768, .i1⟩
  | .hbm, ⟨26, _⟩ => ⟨S_, .f32⟩
  | .hbm, ⟨27, _⟩ => ⟨S32768, .f32⟩
  | .hbm, ⟨28, _⟩ => ⟨S32768, .i1⟩
  | .hbm, ⟨29, _⟩ => ⟨S_, .f32⟩
  | .hbm, ⟨30, _⟩ => ⟨S_, .f32⟩
  | .hbm, ⟨31, _⟩ => ⟨S32768, .f32⟩
  | .hbm, ⟨32, _⟩ => ⟨S32768, .f32⟩
  | .hbm, ⟨33, _⟩ => ⟨S32768, .f32⟩
  | .hbm, ⟨34, _⟩ => ⟨S_, .f32⟩
  | .hbm, ⟨35, _⟩ => ⟨S_, .f32⟩
  | .hbm, ⟨36, _⟩ => ⟨S32768, .f32⟩
  | .hbm, ⟨37, _⟩ => ⟨S32768, .f32⟩
  | .hbm, ⟨38, _⟩ => ⟨S64x128, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S64x32768, .f32⟩
  | .hbm, ⟨43, _⟩ => ⟨S64x1, .f32⟩
  | .hbm, ⟨44, _⟩ => ⟨S1x32768, .f32⟩
  | .hbm, ⟨45, _⟩ => ⟨S64x32768, .f32⟩
  | .hbm, ⟨46, _⟩ => ⟨S64x32768, .f32⟩
  | .hbm, ⟨47, _⟩ => ⟨S64x32768, .f32⟩
  | .hbm, ⟨48, _⟩ => ⟨S_, .f32⟩
  | .hbm, ⟨49, _⟩ => ⟨S64x32768, .f32⟩
  | .hbm, ⟨50, _⟩ => ⟨S64x32768, .f32⟩
  | .hbm, ⟨51, _⟩ => ⟨S64x32768, .f32⟩
  | .hbm, ⟨52, _⟩ => ⟨S64x33280, .f32⟩
  | .hbm, ⟨53, _⟩ => ⟨S1x2129920, .f32⟩
  | .hbm, ⟨54, _⟩ => ⟨S2129920x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S_, .f32⟩
  | .hbm, ⟨61, _⟩ => ⟨S1x64, .f32⟩
  | .hbm, ⟨62, _⟩ => ⟨S1x64, .f32⟩
  | .hbm, ⟨63, _⟩ => ⟨S_, .f32⟩
  | .hbm, ⟨64, _⟩ => ⟨S1x64, .f32⟩
  | .hbm, ⟨65, _⟩ => ⟨S1x64, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096x128_S4096x1x128_0_2 : S4096x128.BroadcastsInDim S4096x1x128 (![0, 2] : Fin 2 → Fin S4096x1x128.rank)
  bcast_S8x128_S1x8x128_1_2 : S8x128.BroadcastsInDim S1x8x128 (![1, 2] : Fin 2 → Fin S1x8x128.rank)
  bcast_S4096x1x128_S4096x8x128_0_1_2 : S4096x1x128.BroadcastsInDim S4096x8x128 (![0, 1, 2] : Fin 3 → Fin S4096x8x128.rank)
  bcast_S1x8x128_S4096x8x128_0_1_2 : S1x8x128.BroadcastsInDim S4096x8x128 (![0, 1, 2] : Fin 3 → Fin S4096x8x128.rank)
  bcast_S4096_S4096x1x1_0 : S4096.BroadcastsInDim S4096x1x1 (![0] : Fin 1 → Fin S4096x1x1.rank)
  bcast_S4096x1x1_S4096x8x128_0_1_2 : S4096x1x1.BroadcastsInDim S4096x8x128 (![0, 1, 2] : Fin 3 → Fin S4096x8x128.rank)
  shapeCasts_S4096x8x128_S32768x128 : S4096x8x128.ShapeCasts S32768x128
  reducesTo_S32768x128_S32768_d1 : S32768x128.ReducesTo [1] S32768
  h_S_ : 0 < S_.numel
  bcast_S_S32768 : S_.BroadcastsInDim S32768 (![] : Fin 0 → Fin S32768.rank)
  reducesTo_S64x128_S64_d1 : S64x128.ReducesTo [1] S64
  bcast_S64_S64x1_0 : S64.BroadcastsInDim S64x1 (![0] : Fin 1 → Fin S64x1.rank)
  bcast_S32768_S1x32768_1 : S32768.BroadcastsInDim S1x32768 (![1] : Fin 1 → Fin S1x32768.rank)
  bcast_S64x1_S64x32768_0_1 : S64x1.BroadcastsInDim S64x32768 (![0, 1] : Fin 2 → Fin S64x32768.rank)
  bcast_S1x32768_S64x32768_0_1 : S1x32768.BroadcastsInDim S64x32768 (![0, 1] : Fin 2 → Fin S64x32768.rank)
  bcast_S_S64x32768 : S_.BroadcastsInDim S64x32768 (![] : Fin 0 → Fin S64x32768.rank)
  concatenates_S64x512_S64x32768_S64x33280_d1 : Shape.Concatenates [S64x512, S64x32768] S64x33280 1
  shapeCasts_S64x33280_S1x2129920 : S64x33280.ShapeCasts S1x2129920
  transposes_S64x2129920_S2129920x64_1_0 : S64x2129920.Transposes [1, 0] S2129920x64
  bcast_S64_S1x64_1 : S64.BroadcastsInDim S1x64 (![1] : Fin 1 → Fin S1x64.rank)
  bcast_S_S1x64 : S_.BroadcastsInDim S1x64 (![] : Fin 0 → Fin S1x64.rank)
  dot_S64x128_S32768x128_S64x32768_1_1_0_0_n_n_wf : DotDims.WF S64x128 S32768x128 S64x32768 [1] [1] [0] [0] [] []
  dot_S1x2129920_S2129920x64_S1x64_1_0_0_1_n_n_wf : DotDims.WF S1x2129920 S2129920x64 S1x64 [1] [0] [0] [1] [] []

variable [Facts₀]

def dot_S64x128_S32768x128_S64x32768_1_1_0_0_n_n : DotDims S64x128 S32768x128 S64x32768 where
  lhsContracting := [1]
  rhsContracting := [1]
  lhsNonContracting := [0]
  rhsNonContracting := [0]
  lhsBatch := []
  rhsBatch := []
  wf := dot_S64x128_S32768x128_S64x32768_1_1_0_0_n_n_wf
def dot_S1x2129920_S2129920x64_S1x64_1_0_0_1_n_n : DotDims S1x2129920 S2129920x64 S1x64 where
  lhsContracting := [1]
  rhsContracting := [0]
  lhsNonContracting := [0]
  rhsNonContracting := [1]
  lhsBatch := []
  rhsBatch := []
  wf := dot_S1x2129920_S2129920x64_S1x64_1_0_0_1_n_n_wf

class Facts : Prop extends Facts₀ where

variable [Facts]
-- ==== Proof.K.Region0.lean ====
/-
  Region 0 of @main: the first pallas_call (the cosine kernel), pipeline 0, over an 8-point grid.

  Everything here is stated at a PARAMETER `V`: the contents of the TensorCore's buffers at the moment the region
  is entered.  From `V` we read off, for every window and every grid point, the block of its array that the
  point works on; we describe the one thing the body changes (the output window's buffer, overwritten whole by
  a function of the five input blocks); we prove the body's triple; and we package this as the pipeline's
  proof data together with its body obligation, generic in the float instance.
-/
import proofs.«120060_j231928234454_2_alg».proof.Proof.Gen.Kernel.Launch
import proofs.«120060_j231928234454_2_alg».proof.Proof.Gen.Kernel.Skeleton
import proofs.«120060_j231928234454_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a point lies in a rectangle with an axis of length 4096 recurses once per coordinate of that axis
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents on entry to the region
variable (V : (c : Dev nD) → (b : Ref sig .tc) → Buf (Elt F) ((c : Thread nD τ).loc b))

/-! ## Blocks -/

/-- The block of window `w`'s array that grid point `t` works on, read from the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (its block index moves with the point, so it is fetched at every point): at every point the staging buffer the body is handed holds the window's
    block there.  At a point with a fetch this is what the fetch wrote; at a point without, the block index equals
    the previous point's and the body left the buffer as it found it (`hafter`), so the previous block is still
    there and is this point's block.  Stated for any proof data whose array is `V`'s (`hA`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (its block index is constant, so it is fetched at the first point only and stays put afterwards): at every point the staging buffer the body is handed holds the window's
    block there.  At a point with a fetch this is what the fetch wrote; at a point without, the block index equals
    the previous point's and the body left the buffer as it found it (`hafter`), so the previous block is still
    there and is this point's block.  Stated for any proof data whose array is `V`'s (`hA`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (its block index is constant, so it is fetched at the first point only and stays put afterwards): at every point the staging buffer the body is handed holds the window's
    block there.  At a point with a fetch this is what the fetch wrote; at a point without, the block index equals
    the previous point's and the body left the buffer as it found it (`hafter`), so the previous block is still
    there and is this point's block.  Stated for any proof data whose array is `V`'s (`hA`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (its block index moves with the point, so it is fetched at every point): at every point the staging buffer the body is handed holds the window's
    block there.  At a point with a fetch this is what the fetch wrote; at a point without, the block index equals
    the previous point's and the body left the buffer as it found it (`hafter`), so the previous block is still
    there and is this point's block.  Stated for any proof data whose array is `V`'s (`hA`). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (its block index is constant, so it is fetched at the first point only and stays put afterwards): at every point the staging buffer the body is handed holds the window's
    block there.  At a point with a fetch this is what the fetch wrote; at a point without, the block index equals
    the previous point's and the body left the buffer as it found it (`hafter`), so the previous block is still
    there and is this point's block.  Stated for any proof data whose array is `V`'s (`hA`). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each staging buffer, whole -/

abbrev r0_0 : Rect S512x128 := Rect.unit (s := S512x128) ![0, 0] S512x128.size inb_S512x128_S512x128_0_0
abbrev r0_1 : Rect S8x128 := Rect.unit (s := S8x128) ![0, 0] S8x128.size inb_S8x128_S8x128_0_0
abbrev r0_2 : Rect S64x128 := Rect.unit (s := S64x128) ![0, 0] S64x128.size inb_S64x128_S64x128_0_0
abbrev r0_3 : Rect S512 := Rect.unit (s := S512) ![0] S512.size inb_S512_S512_0
abbrev r0_4 : Rect S64x1 := Rect.unit (s := S64x1) ![0, 0] S64x1.size inb_S64x1_S64x1_0_0
abbrev r0_5 : Rect S64x4096 := Rect.unit (s := S64x4096) ![0, 0] S64x4096.size inb_S64x4096_S64x4096_0_0

/-! ## What the body leaves in the output window's buffer -/

/-- The output buffer after the body: one store over the whole buffer, of the kernel's value at the five input
    buffers' contents. What the buffer held before (which the body also reads, and discards) does not enter. -/
def out0_5 (x0 : Vec F S512x128 .f32) (x1 : Vec F S8x128 .f32) (x2 : Vec F S64x128 .f32) (x3 : Vec F S512 .f32) (x4 : Vec F S64x1 .f32) : Vec F S64x4096 .f32 :=
  View.canon [⟨r0_5, k0_pay1 (View.ld x0 r0_0) (View.ld x1 r0_1) (View.ld x2 r0_2) (View.ld x3 r0_3) (View.ld x4 r0_4)⟩]

/-- The single store's rectangle is the whole buffer, so every index is covered. -/
theorem cover0_5 (p0 : Vec F S64x4096 .f32) (y : S64x4096.Idx) :
    ∃ pc ∈ ([⟨r0_5, p0⟩] : List (View.Piece (Elt F) S64x4096 .f32)), y ∈ pc.1.set :=
  View.cover_of_tiled [⟨r0_5, p0⟩] S64x4096.size (by rfl) y

/-! ## The body's triple -/

set_option maxHeartbeats 1000000 in
/-- The body on whole staging buffers: the five inputs at contents `x0 … x4`, the output at anything. It loads the
    five inputs and the output (six reads that change nothing), then stores over the whole output buffer; it ends
    with the inputs as they were and the output at `out0_5 x0 x1 x2 x3 x4`. -/
theorem sound_kernel0 (c : Dev nD) (E : Set ℕ) (i : grid0.Coords)
    (arg0 : Memref sig .tc .vmem S512x128 .f32) (harg0 : arg0.IsWhole) (arg1 : Memref sig .tc .vmem S8x128 .f32) (harg1 : arg1.IsWhole)
    (arg2 : Memref sig .tc .vmem S64x128 .f32) (harg2 : arg2.IsWhole) (arg3 : Memref sig .tc .vmem S512 .f32) (harg3 : arg3.IsWhole)
    (arg4 : Memref sig .tc .vmem S64x1 .f32) (harg4 : arg4.IsWhole) (arg5 : Memref sig .tc .vmem S64x4096 .f32) (harg5 : arg5.IsWhole)
    (x0 : Vec F S512x128 .f32) (x1 : Vec F S8x128 .f32) (x2 : Vec F S64x128 .f32) (x3 : Vec F S512 .f32) (x4 : Vec F S64x1 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2 x3 x4)) -∗ K ⟨⟩))
      ⊢ wp frame (wpE (defs₀ (F := F)) Variants.none c none) E (cc0__cosine_kernel i arg0 harg0 arg1 harg1 arg2 harg2 arg3 harg3 arg4 harg4 arg5 harg5) K := by
  simp only [cc0__cosine_kernel_eq_skeleton]; unfold cc0__cosine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the windows' arrays are as `V` has them; after the body at point `t`
    each input's buffer holds its block there and the output's holds `out0_5` of the five input blocks; the
    invariant is the class's (the other scoped buffers and the generator register, carried along untouched);
    every share is full and no core owes another anything. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is handed at point `t`: the invariant, the core's debts, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: each input's buffer holds its block (`before0_W`), so the body's triple applies with
    the input blocks for `x0 … x4`; the invariant and the debts are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for pipeline 0: the above at every point, the six windows conjoined one by one. -/
theorem body_obligation0 (c : Dev nD) : BodyObligation (dat0 (F := F) V c) (defs₀ (F := F)) Variants.none () Set.univ := fun t => by
  rw [bigSep_W0, bigSep_W0]
  exact sound_body0 V c t

end Region0

end Cert.Kernel.Frame

end
-- ==== Proof.K.R1Runs.lean ====
/-
  The linear kernel (pipeline 1 of the program): what its three control cases share.
  The grid is 2 × 32; point t = 32 j + k works on row 32 j + k of the hidden matrix. The body resets a [1, 64]
  accumulator kept in a scratch buffer when k = 0, adds the row's contribution to it at every point, and copies it into
  the output block when k = 31; the output window is idle (neither stored nor written back) at the other points.
  Here: each window's block at a point as a function of the array the region finds, the two branch conditions in
  closed form over the grid, where the output window is idle, and the class invariant split into the scoped buffers the
  kernel never touches and its scratch.
-/
import proofs.«120060_j231928234454_2_alg».proof.Proof.Gen.Kernel.Launch
import proofs.«120060_j231928234454_2_alg».proof.Proof.Gen.Kernel.Skeleton
import proofs.«120060_j231928234454_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the buffer contents the region is entered from: a parameter, instantiated by the run
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point (all three inputs are fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two branch conditions -/

/-- "k = 0": the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)
/-- "k = 31": the accumulator is copied out. -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1x1x64 .f32 := (Memref.whole cc1_stg3_0 : Memref sig .tc .vmem S1x1x64 .f32).view
abbrev ms1_0 (t : Fin cfg1.N) : Memref sig .tc .vmem S1x1x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x32768 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x33280 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x64 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1x64 .f32 := Memref.whole cc1_scratch0
abbrev VS1_0 : View sig .tc .vmem S1x64 .f32 := scM1_0.view

/-! ## The class invariant, split -/

/-- The scoped buffers that belong to the other pipeline, each whole at some contents: the linear kernel never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class invariant hands the body the foreign scoped buffers, the accumulator at some contents and the generator register, -/
theorem PhiA1_split (c : Dev nD) :
    (Pipeline.ΦA spec1 c : sProp 𝕄) ⊢ iprop((∃ d, owns (c : Thread nD τ) scM1_0 fullShare d) ∗ others1 (F := F) c ∗ (∃ r, prngReg c r)) := by
  unfold Pipeline.ΦA others1; rw [scopedRest1_eq]; simp only [scM1_0, owns_whole]
  iintro ⟨⟨H0, H1, H2, H3, H4, H5, H6, H7, H8, ⟨%f, HS⟩⟩, Hg⟩
  isplitl [HS]
  · iexists f; iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- and takes them back. -/
theorem PhiA1_join (c : Dev nD) :
    iprop((∃ d, owns (c : Thread nD τ) scM1_0 fullShare d) ∗ others1 (F := F) c ∗ (∃ r, prngReg c r)) ⊢ (Pipeline.ΦA spec1 c : sProp 𝕄) := by
  unfold Pipeline.ΦA others1; rw [scopedRest1_eq]; simp only [scM1_0, owns_whole]
  iintro ⟨⟨%d, HS⟩, ⟨H0, H1, H2, H3, H4, H5, H6, H7, H8⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists d; iexact HS
  iexact Hg

end Cert.Kernel.Frame

end
-- ==== Proof.K.R1RunA.lean ====
/-
  The linear kernel's body at the first point of a row block (k = 0): the accumulator, found at anything, is reset to zero and the row's contribution added; nothing is stored into the output block, which is handed back untouched.
-/
import proofs.«120060_j231928234454_2_alg».proof.Proof.K.R1Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The pieces the body's stores leave in the output block and in the accumulator in this case, with the proof that the body,
    run on whole memrefs holding the three input blocks, reaches its continuation with the inputs as they were and each
    buffer it stored into holding its pieces. -/
noncomputable def kernelRun1_A (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : cond1_0 i) (hc1 : ¬cond1_1 i)
    (x0 : Vec F S1x1x512 .f32) (x1 : Vec F S1x1x32768 .f32) (x2 : Vec F S64x33280 .f32) :
    Σ' (L3 : List (View.Piece (Elt F) S1x1x64 .f32)), { LS0 : List (View.Piece (Elt F) S1x64 .f32) //
      ∀ (xi3 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__fc_kernel i arg2 harg2 arg3 harg3 arg4 harg4 arg5 harg5 arg6 harg6) K } := by
  refine ⟨[], ?_, fun xi3 E K => ?run⟩
  case run =>
    simp only [cc1__fc_kernel_eq_skeleton]; unfold cc1__fc_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frame

end
-- ==== Proof.K.R1RunB.lean ====
/-
  The linear kernel's body at a middle point of a row block (0 < k < 31): the row's contribution is added to the accumulator, found at what the point before left; nothing is stored into the output block.
-/
import proofs.«120060_j231928234454_2_alg».proof.Proof.K.R1RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The pieces the body's stores leave in the output block and in the accumulator in this case, with the proof that the body,
    run on whole memrefs holding the three input blocks, reaches its continuation with the inputs as they were and each
    buffer it stored into holding its pieces. -/
noncomputable def kernelRun1_B (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : ¬cond1_1 i)
    (x0 : Vec F S1x1x512 .f32) (x1 : Vec F S1x1x32768 .f32) (x2 : Vec F S64x33280 .f32) (xs0 : Vec F S1x64 .f32) :
    Σ' (L3 : List (View.Piece (Elt F) S1x1x64 .f32)), { LS0 : List (View.Piece (Elt F) S1x64 .f32) //
      ∀ (xi3 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__fc_kernel i arg2 harg2 arg3 harg3 arg4 harg4 arg5 harg5 arg6 harg6) K } := by
  refine ⟨[], ?_, fun xi3 E K => ?run⟩
  case run =>
    simp only [cc1__fc_kernel_eq_skeleton]; unfold cc1__fc_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frame

end
-- ==== Proof.K.R1RunC.lean ====
/-
  The linear kernel's body at the last point of a row block (k = 31): the row's contribution is added to the accumulator, found at what the point before left, and the accumulator is copied into the output block.
-/
import proofs.«120060_j231928234454_2_alg».proof.Proof.K.R1RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The pieces the body's stores leave in the output block and in the accumulator in this case, with the proof that the body,
    run on whole memrefs holding the three input blocks, reaches its continuation with the inputs as they were and each
    buffer it stored into holding its pieces. -/
noncomputable def kernelRun1_C (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : cond1_1 i)
    (x0 : Vec F S1x1x512 .f32) (x1 : Vec F S1x1x32768 .f32) (x2 : Vec F S64x33280 .f32) (xs0 : Vec F S1x64 .f32) :
    Σ' (L3 : List (View.Piece (Elt F) S1x1x64 .f32)), { LS0 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__fc_kernel i arg2 harg2 arg3 harg3 arg4 harg4 arg5 harg5 arg6 harg6) K } := by
  refine ⟨?_, ?_, fun E K => ?run⟩
  case run =>
    simp only [cc1__fc_kernel_eq_skeleton]; unfold cc1__fc_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Frame

end
-- ==== Proof.K.Region1.lean ====
/-
  The linear kernel's half of the frame: what the output block and the accumulator hold after each grid point, the
  invariant that carries the accumulator from one point to the next, the pipeline's proof data and the body's
  obligation at every point — by cases on the position k of the point in its row block (k = 0 resets and adds,
  0 < k < 31 adds, k = 31 adds and copies out).
-/
import proofs.«120060_j231928234454_2_alg».proof.Proof.K.R1RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output block: a placeholder nobody consults (the window is idle there and not written back). -/
def out1_A_3 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : cond1_0 i) (hc1 : ¬cond1_1 i)
    (x0 : Vec F S1x1x512 .f32) (x1 : Vec F S1x1x32768 .f32) (x2 : Vec F S64x33280 .f32) : Vec F S1x1x64 .f32 :=
  VO1_3.read (Elt F) (VO1_3.writes (Elt F) VO1_3.junk (kernelRun1_A c i arg2 harg2 arg3 harg3 arg4 harg4 arg5 harg5 arg6 harg6 hc0 hc1 x0 x1 x2).1)
/-- Case A's stores cover the accumulator. -/
theorem scover1_A_0 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : cond1_0 i) (hc1 : ¬cond1_1 i)
    (x0 : Vec F S1x1x512 .f32) (x1 : Vec F S1x1x32768 .f32) (x2 : Vec F S64x33280 .f32) (y : S1x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x64.size (by sl_kernel_rfl) y
/-- What case A leaves in the accumulator. -/
def sout1_A_0 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : cond1_0 i) (hc1 : ¬cond1_1 i)
    (x0 : Vec F S1x1x512 .f32) (x1 : Vec F S1x1x32768 .f32) (x2 : Vec F S64x33280 .f32) : Vec F S1x64 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output block: a placeholder nobody consults (the window is idle there and not written back). -/
def out1_B_3 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : ¬cond1_1 i)
    (x0 : Vec F S1x1x512 .f32) (x1 : Vec F S1x1x32768 .f32) (x2 : Vec F S64x33280 .f32) (xs0 : Vec F S1x64 .f32) : Vec F S1x1x64 .f32 :=
  VO1_3.read (Elt F) (VO1_3.writes (Elt F) VO1_3.junk (kernelRun1_B c i arg2 harg2 arg3 harg3 arg4 harg4 arg5 harg5 arg6 harg6 hc0 hc1 x0 x1 x2 xs0).1)
/-- Case B's stores cover the accumulator. -/
theorem scover1_B_0 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : ¬cond1_1 i)
    (x0 : Vec F S1x1x512 .f32) (x1 : Vec F S1x1x32768 .f32) (x2 : Vec F S64x33280 .f32) (xs0 : Vec F S1x64 .f32) (y : S1x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1x64.size (by sl_kernel_rfl) y
/-- What case B leaves in the accumulator. -/
def sout1_B_0 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : ¬cond1_1 i)
    (x0 : Vec F S1x1x512 .f32) (x1 : Vec F S1x1x32768 .f32) (x2 : Vec F S64x33280 .f32) (xs0 : Vec F S1x64 .f32) : Vec F S1x64 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's store covers the output block. -/
theorem cover1_C_3 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : cond1_1 i)
    (x0 : Vec F S1x1x512 .f32) (x1 : Vec F S1x1x32768 .f32) (x2 : Vec F S64x33280 .f32) (xs0 : Vec F S1x64 .f32) (y : S1x1x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x1x64.size (by sl_kernel_rfl) y
/-- What case C leaves in the output block: the accumulator, copied. -/
def out1_C_3 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : cond1_1 i)
    (x0 : Vec F S1x1x512 .f32) (x1 : Vec F S1x1x32768 .f32) (x2 : Vec F S64x33280 .f32) (xs0 : Vec F S1x64 .f32) : Vec F S1x1x64 .f32 :=
  VO1_3.read (Elt F) (VO1_3.writes (Elt F) VO1_3.junk (kernelRun1_C c i arg2 harg2 arg3 harg3 arg4 harg4 arg5 harg5 arg6 harg6 hc0 hc1 x0 x1 x2 xs0).1)
/-- Case C's stores cover the accumulator. -/
theorem scover1_C_0 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : cond1_1 i)
    (x0 : Vec F S1x1x512 .f32) (x1 : Vec F S1x1x32768 .f32) (x2 : Vec F S64x33280 .f32) (xs0 : Vec F S1x64 .f32) (y : S1x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1x64.size (by sl_kernel_rfl) y
/-- What case C leaves in the accumulator. -/
def sout1_C_0 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : cond1_1 i)
    (x0 : Vec F S1x1x512 .f32) (x1 : Vec F S1x1x32768 .f32) (x2 : Vec F S64x33280 .f32) (xs0 : Vec F S1x64 .f32) : Vec F S1x64 .f32 :=
  VS1_0.read (Elt F) (VS1_0.writes (Elt F) VS1_0.junk (kernelRun1_C c i arg2 harg2 arg3 harg3 arg4 harg4 arg5 harg5 arg6 harg6 hc0 hc1 x0 x1 x2 xs0).2.1)

section Region1

variable (V : (c : Dev nD) → (b : Ref sig .tc) → Buf (Elt F) ((c : Thread nD τ).loc b))

/-! ## What the output block and the accumulator hold after each point -/

/-- After position `n`: (the output block, the accumulator). The accumulator at a point that is not the first of its row
    block is computed from what the point before left. -/
def outsAt1 (c : Dev nD) : (n : ℕ) → n < cfg1.N → Vec F S1x1x64 .f32 × Vec F S1x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 32 = 0 then
      if h1 : (n + 1) % 32 = 31 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 32 = 31 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 32 = 0) (h1 : ¬t.val % 32 = 31) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 32 = 0) (h1 : ¬t.val % 32 = 31) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: before the first point the class invariant (the accumulator at anything); afterwards the
    accumulator at what the point before left, the foreign scoped buffers and the generator register. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ others1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare ((outsAt1 V c n hn).2) ∗ others1 (F := F) c ∗ (∃ r, prngReg c r)) := rfl
theorem PhiS1_pos (c : Dev nD) (n : ℕ) (h : n ≤ cfg1.N) (hz : n ≠ 0) :
    PhiS1 V c n h = iprop(owns (c : Thread nD τ) scM1_0 fullShare ((outsAt1 V c (n - 1) (by omega)).2) ∗ others1 (F := F) c ∗ (∃ r, prngReg c r)) := by
  cases n with
  | zero => exact absurd rfl hz
  | succ n => rfl

/-! ## The pipeline's proof data -/

/-- The arrays as the region finds them; after the body at point `t` each input's buffer at its block and the output's
    at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the accumulator at what the point before left (at anything at the very first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 32 = 0
  · by_cases h1 : t.val % 32 = 31
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_split (F := F) c) $$ HΦ
        icases HΦ' with ⟨HS0, Hoth, Hg⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HS0, Hoth, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
  · by_cases h1 : t.val % 32 = 31
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨HS0, Hoth, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0]
          · unfold owns; iexists _; isplitr
            swap; · iexact HS0
            ipureintro; exact View.read_writes_of_cover _ _ _ _ _ (scover1_C_0 c _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨HS0, Hoth, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover1_B_0 c _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point the invariant gives the class invariant back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS0, Hoth, Hg⟩
  iapply (PhiA1_join (F := F) c)
  isplitl [HS0]; · iexists _; iexact HS0
  isplitl [Hoth]; · iexact Hoth
  iexact Hg

theorem hout1 (c : Dev nD) : (dat1 V c).Φ (Fin.last cfg1.N) ⊢ Pipeline.ΦA spec1 c :=
  Phi_out1 V c _ (by rw [Fin.val_last]; have : cfg1.N = 64 := N_1; omega)

end Region1

end Cert.Kernel.Frame

end
-- ==== Proof.K.Run.lean ====
/-
  The whole program as five segments — host operations, the cosine kernel's region, host operations, the linear
  kernel's region, host operations — and its run: from any memory with zero counters every weakly fair execution
  terminates, nothing faulting, and every unscoped buffer ends at the contents obtained by folding the segments over the
  launch memory (a host stretch applies its operations; a region leaves each of its arrays at what its write-backs
  leave and every other buffer as it was).
-/
import proofs.«120060_j231928234454_2_alg».proof.Proof.K.Region0
import proofs.«120060_j231928234454_2_alg».proof.Proof.K.Region1
import proofs.«120060_j231928234454_2_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev Bnd0 : Dev nD → Valuation τ sig (Elt F) := fun c b => (s₀ m ρ).mem ((c : Dev nD), b)
/-- After the first host stretch: what the cosine kernel's region is entered from. -/
abbrev Bnd1 : Dev nD → Valuation τ sig (Elt F) := fun c => StableHlo.after hostOps0 (Bnd0 m ρ c)
abbrev Ent0 : (c : Dev nD) → (b : Ref sig .tc) → Buf (Elt F) ((c : Thread nD τ).loc b) := fun c b => Bnd1 m ρ c b
/-- After the cosine kernel's region: its arrays at what the pipeline leaves, every other buffer as entered. -/
def Bnd2 (c : Dev nD) : Valuation τ sig (Elt F) :=
  Pipeline.withArrays spec0 c (Bnd1 m ρ c) fun w => (dat0 (Ent0 m ρ) c).arrAt w cfg0.N
theorem Bnd2_arr (c : Dev nD) (w : Fin cfg0.W) :
    Bnd2 m ρ c (Proc.devRef .tc (Pipeline.arrRef spec0 w)) = (dat0 (Ent0 m ρ) c).arrAt w cfg0.N := by
  unfold Bnd2; exact Pipeline.withArrays_arr spec0 launch0.win.arr_inj c _ _ w
theorem Bnd2_of_ne (c : Dev nD) (b : Ref sig .tc) (hb : ∀ w, Pipeline.arrRef spec0 w ≠ b) :
    Bnd2 m ρ c (Proc.devRef .tc b) = Bnd1 m ρ c (Proc.devRef .tc b) := by
  unfold Bnd2; exact Pipeline.withArrays_of_ne spec0 c _ _ b hb
abbrev Bnd2r : (c : Dev nD) → (b : Ref sig .tc) → Buf (Elt F) ((c : Thread nD τ).loc b) := fun c b => Bnd2 m ρ c b
theorem hF0 (c : Dev nD) (w : Fin cfg0.W) : (dat0 (Ent0 m ρ) c).arrAt w cfg0.N = Bnd2r m ρ c (Pipeline.arrRef spec0 w) :=
  (Bnd2_arr m ρ c w).symm
theorem hrest0 (c : Dev nD) : ∀ b, b ∉ Finset.univ.image (Pipeline.arrRef spec0) → Bnd2r m ρ c b = Ent0 m ρ c b :=
  fun b hb => Bnd2_of_ne m ρ c b fun w e => hb (Finset.mem_image.mpr ⟨w, Finset.mem_univ _, e⟩)
/-- After the second host stretch: what the linear kernel's region is entered from. -/
abbrev Bnd3 : Dev nD → Valuation τ sig (Elt F) := fun c => StableHlo.after hostOps1 (Bnd2 m ρ c)
abbrev Ent1 : (c : Dev nD) → (b : Ref sig .tc) → Buf (Elt F) ((c : Thread nD τ).loc b) := fun c b => Bnd3 m ρ c b
/-- After the linear kernel's region. -/
def Bnd4 (c : Dev nD) : Valuation τ sig (Elt F) :=
  Pipeline.withArrays spec1 c (Bnd3 m ρ c) fun w => (dat1 (Ent1 m ρ) c).arrAt w cfg1.N
theorem Bnd4_arr (c : Dev nD) (w : Fin cfg1.W) :
    Bnd4 m ρ c (Proc.devRef .tc (Pipeline.arrRef spec1 w)) = (dat1 (Ent1 m ρ) c).arrAt w cfg1.N := by
  unfold Bnd4; exact Pipeline.withArrays_arr spec1 launch1.win.arr_inj c _ _ w
theorem Bnd4_of_ne (c : Dev nD) (b : Ref sig .tc) (hb : ∀ w, Pipeline.arrRef spec1 w ≠ b) :
    Bnd4 m ρ c (Proc.devRef .tc b) = Bnd3 m ρ c (Proc.devRef .tc b) := by
  unfold Bnd4; exact Pipeline.withArrays_of_ne spec1 c _ _ b hb
abbrev Bnd4r : (c : Dev nD) → (b : Ref sig .tc) → Buf (Elt F) ((c : Thread nD τ).loc b) := fun c b => Bnd4 m ρ c b
theorem hF1 (c : Dev nD) (w : Fin cfg1.W) : (dat1 (Ent1 m ρ) c).arrAt w cfg1.N = Bnd4r m ρ c (Pipeline.arrRef spec1 w) :=
  (Bnd4_arr m ρ c w).symm
theorem hrest1 (c : Dev nD) : ∀ b, b ∉ Finset.univ.image (Pipeline.arrRef spec1) → Bnd4r m ρ c b = Ent1 m ρ c b :=
  fun b hb => Bnd4_of_ne m ρ c b fun w e => hb (Finset.mem_image.mpr ⟨w, Finset.mem_univ _, e⟩)
/-- After the last host stretch: the program's end. -/
abbrev Bnd5 : Dev nD → Valuation τ sig (Elt F) := fun c => StableHlo.after hostOps2 (Bnd4 m ρ c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ent0 m ρ) c
  | ⟨1, _⟩ => fun c => dat1 (Ent1 m ρ) c
abbrev 𝒱K : Variants := Variants.none
/-- No core owes another anything. -/
abbrev LK : GSem nD τ sig → Finset Unit := fun _ => ∅
abbrev lvK : GSem nD τ sig → Unit → ℕ := fun _ _ => 0
/-- What rides beside the buffers through every segment: the generator register at some state, and nothing owed. -/
abbrev RK (c : Dev nD) : sProp 𝕄 := iprop((∃ r, prngReg c r) ∗ ∃ W, owes (c : Thread nD τ) (0 : CellTallies nD τ sig Unit) W)
abbrev hsegK (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state "every unscoped buffer at the boundary's contents, the generator register at some
    state, nothing owed": its arrays are split out of the unscoped buffers at entry and put back at their exit contents. -/
def reg0 : Pipeline.RegionSeg (pcfgs (F := F)) adm (pdats m ρ) () defs₀ 𝒱K LK lvK 0 where
  win := launch0.win.to₀
  block_pos := launch0.block_pos
  stage_whole := launch0.stage_whole
  K := PEmpty
  osem k := k.elim
  ho := Pipeline.OwnSemFacts.none _
  hbody c := (body_obligation0 (Ent0 m ρ) c).loose
  hwaits := Pipeline.hwaits_of_owed_zero _ _ _ _ LK lvK 0 fun _ _ => rfl
  pre c := iprop(StableHlo.held (c : Thread nD τ) (Pipeline.ucRefs τ sig) (Bnd1 m ρ c) ∗ RK c)
  post c := iprop(StableHlo.held (c : Thread nD τ) (Pipeline.ucRefs τ sig) (Bnd2 m ρ c) ∗ RK c)
  X c := iprop(∃ r, prngReg c r)
  Y c := iprop(∃ r, prngReg c r)
  Z c := Pipeline.unscopedRest (Ix := Unit) (Name := ℕ) (U := UR sig nD τ) (Lvl := ℕ) spec0 c (Ent0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ent0 m ρ c) (Bnd2r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers at entry and put back at their exit contents. -/
def reg1 : Pipeline.RegionSeg (pcfgs (F := F)) adm (pdats m ρ) () defs₀ 𝒱K LK lvK 1 where
  win := launch1.win.to₀
  block_pos := launch1.block_pos
  stage_whole := launch1.stage_whole
  K := PEmpty
  osem k := k.elim
  ho := Pipeline.OwnSemFacts.none _
  hbody c := (body_obligation1 (Ent1 m ρ) c).loose
  hwaits := Pipeline.hwaits_of_owed_zero _ _ _ _ LK lvK 1 fun _ _ => rfl
  pre c := iprop(StableHlo.held (c : Thread nD τ) (Pipeline.ucRefs τ sig) (Bnd3 m ρ c) ∗ RK c)
  post c := iprop(StableHlo.held (c : Thread nD τ) (Pipeline.ucRefs τ sig) (Bnd4 m ρ c) ∗ RK c)
  X c := iprop(∃ r, prngReg c r)
  Y c := iprop(∃ r, prngReg c r)
  Z c := Pipeline.unscopedRest (Ix := Unit) (Name := ℕ) (U := UR sig nD τ) (Lvl := ℕ) spec1 c (Ent1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from hout1 (Ent1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ent1 m ρ c) (Bnd4r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segsK : List (Pipeline.Seg (pcfgs (F := F)) adm (pdats m ρ) () defs₀ 𝒱K LK lvK) :=
  [ .host (hsegK hostOps0 hostOps0_sub hostOps0_fresh (Bnd0 m ρ)),
    .region (reg0 m ρ),
    .host (hsegK hostOps1 hostOps1_sub hostOps1_fresh (Bnd2 m ρ)),
    .region (reg1 m ρ),
    .host (hsegK hostOps2 hostOps2_sub hostOps2_fresh (Bnd4 m ρ)) ]
theorem main_runK (c : Dev nD) : main (F := F) c = Pipeline.Seg.run (segsK m ρ) := (main_chain c).trans (by chain_rfl)

set_option backward.isDefEq.respectTransparency.types false in
/-- THE RUN: every weakly fair execution terminates, nothing faulting, and every unscoped buffer ends at `Bnd5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bnd5 m ρ c b) :=
  Pipeline.θ_run_regions_kit (pcfgs (F := F)) adm (pdats m ρ) () cellOf_inj emb₁ defs₀ 𝒱K LK lvK m ρ main (segsK m ρ)
    (fun c Q => by rw [main_runK m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bnd0 m ρ c) ∗ RK c))
    (Tₙ := fun c => iprop(StableHlo.held (c : Thread nD τ) (Pipeline.ucRefs τ sig) (Bnd5 m ρ c) ∗ ∃ r, prngReg c r))
    (hch := ⟨fun _ => .rfl, fun _ => .rfl, fun _ => .rfl, fun _ => .rfl, fun _ => .rfl, fun c => by
      change iprop(StableHlo.held (c : Thread nD τ) (Pipeline.ucRefs τ sig) (Bnd5 m ρ c) ∗ RK c) ⊢ _
      iintro ⟨Hh, Hp, HO⟩
      isplitl [Hh Hp]
      · isplitl [Hh]; · iexact Hh
        iexact Hp
      iexact HO⟩)
    (hinit := by
      refine Pipeline.initEach LK lvK fun c => ?_
      rw [show unscopedBufs c (fun b => m ((c : Thread nD τ).loc b)) = StableHlo.held (c : Thread nD τ) (Pipeline.ucRefs τ sig) (Bnd0 m ρ c)
        from Pipeline.unscopedBufs_held c (Bnd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bnd5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bnd5 m ρ c) s')
      isplitl [Hh] <;> iassumption)
    (hQ := fun s h => h)

end Cert.Kernel.Frame

end
-- ==== Proof.K.Ends.lean ====
/-
  The run's end read back. No host operation writes an argument array and no region changes one (a region reads it
  through an input window, whose array it leaves as entered, or does not touch it), so the fold at an argument's buffer
  walks back to the launch memory: the frame. The result buffer ends at the fold's value there.
-/
import proofs.«120060_j231928234454_2_alg».proof.Proof.K.Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Bnd1_keep (c : Dev nD) (r : Ref sig .tc) (h : r ∉ hostOps0_W) :
    Bnd1 m ρ c (Proc.devRef .tc r) = Bnd0 m ρ c (Proc.devRef .tc r) :=
  StableHlo.after_of_writes_sub hostOps0 _ hostOps0_writes h
theorem Bnd3_keep (c : Dev nD) (r : Ref sig .tc) (h : r ∉ hostOps1_W) :
    Bnd3 m ρ c (Proc.devRef .tc r) = Bnd2 m ρ c (Proc.devRef .tc r) :=
  StableHlo.after_of_writes_sub hostOps1 _ hostOps1_writes h
theorem Bnd5_keep (c : Dev nD) (r : Ref sig .tc) (h : r ∉ hostOps2_W) :
    Bnd5 m ρ c (Proc.devRef .tc r) = Bnd4 m ρ c (Proc.devRef .tc r) :=
  StableHlo.after_of_writes_sub hostOps2 _ hostOps2_writes h

/-- A buffer no host stretch writes and both regions leave as entered ends as launched. -/
theorem Bnd5_arg (c : Dev nD) (r : Ref sig .tc) (h0 : r ∉ hostOps0_W) (h1 : r ∉ hostOps1_W) (h2 : r ∉ hostOps2_W)
    (e0 : Bnd2 m ρ c (Proc.devRef .tc r) = Bnd1 m ρ c (Proc.devRef .tc r))
    (e1 : Bnd4 m ρ c (Proc.devRef .tc r) = Bnd3 m ρ c (Proc.devRef .tc r)) :
    Bnd5 m ρ c (Proc.devRef .tc r) = m ((c : Thread nD τ).loc r) :=
  (Bnd5_keep m ρ c r h2).trans (e1.trans ((Bnd3_keep m ρ c r h1).trans (e0.trans ((Bnd1_keep m ρ c r h0).trans rfl))))

theorem Bnd5_main_arg0 (c : Dev nD) : Bnd5 m ρ c (Proc.devRef .tc main_arg0) = m ((c : Thread nD τ).loc main_arg0) :=
  Bnd5_arg m ρ c main_arg0 (by decide) (by decide) (by decide) (Bnd2_of_ne m ρ c main_arg0 (by decide)) (Bnd4_of_ne m ρ c main_arg0 (by decide))
theorem Bnd5_main_arg1 (c : Dev nD) : Bnd5 m ρ c (Proc.devRef .tc main_arg1) = m ((c : Thread nD τ).loc main_arg1) :=
  Bnd5_arg m ρ c main_arg1 (by decide) (by decide) (by decide) (Bnd2_of_ne m ρ c main_arg1 (by decide)) (Bnd4_of_ne m ρ c main_arg1 (by decide))
theorem Bnd5_main_arg2 (c : Dev nD) : Bnd5 m ρ c (Proc.devRef .tc main_arg2) = m ((c : Thread nD τ).loc main_arg2) :=
  Bnd5_arg m ρ c main_arg2 (by decide) (by decide) (by decide) ((Bnd2_arr m ρ c 0).trans (((dat0 (Ent0 m ρ) c).arrAt_in 0 rfl _).trans (A_eq0 (Ent0 m ρ) c 0))) (Bnd4_of_ne m ρ c main_arg2 (by decide))
theorem Bnd5_main_arg3 (c : Dev nD) : Bnd5 m ρ c (Proc.devRef .tc main_arg3) = m ((c : Thread nD τ).loc main_arg3) :=
  Bnd5_arg m ρ c main_arg3 (by decide) (by decide) (by decide) ((Bnd2_arr m ρ c 1).trans (((dat0 (Ent0 m ρ) c).arrAt_in 1 rfl _).trans (A_eq0 (Ent0 m ρ) c 1))) (Bnd4_of_ne m ρ c main_arg3 (by decide))
theorem Bnd5_main_arg4 (c : Dev nD) : Bnd5 m ρ c (Proc.devRef .tc main_arg4) = m ((c : Thread nD τ).loc main_arg4) :=
  Bnd5_arg m ρ c main_arg4 (by decide) (by decide) (by decide) ((Bnd2_arr m ρ c 2).trans (((dat0 (Ent0 m ρ) c).arrAt_in 2 rfl _).trans (A_eq0 (Ent0 m ρ) c 2))) (Bnd4_of_ne m ρ c main_arg4 (by decide))
theorem Bnd5_main_arg5 (c : Dev nD) : Bnd5 m ρ c (Proc.devRef .tc main_arg5) = m ((c : Thread nD τ).loc main_arg5) :=
  Bnd5_arg m ρ c main_arg5 (by decide) (by decide) (by decide) (Bnd2_of_ne m ρ c main_arg5 (by decide)) ((Bnd4_arr m ρ c 2).trans (((dat1 (Ent1 m ρ) c).arrAt_in 2 rfl _).trans (A_eq1 (Ent1 m ρ) c 2)))
theorem Bnd5_main_arg6 (c : Dev nD) : Bnd5 m ρ c (Proc.devRef .tc main_arg6) = m ((c : Thread nD τ).loc main_arg6) :=
  Bnd5_arg m ρ c main_arg6 (by decide) (by decide) (by decide) (Bnd2_of_ne m ρ c main_arg6 (by decide)) (Bnd4_of_ne m ρ c main_arg6 (by decide))

/-- THE FRAME, at any float instance: every weakly fair execution terminates, nothing faulting, and the argument arrays
    end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (Bnd5_main_arg0 m ρ c),
      (h c _ (mem_uc main_arg1 (by decide))).trans (Bnd5_main_arg1 m ρ c),
      (h c _ (mem_uc main_arg2 (by decide))).trans (Bnd5_main_arg2 m ρ c),
      (h c _ (mem_uc main_arg3 (by decide))).trans (Bnd5_main_arg3 m ρ c),
      (h c _ (mem_uc main_arg4 (by decide))).trans (Bnd5_main_arg4 m ρ c),
      (h c _ (mem_uc main_arg5 (by decide))).trans (Bnd5_main_arg5 m ρ c),
      (h c _ (mem_uc main_arg6 (by decide))).trans (Bnd5_main_arg6 m ρ c)⟩) (run_all m ρ)

/-- The same run with the result buffer named: it ends at the fold's value. -/
theorem run_result : θ_run defs (onTc (τ := τ) (main (F := F))) ⟨m, fun _ => 0, ρ⟩ (fun r => ∀ c : Dev nD,
      r.2.mem ((c.tc : Thread nD τ).loc main_v23) = Bnd5 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v23 (by decide)),
      (h c _ (mem_uc main_arg0 (by decide))).trans (Bnd5_main_arg0 m ρ c),
      (h c _ (mem_uc main_arg1 (by decide))).trans (Bnd5_main_arg1 m ρ c),
      (h c _ (mem_uc main_arg2 (by decide))).trans (Bnd5_main_arg2 m ρ c),
      (h c _ (mem_uc main_arg3 (by decide))).trans (Bnd5_main_arg3 m ρ c),
      (h c _ (mem_uc main_arg4 (by decide))).trans (Bnd5_main_arg4 m ρ c),
      (h c _ (mem_uc main_arg5 (by decide))).trans (Bnd5_main_arg5 m ρ c),
      (h c _ (mem_uc main_arg6 (by decide))).trans (Bnd5_main_arg6 m ρ c)⟩) (run_all m ρ)

end Cert.Kernel.Frame

end
-- ==== Proof.KI.Region0.lean ====
/-
  Region 0 of @main: the first pallas_call (the cosine kernel), pipeline 0, over an 8-point grid.

  Everything here is stated at a PARAMETER `V`: the contents of the TensorCore's buffers at the moment the region
  is entered.  From `V` we read off, for every window and every grid point, the block of its array that the
  point works on; we describe the one thing the body changes (the output window's buffer, overwritten whole by
  a function of the five input blocks); we prove the body's triple; and we package this as the pipeline's
  proof data together with its body obligation, generic in the float instance.
-/
import proofs.«120060_j231928234454_2_alg».proof.Proof.Gen.KernelIdeal.Launch
import proofs.«120060_j231928234454_2_alg».proof.Proof.Gen.KernelIdeal.Skeleton
import proofs.«120060_j231928234454_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a point lies in a rectangle with an axis of length 4096 recurses once per coordinate of that axis
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents on entry to the region
variable (V : (c : Dev nD) → (b : Ref sig .tc) → Buf (Elt F) ((c : Thread nD τ).loc b))

/-! ## Blocks -/

/-- The block of window `w`'s array that grid point `t` works on, read from the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (its block index moves with the point, so it is fetched at every point): at every point the staging buffer the body is handed holds the window's
    block there.  At a point with a fetch this is what the fetch wrote; at a point without, the block index equals
    the previous point's and the body left the buffer as it found it (`hafter`), so the previous block is still
    there and is this point's block.  Stated for any proof data whose array is `V`'s (`hA`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (its block index is constant, so it is fetched at the first point only and stays put afterwards): at every point the staging buffer the body is handed holds the window's
    block there.  At a point with a fetch this is what the fetch wrote; at a point without, the block index equals
    the previous point's and the body left the buffer as it found it (`hafter`), so the previous block is still
    there and is this point's block.  Stated for any proof data whose array is `V`'s (`hA`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (its block index is constant, so it is fetched at the first point only and stays put afterwards): at every point the staging buffer the body is handed holds the window's
    block there.  At a point with a fetch this is what the fetch wrote; at a point without, the block index equals
    the previous point's and the body left the buffer as it found it (`hafter`), so the previous block is still
    there and is this point's block.  Stated for any proof data whose array is `V`'s (`hA`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (its block index moves with the point, so it is fetched at every point): at every point the staging buffer the body is handed holds the window's
    block there.  At a point with a fetch this is what the fetch wrote; at a point without, the block index equals
    the previous point's and the body left the buffer as it found it (`hafter`), so the previous block is still
    there and is this point's block.  Stated for any proof data whose array is `V`'s (`hA`). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (its block index is constant, so it is fetched at the first point only and stays put afterwards): at every point the staging buffer the body is handed holds the window's
    block there.  At a point with a fetch this is what the fetch wrote; at a point without, the block index equals
    the previous point's and the body left the buffer as it found it (`hafter`), so the previous block is still
    there and is this point's block.  Stated for any proof data whose array is `V`'s (`hA`). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each staging buffer, whole -/

abbrev r0_0 : Rect S512x128 := Rect.unit (s := S512x128) ![0, 0] S512x128.size inb_S512x128_S512x128_0_0
abbrev r0_1 : Rect S8x128 := Rect.unit (s := S8x128) ![0, 0] S8x128.size inb_S8x128_S8x128_0_0
abbrev r0_2 : Rect S64x128 := Rect.unit (s := S64x128) ![0, 0] S64x128.size inb_S64x128_S64x128_0_0
abbrev r0_3 : Rect S512 := Rect.unit (s := S512) ![0] S512.size inb_S512_S512_0
abbrev r0_4 : Rect S64x1 := Rect.unit (s := S64x1) ![0, 0] S64x1.size inb_S64x1_S64x1_0_0
abbrev r0_5 : Rect S64x4096 := Rect.unit (s := S64x4096) ![0, 0] S64x4096.size inb_S64x4096_S64x4096_0_0

/-! ## What the body leaves in the output window's buffer -/

/-- The output buffer after the body: one store over the whole buffer, of the kernel's value at the five input
    buffers' contents. What the buffer held before (which the body also reads, and discards) does not enter. -/
def out0_5 (x0 : Vec F S512x128 .f32) (x1 : Vec F S8x128 .f32) (x2 : Vec F S64x128 .f32) (x3 : Vec F S512 .f32) (x4 : Vec F S64x1 .f32) : Vec F S64x4096 .f32 :=
  View.canon [⟨r0_5, k0_pay1 (View.ld x0 r0_0) (View.ld x1 r0_1) (View.ld x2 r0_2) (View.ld x3 r0_3) (View.ld x4 r0_4)⟩]

/-- The single store's rectangle is the whole buffer, so every index is covered. -/
theorem cover0_5 (p0 : Vec F S64x4096 .f32) (y : S64x4096.Idx) :
    ∃ pc ∈ ([⟨r0_5, p0⟩] : List (View.Piece (Elt F) S64x4096 .f32)), y ∈ pc.1.set :=
  View.cover_of_tiled [⟨r0_5, p0⟩] S64x4096.size (by rfl) y

/-! ## The body's triple -/

set_option maxHeartbeats 1000000 in
/-- The body on whole staging buffers: the five inputs at contents `x0 … x4`, the output at anything. It loads the
    five inputs and the output (six reads that change nothing), then stores over the whole output buffer; it ends
    with the inputs as they were and the output at `out0_5 x0 x1 x2 x3 x4`. -/
theorem sound_kernel0 (c : Dev nD) (E : Set ℕ) (i : grid0.Coords)
    (arg0 : Memref sig .tc .vmem S512x128 .f32) (harg0 : arg0.IsWhole) (arg1 : Memref sig .tc .vmem S8x128 .f32) (harg1 : arg1.IsWhole)
    (arg2 : Memref sig .tc .vmem S64x128 .f32) (harg2 : arg2.IsWhole) (arg3 : Memref sig .tc .vmem S512 .f32) (harg3 : arg3.IsWhole)
    (arg4 : Memref sig .tc .vmem S64x1 .f32) (harg4 : arg4.IsWhole) (arg5 : Memref sig .tc .vmem S64x4096 .f32) (harg5 : arg5.IsWhole)
    (x0 : Vec F S512x128 .f32) (x1 : Vec F S8x128 .f32) (x2 : Vec F S64x128 .f32) (x3 : Vec F S512 .f32) (x4 : Vec F S64x1 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2 x3 x4)) -∗ K ⟨⟩))
      ⊢ wp frame (wpE (defs₀ (F := F)) Variants.none c none) E (cc0__cosine_kernel i arg0 harg0 arg1 harg1 arg2 harg2 arg3 harg3 arg4 harg4 arg5 harg5) K := by
  simp only [cc0__cosine_kernel_eq_skeleton]; unfold cc0__cosine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the windows' arrays are as `V` has them; after the body at point `t`
    each input's buffer holds its block there and the output's holds `out0_5` of the five input blocks; the
    invariant is the class's (the other scoped buffers and the generator register, carried along untouched);
    every share is full and no core owes another anything. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is handed at point `t`: the invariant, the core's debts, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: each input's buffer holds its block (`before0_W`), so the body's triple applies with
    the input blocks for `x0 … x4`; the invariant and the debts are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for pipeline 0: the above at every point, the six windows conjoined one by one. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Frame

end
-- ==== Proof.KI.R1Runs.lean ====
/-
  The linear kernel (pipeline 1 of the program): what its three control cases share.
  The grid is 2 × 32; point t = 32 j + k works on row 32 j + k of the hidden matrix. The body resets a [1, 64]
  accumulator kept in a scratch buffer when k = 0, adds the row's contribution to it at every point, and copies it into
  the output block when k = 31; the output window is idle (neither stored nor written back) at the other points.
  Here: each window's block at a point as a function of the array the region finds, the two branch conditions in
  closed form over the grid, where the output window is idle, and the class invariant split into the scoped buffers the
  kernel never touches and its scratch.
-/
import proofs.«120060_j231928234454_2_alg».proof.Proof.Gen.KernelIdeal.Launch
import proofs.«120060_j231928234454_2_alg».proof.Proof.Gen.KernelIdeal.Skeleton
import proofs.«120060_j231928234454_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the buffer contents the region is entered from: a parameter, instantiated by the run
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point (all three inputs are fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two branch conditions -/

/-- "k = 0": the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)
/-- "k = 31": the accumulator is copied out. -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1x1x64 .f32 := (Memref.whole cc1_stg3_0 : Memref sig .tc .vmem S1x1x64 .f32).view
abbrev ms1_0 (t : Fin cfg1.N) : Memref sig .tc .vmem S1x1x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x32768 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x33280 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x64 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1x64 .f32 := Memref.whole cc1_scratch0
abbrev VS1_0 : View sig .tc .vmem S1x64 .f32 := scM1_0.view

/-! ## The class invariant, split -/

/-- The scoped buffers that belong to the other pipeline, each whole at some contents: the linear kernel never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class invariant hands the body the foreign scoped buffers, the accumulator at some contents and the generator register, -/
theorem PhiA1_split (c : Dev nD) :
    (Pipeline.ΦA spec1 c : sProp 𝕄) ⊢ iprop((∃ d, owns (c : Thread nD τ) scM1_0 fullShare d) ∗ others1 (F := F) c ∗ (∃ r, prngReg c r)) := by
  unfold Pipeline.ΦA others1; rw [scopedRest1_eq]; simp only [scM1_0, owns_whole]
  iintro ⟨⟨H0, H1, H2, H3, H4, H5, H6, H7, H8, ⟨%f, HS⟩⟩, Hg⟩
  isplitl [HS]
  · iexists f; iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- and takes them back. -/
theorem PhiA1_join (c : Dev nD) :
    iprop((∃ d, owns (c : Thread nD τ) scM1_0 fullShare d) ∗ others1 (F := F) c ∗ (∃ r, prngReg c r)) ⊢ (Pipeline.ΦA spec1 c : sProp 𝕄) := by
  unfold Pipeline.ΦA others1; rw [scopedRest1_eq]; simp only [scM1_0, owns_whole]
  iintro ⟨⟨%d, HS⟩, ⟨H0, H1, H2, H3, H4, H5, H6, H7, H8⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists d; iexact HS
  iexact Hg

end Cert.KernelIdeal.Frame

end
-- ==== Proof.KI.R1RunA.lean ====
/-
  The linear kernel's body at the first point of a row block (k = 0): the accumulator, found at anything, is reset to zero and the row's contribution added; nothing is stored into the output block, which is handed back untouched.
-/
import proofs.«120060_j231928234454_2_alg».proof.Proof.KI.R1Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The pieces the body's stores leave in the output block and in the accumulator in this case, with the proof that the body,
    run on whole memrefs holding the three input blocks, reaches its continuation with the inputs as they were and each
    buffer it stored into holding its pieces. -/
noncomputable def kernelRun1_A (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : cond1_0 i) (hc1 : ¬cond1_1 i)
    (x0 : Vec F S1x1x512 .f32) (x1 : Vec F S1x1x32768 .f32) (x2 : Vec F S64x33280 .f32) :
    Σ' (L3 : List (View.Piece (Elt F) S1x1x64 .f32)), { LS0 : List (View.Piece (Elt F) S1x64 .f32) //
      ∀ (xi3 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__fc_kernel i arg2 harg2 arg3 harg3 arg4 harg4 arg5 harg5 arg6 harg6) K } := by
  refine ⟨[], ?_, fun xi3 E K => ?run⟩
  case run =>
    simp only [cc1__fc_kernel_eq_skeleton]; unfold cc1__fc_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frame

end
-- ==== Proof.KI.R1RunB.lean ====
/-
  The linear kernel's body at a middle point of a row block (0 < k < 31): the row's contribution is added to the accumulator, found at what the point before left; nothing is stored into the output block.
-/
import proofs.«120060_j231928234454_2_alg».proof.Proof.KI.R1RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The pieces the body's stores leave in the output block and in the accumulator in this case, with the proof that the body,
    run on whole memrefs holding the three input blocks, reaches its continuation with the inputs as they were and each
    buffer it stored into holding its pieces. -/
noncomputable def kernelRun1_B (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : ¬cond1_1 i)
    (x0 : Vec F S1x1x512 .f32) (x1 : Vec F S1x1x32768 .f32) (x2 : Vec F S64x33280 .f32) (xs0 : Vec F S1x64 .f32) :
    Σ' (L3 : List (View.Piece (Elt F) S1x1x64 .f32)), { LS0 : List (View.Piece (Elt F) S1x64 .f32) //
      ∀ (xi3 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__fc_kernel i arg2 harg2 arg3 harg3 arg4 harg4 arg5 harg5 arg6 harg6) K } := by
  refine ⟨[], ?_, fun xi3 E K => ?run⟩
  case run =>
    simp only [cc1__fc_kernel_eq_skeleton]; unfold cc1__fc_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frame

end
-- ==== Proof.KI.R1RunC.lean ====
/-
  The linear kernel's body at the last point of a row block (k = 31): the row's contribution is added to the accumulator, found at what the point before left, and the accumulator is copied into the output block.
-/
import proofs.«120060_j231928234454_2_alg».proof.Proof.KI.R1RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The pieces the body's stores leave in the output block and in the accumulator in this case, with the proof that the body,
    run on whole memrefs holding the three input blocks, reaches its continuation with the inputs as they were and each
    buffer it stored into holding its pieces. -/
noncomputable def kernelRun1_C (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : cond1_1 i)
    (x0 : Vec F S1x1x512 .f32) (x1 : Vec F S1x1x32768 .f32) (x2 : Vec F S64x33280 .f32) (xs0 : Vec F S1x64 .f32) :
    Σ' (L3 : List (View.Piece (Elt F) S1x1x64 .f32)), { LS0 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__fc_kernel i arg2 harg2 arg3 harg3 arg4 harg4 arg5 harg5 arg6 harg6) K } := by
  refine ⟨?_, ?_, fun E K => ?run⟩
  case run =>
    simp only [cc1__fc_kernel_eq_skeleton]; unfold cc1__fc_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Frame

end
-- ==== Proof.KI.Region1.lean ====
/-
  The linear kernel's half of the frame: what the output block and the accumulator hold after each grid point, the
  invariant that carries the accumulator from one point to the next, the pipeline's proof data and the body's
  obligation at every point — by cases on the position k of the point in its row block (k = 0 resets and adds,
  0 < k < 31 adds, k = 31 adds and copies out).
-/
import proofs.«120060_j231928234454_2_alg».proof.Proof.KI.R1RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output block: a placeholder nobody consults (the window is idle there and not written back). -/
def out1_A_3 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : cond1_0 i) (hc1 : ¬cond1_1 i)
    (x0 : Vec F S1x1x512 .f32) (x1 : Vec F S1x1x32768 .f32) (x2 : Vec F S64x33280 .f32) : Vec F S1x1x64 .f32 :=
  VO1_3.read (Elt F) (VO1_3.writes (Elt F) VO1_3.junk (kernelRun1_A c i arg2 harg2 arg3 harg3 arg4 harg4 arg5 harg5 arg6 harg6 hc0 hc1 x0 x1 x2).1)
/-- Case A's stores cover the accumulator. -/
theorem scover1_A_0 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : cond1_0 i) (hc1 : ¬cond1_1 i)
    (x0 : Vec F S1x1x512 .f32) (x1 : Vec F S1x1x32768 .f32) (x2 : Vec F S64x33280 .f32) (y : S1x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x64.size (by sl_kernel_rfl) y
/-- What case A leaves in the accumulator. -/
def sout1_A_0 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : cond1_0 i) (hc1 : ¬cond1_1 i)
    (x0 : Vec F S1x1x512 .f32) (x1 : Vec F S1x1x32768 .f32) (x2 : Vec F S64x33280 .f32) : Vec F S1x64 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output block: a placeholder nobody consults (the window is idle there and not written back). -/
def out1_B_3 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : ¬cond1_1 i)
    (x0 : Vec F S1x1x512 .f32) (x1 : Vec F S1x1x32768 .f32) (x2 : Vec F S64x33280 .f32) (xs0 : Vec F S1x64 .f32) : Vec F S1x1x64 .f32 :=
  VO1_3.read (Elt F) (VO1_3.writes (Elt F) VO1_3.junk (kernelRun1_B c i arg2 harg2 arg3 harg3 arg4 harg4 arg5 harg5 arg6 harg6 hc0 hc1 x0 x1 x2 xs0).1)
/-- Case B's stores cover the accumulator. -/
theorem scover1_B_0 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : ¬cond1_1 i)
    (x0 : Vec F S1x1x512 .f32) (x1 : Vec F S1x1x32768 .f32) (x2 : Vec F S64x33280 .f32) (xs0 : Vec F S1x64 .f32) (y : S1x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1x64.size (by sl_kernel_rfl) y
/-- What case B leaves in the accumulator. -/
def sout1_B_0 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : ¬cond1_1 i)
    (x0 : Vec F S1x1x512 .f32) (x1 : Vec F S1x1x32768 .f32) (x2 : Vec F S64x33280 .f32) (xs0 : Vec F S1x64 .f32) : Vec F S1x64 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's store covers the output block. -/
theorem cover1_C_3 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : cond1_1 i)
    (x0 : Vec F S1x1x512 .f32) (x1 : Vec F S1x1x32768 .f32) (x2 : Vec F S64x33280 .f32) (xs0 : Vec F S1x64 .f32) (y : S1x1x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x1x64.size (by sl_kernel_rfl) y
/-- What case C leaves in the output block: the accumulator, copied. -/
def out1_C_3 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : cond1_1 i)
    (x0 : Vec F S1x1x512 .f32) (x1 : Vec F S1x1x32768 .f32) (x2 : Vec F S64x33280 .f32) (xs0 : Vec F S1x64 .f32) : Vec F S1x1x64 .f32 :=
  VO1_3.read (Elt F) (VO1_3.writes (Elt F) VO1_3.junk (kernelRun1_C c i arg2 harg2 arg3 harg3 arg4 harg4 arg5 harg5 arg6 harg6 hc0 hc1 x0 x1 x2 xs0).1)
/-- Case C's stores cover the accumulator. -/
theorem scover1_C_0 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : cond1_1 i)
    (x0 : Vec F S1x1x512 .f32) (x1 : Vec F S1x1x32768 .f32) (x2 : Vec F S64x33280 .f32) (xs0 : Vec F S1x64 .f32) (y : S1x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1x64.size (by sl_kernel_rfl) y
/-- What case C leaves in the accumulator. -/
def sout1_C_0 (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : cond1_1 i)
    (x0 : Vec F S1x1x512 .f32) (x1 : Vec F S1x1x32768 .f32) (x2 : Vec F S64x33280 .f32) (xs0 : Vec F S1x64 .f32) : Vec F S1x64 .f32 :=
  VS1_0.read (Elt F) (VS1_0.writes (Elt F) VS1_0.junk (kernelRun1_C c i arg2 harg2 arg3 harg3 arg4 harg4 arg5 harg5 arg6 harg6 hc0 hc1 x0 x1 x2 xs0).2.1)

section Region1

variable (V : (c : Dev nD) → (b : Ref sig .tc) → Buf (Elt F) ((c : Thread nD τ).loc b))

/-! ## What the output block and the accumulator hold after each point -/

/-- After position `n`: (the output block, the accumulator). The accumulator at a point that is not the first of its row
    block is computed from what the point before left. -/
def outsAt1 (c : Dev nD) : (n : ℕ) → n < cfg1.N → Vec F S1x1x64 .f32 × Vec F S1x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 32 = 0 then
      if h1 : (n + 1) % 32 = 31 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 32 = 31 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 32 = 0) (h1 : ¬t.val % 32 = 31) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 32 = 0) (h1 : ¬t.val % 32 = 31) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: before the first point the class invariant (the accumulator at anything); afterwards the
    accumulator at what the point before left, the foreign scoped buffers and the generator register. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ others1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare ((outsAt1 V c n hn).2) ∗ others1 (F := F) c ∗ (∃ r, prngReg c r)) := rfl
theorem PhiS1_pos (c : Dev nD) (n : ℕ) (h : n ≤ cfg1.N) (hz : n ≠ 0) :
    PhiS1 V c n h = iprop(owns (c : Thread nD τ) scM1_0 fullShare ((outsAt1 V c (n - 1) (by omega)).2) ∗ others1 (F := F) c ∗ (∃ r, prngReg c r)) := by
  cases n with
  | zero => exact absurd rfl hz
  | succ n => rfl

/-! ## The pipeline's proof data -/

/-- The arrays as the region finds them; after the body at point `t` each input's buffer at its block and the output's
    at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the accumulator at what the point before left (at anything at the very first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 32 = 0
  · by_cases h1 : t.val % 32 = 31
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_split (F := F) c) $$ HΦ
        icases HΦ' with ⟨HS0, Hoth, Hg⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HS0, Hoth, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
  · by_cases h1 : t.val % 32 = 31
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨HS0, Hoth, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0]
          · unfold owns; iexists _; isplitr
            swap; · iexact HS0
            ipureintro; exact View.read_writes_of_cover _ _ _ _ _ (scover1_C_0 c _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨HS0, Hoth, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover1_B_0 c _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point the invariant gives the class invariant back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS0, Hoth, Hg⟩
  iapply (PhiA1_join (F := F) c)
  isplitl [HS0]; · iexists _; iexact HS0
  isplitl [Hoth]; · iexact Hoth
  iexact Hg

theorem hout1 (c : Dev nD) : (dat1 V c).Φ (Fin.last cfg1.N) ⊢ Pipeline.ΦA spec1 c :=
  Phi_out1 V c _ (by rw [Fin.val_last]; have : cfg1.N = 64 := N_1; omega)

end Region1

end Cert.KernelIdeal.Frame

end
-- ==== Proof.KI.Run.lean ====
/-
  The whole program as five segments — host operations, the cosine kernel's region, host operations, the linear
  kernel's region, host operations — and its run: from any memory with zero counters every weakly fair execution
  terminates, nothing faulting, and every unscoped buffer ends at the contents obtained by folding the segments over the
  launch memory (a host stretch applies its operations; a region leaves each of its arrays at what its write-backs
  leave and every other buffer as it was).
-/
import proofs.«120060_j231928234454_2_alg».proof.Proof.KI.Region0
import proofs.«120060_j231928234454_2_alg».proof.Proof.KI.Region1
import proofs.«120060_j231928234454_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev Bnd0 : Dev nD → Valuation τ sig (Elt F) := fun c b => (s₀ m ρ).mem ((c : Dev nD), b)
/-- After the first host stretch: what the cosine kernel's region is entered from. -/
abbrev Bnd1 : Dev nD → Valuation τ sig (Elt F) := fun c => StableHlo.after hostOps0 (Bnd0 m ρ c)
abbrev Ent0 : (c : Dev nD) → (b : Ref sig .tc) → Buf (Elt F) ((c : Thread nD τ).loc b) := fun c b => Bnd1 m ρ c b
/-- After the cosine kernel's region: its arrays at what the pipeline leaves, every other buffer as entered. -/
def Bnd2 (c : Dev nD) : Valuation τ sig (Elt F) :=
  Pipeline.withArrays spec0 c (Bnd1 m ρ c) fun w => (dat0 (Ent0 m ρ) c).arrAt w cfg0.N
theorem Bnd2_arr (c : Dev nD) (w : Fin cfg0.W) :
    Bnd2 m ρ c (Proc.devRef .tc (Pipeline.arrRef spec0 w)) = (dat0 (Ent0 m ρ) c).arrAt w cfg0.N := by
  unfold Bnd2; exact Pipeline.withArrays_arr spec0 launch0.win.arr_inj c _ _ w
theorem Bnd2_of_ne (c : Dev nD) (b : Ref sig .tc) (hb : ∀ w, Pipeline.arrRef spec0 w ≠ b) :
    Bnd2 m ρ c (Proc.devRef .tc b) = Bnd1 m ρ c (Proc.devRef .tc b) := by
  unfold Bnd2; exact Pipeline.withArrays_of_ne spec0 c _ _ b hb
abbrev Bnd2r : (c : Dev nD) → (b : Ref sig .tc) → Buf (Elt F) ((c : Thread nD τ).loc b) := fun c b => Bnd2 m ρ c b
theorem hF0 (c : Dev nD) (w : Fin cfg0.W) : (dat0 (Ent0 m ρ) c).arrAt w cfg0.N = Bnd2r m ρ c (Pipeline.arrRef spec0 w) :=
  (Bnd2_arr m ρ c w).symm
theorem hrest0 (c : Dev nD) : ∀ b, b ∉ Finset.univ.image (Pipeline.arrRef spec0) → Bnd2r m ρ c b = Ent0 m ρ c b :=
  fun b hb => Bnd2_of_ne m ρ c b fun w e => hb (Finset.mem_image.mpr ⟨w, Finset.mem_univ _, e⟩)
/-- After the second host stretch: what the linear kernel's region is entered from. -/
abbrev Bnd3 : Dev nD → Valuation τ sig (Elt F) := fun c => StableHlo.after hostOps1 (Bnd2 m ρ c)
abbrev Ent1 : (c : Dev nD) → (b : Ref sig .tc) → Buf (Elt F) ((c : Thread nD τ).loc b) := fun c b => Bnd3 m ρ c b
/-- After the linear kernel's region. -/
def Bnd4 (c : Dev nD) : Valuation τ sig (Elt F) :=
  Pipeline.withArrays spec1 c (Bnd3 m ρ c) fun w => (dat1 (Ent1 m ρ) c).arrAt w cfg1.N
theorem Bnd4_arr (c : Dev nD) (w : Fin cfg1.W) :
    Bnd4 m ρ c (Proc.devRef .tc (Pipeline.arrRef spec1 w)) = (dat1 (Ent1 m ρ) c).arrAt w cfg1.N := by
  unfold Bnd4; exact Pipeline.withArrays_arr spec1 launch1.win.arr_inj c _ _ w
theorem Bnd4_of_ne (c : Dev nD) (b : Ref sig .tc) (hb : ∀ w, Pipeline.arrRef spec1 w ≠ b) :
    Bnd4 m ρ c (Proc.devRef .tc b) = Bnd3 m ρ c (Proc.devRef .tc b) := by
  unfold Bnd4; exact Pipeline.withArrays_of_ne spec1 c _ _ b hb
abbrev Bnd4r : (c : Dev nD) → (b : Ref sig .tc) → Buf (Elt F) ((c : Thread nD τ).loc b) := fun c b => Bnd4 m ρ c b
theorem hF1 (c : Dev nD) (w : Fin cfg1.W) : (dat1 (Ent1 m ρ) c).arrAt w cfg1.N = Bnd4r m ρ c (Pipeline.arrRef spec1 w) :=
  (Bnd4_arr m ρ c w).symm
theorem hrest1 (c : Dev nD) : ∀ b, b ∉ Finset.univ.image (Pipeline.arrRef spec1) → Bnd4r m ρ c b = Ent1 m ρ c b :=
  fun b hb => Bnd4_of_ne m ρ c b fun w e => hb (Finset.mem_image.mpr ⟨w, Finset.mem_univ _, e⟩)
/-- After the last host stretch: the program's end. -/
abbrev Bnd5 : Dev nD → Valuation τ sig (Elt F) := fun c => StableHlo.after hostOps2 (Bnd4 m ρ c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ent0 m ρ) c
  | ⟨1, _⟩ => fun c => dat1 (Ent1 m ρ) c
abbrev 𝒱K : Variants := Variants.none
/-- No core owes another anything. -/
abbrev LK : GSem nD τ sig → Finset Unit := fun _ => ∅
abbrev lvK : GSem nD τ sig → Unit → ℕ := fun _ _ => 0
/-- What rides beside the buffers through every segment: the generator register at some state, and nothing owed. -/
abbrev RK (c : Dev nD) : sProp 𝕄 := iprop((∃ r, prngReg c r) ∗ ∃ W, owes (c : Thread nD τ) (0 : CellTallies nD τ sig Unit) W)
abbrev hsegK (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state "every unscoped buffer at the boundary's contents, the generator register at some
    state, nothing owed": its arrays are split out of the unscoped buffers at entry and put back at their exit contents. -/
def reg0 : Pipeline.RegionSeg (pcfgs (F := F)) adm (pdats m ρ) () defs₀ 𝒱K LK lvK 0 where
  win := launch0.win.to₀
  block_pos := launch0.block_pos
  stage_whole := launch0.stage_whole
  K := PEmpty
  osem k := k.elim
  ho := Pipeline.OwnSemFacts.none _
  hbody c := (body_obligation0 (Ent0 m ρ) c).loose
  hwaits := Pipeline.hwaits_of_owed_zero _ _ _ _ LK lvK 0 fun _ _ => rfl
  pre c := iprop(StableHlo.held (c : Thread nD τ) (Pipeline.ucRefs τ sig) (Bnd1 m ρ c) ∗ RK c)
  post c := iprop(StableHlo.held (c : Thread nD τ) (Pipeline.ucRefs τ sig) (Bnd2 m ρ c) ∗ RK c)
  X c := iprop(∃ r, prngReg c r)
  Y c := iprop(∃ r, prngReg c r)
  Z c := Pipeline.unscopedRest (Ix := Unit) (Name := ℕ) (U := UR sig nD τ) (Lvl := ℕ) spec0 c (Ent0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ent0 m ρ c) (Bnd2r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers at entry and put back at their exit contents. -/
def reg1 : Pipeline.RegionSeg (pcfgs (F := F)) adm (pdats m ρ) () defs₀ 𝒱K LK lvK 1 where
  win := launch1.win.to₀
  block_pos := launch1.block_pos
  stage_whole := launch1.stage_whole
  K := PEmpty
  osem k := k.elim
  ho := Pipeline.OwnSemFacts.none _
  hbody c := (body_obligation1 (Ent1 m ρ) c).loose
  hwaits := Pipeline.hwaits_of_owed_zero _ _ _ _ LK lvK 1 fun _ _ => rfl
  pre c := iprop(StableHlo.held (c : Thread nD τ) (Pipeline.ucRefs τ sig) (Bnd3 m ρ c) ∗ RK c)
  post c := iprop(StableHlo.held (c : Thread nD τ) (Pipeline.ucRefs τ sig) (Bnd4 m ρ c) ∗ RK c)
  X c := iprop(∃ r, prngReg c r)
  Y c := iprop(∃ r, prngReg c r)
  Z c := Pipeline.unscopedRest (Ix := Unit) (Name := ℕ) (U := UR sig nD τ) (Lvl := ℕ) spec1 c (Ent1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from hout1 (Ent1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ent1 m ρ c) (Bnd4r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segsK : List (Pipeline.Seg (pcfgs (F := F)) adm (pdats m ρ) () defs₀ 𝒱K LK lvK) :=
  [ .host (hsegK hostOps0 hostOps0_sub hostOps0_fresh (Bnd0 m ρ)),
    .region (reg0 m ρ),
    .host (hsegK hostOps1 hostOps1_sub hostOps1_fresh (Bnd2 m ρ)),
    .region (reg1 m ρ),
    .host (hsegK hostOps2 hostOps2_sub hostOps2_fresh (Bnd4 m ρ)) ]
theorem main_runK (c : Dev nD) : main (F := F) c = Pipeline.Seg.run (segsK m ρ) := (main_chain c).trans (by chain_rfl)

set_option backward.isDefEq.respectTransparency.types false in
/-- THE RUN: every weakly fair execution terminates, nothing faulting, and every unscoped buffer ends at `Bnd5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bnd5 m ρ c b) :=
  Pipeline.θ_run_regions_kit (pcfgs (F := F)) adm (pdats m ρ) () cellOf_inj emb₁ defs₀ 𝒱K LK lvK m ρ main (segsK m ρ)
    (fun c Q => by rw [main_runK m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bnd0 m ρ c) ∗ RK c))
    (Tₙ := fun c => iprop(StableHlo.held (c : Thread nD τ) (Pipeline.ucRefs τ sig) (Bnd5 m ρ c) ∗ ∃ r, prngReg c r))
    (hch := ⟨fun _ => .rfl, fun _ => .rfl, fun _ => .rfl, fun _ => .rfl, fun _ => .rfl, fun c => by
      change iprop(StableHlo.held (c : Thread nD τ) (Pipeline.ucRefs τ sig) (Bnd5 m ρ c) ∗ RK c) ⊢ _
      iintro ⟨Hh, Hp, HO⟩
      isplitl [Hh Hp]
      · isplitl [Hh]; · iexact Hh
        iexact Hp
      iexact HO⟩)
    (hinit := by
      refine Pipeline.initEach LK lvK fun c => ?_
      rw [show unscopedBufs c (fun b => m ((c : Thread nD τ).loc b)) = StableHlo.held (c : Thread nD τ) (Pipeline.ucRefs τ sig) (Bnd0 m ρ c)
        from Pipeline.unscopedBufs_held c (Bnd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bnd5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bnd5 m ρ c) s')
      isplitl [Hh] <;> iassumption)
    (hQ := fun s h => h)

end Cert.KernelIdeal.Frame

end
-- ==== Proof.KI.Ends.lean ====
/-
  The run's end read back. No host operation writes an argument array and no region changes one (a region reads it
  through an input window, whose array it leaves as entered, or does not touch it), so the fold at an argument's buffer
  walks back to the launch memory: the frame. The result buffer ends at the fold's value there.
-/
import proofs.«120060_j231928234454_2_alg».proof.Proof.KI.Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Bnd1_keep (c : Dev nD) (r : Ref sig .tc) (h : r ∉ hostOps0_W) :
    Bnd1 m ρ c (Proc.devRef .tc r) = Bnd0 m ρ c (Proc.devRef .tc r) :=
  StableHlo.after_of_writes_sub hostOps0 _ hostOps0_writes h
theorem Bnd3_keep (c : Dev nD) (r : Ref sig .tc) (h : r ∉ hostOps1_W) :
    Bnd3 m ρ c (Proc.devRef .tc r) = Bnd2 m ρ c (Proc.devRef .tc r) :=
  StableHlo.after_of_writes_sub hostOps1 _ hostOps1_writes h
theorem Bnd5_keep (c : Dev nD) (r : Ref sig .tc) (h : r ∉ hostOps2_W) :
    Bnd5 m ρ c (Proc.devRef .tc r) = Bnd4 m ρ c (Proc.devRef .tc r) :=
  StableHlo.after_of_writes_sub hostOps2 _ hostOps2_writes h

/-- A buffer no host stretch writes and both regions leave as entered ends as launched. -/
theorem Bnd5_arg (c : Dev nD) (r : Ref sig .tc) (h0 : r ∉ hostOps0_W) (h1 : r ∉ hostOps1_W) (h2 : r ∉ hostOps2_W)
    (e0 : Bnd2 m ρ c (Proc.devRef .tc r) = Bnd1 m ρ c (Proc.devRef .tc r))
    (e1 : Bnd4 m ρ c (Proc.devRef .tc r) = Bnd3 m ρ c (Proc.devRef .tc r)) :
    Bnd5 m ρ c (Proc.devRef .tc r) = m ((c : Thread nD τ).loc r) :=
  (Bnd5_keep m ρ c r h2).trans (e1.trans ((Bnd3_keep m ρ c r h1).trans (e0.trans ((Bnd1_keep m ρ c r h0).trans rfl))))

theorem Bnd5_main_arg0 (c : Dev nD) : Bnd5 m ρ c (Proc.devRef .tc main_arg0) = m ((c : Thread nD τ).loc main_arg0) :=
  Bnd5_arg m ρ c main_arg0 (by decide) (by decide) (by decide) (Bnd2_of_ne m ρ c main_arg0 (by decide)) (Bnd4_of_ne m ρ c main_arg0 (by decide))
theorem Bnd5_main_arg1 (c : Dev nD) : Bnd5 m ρ c (Proc.devRef .tc main_arg1) = m ((c : Thread nD τ).loc main_arg1) :=
  Bnd5_arg m ρ c main_arg1 (by decide) (by decide) (by decide) (Bnd2_of_ne m ρ c main_arg1 (by decide)) (Bnd4_of_ne m ρ c main_arg1 (by decide))
theorem Bnd5_main_arg2 (c : Dev nD) : Bnd5 m ρ c (Proc.devRef .tc main_arg2) = m ((c : Thread nD τ).loc main_arg2) :=
  Bnd5_arg m ρ c main_arg2 (by decide) (by decide) (by decide) ((Bnd2_arr m ρ c 0).trans (((dat0 (Ent0 m ρ) c).arrAt_in 0 rfl _).trans (A_eq0 (Ent0 m ρ) c 0))) (Bnd4_of_ne m ρ c main_arg2 (by decide))
theorem Bnd5_main_arg3 (c : Dev nD) : Bnd5 m ρ c (Proc.devRef .tc main_arg3) = m ((c : Thread nD τ).loc main_arg3) :=
  Bnd5_arg m ρ c main_arg3 (by decide) (by decide) (by decide) ((Bnd2_arr m ρ c 1).trans (((dat0 (Ent0 m ρ) c).arrAt_in 1 rfl _).trans (A_eq0 (Ent0 m ρ) c 1))) (Bnd4_of_ne m ρ c main_arg3 (by decide))
theorem Bnd5_main_arg4 (c : Dev nD) : Bnd5 m ρ c (Proc.devRef .tc main_arg4) = m ((c : Thread nD τ).loc main_arg4) :=
  Bnd5_arg m ρ c main_arg4 (by decide) (by decide) (by decide) ((Bnd2_arr m ρ c 2).trans (((dat0 (Ent0 m ρ) c).arrAt_in 2 rfl _).trans (A_eq0 (Ent0 m ρ) c 2))) (Bnd4_of_ne m ρ c main_arg4 (by decide))
theorem Bnd5_main_arg5 (c : Dev nD) : Bnd5 m ρ c (Proc.devRef .tc main_arg5) = m ((c : Thread nD τ).loc main_arg5) :=
  Bnd5_arg m ρ c main_arg5 (by decide) (by decide) (by decide) (Bnd2_of_ne m ρ c main_arg5 (by decide)) ((Bnd4_arr m ρ c 2).trans (((dat1 (Ent1 m ρ) c).arrAt_in 2 rfl _).trans (A_eq1 (Ent1 m ρ) c 2)))
theorem Bnd5_main_arg6 (c : Dev nD) : Bnd5 m ρ c (Proc.devRef .tc main_arg6) = m ((c : Thread nD τ).loc main_arg6) :=
  Bnd5_arg m ρ c main_arg6 (by decide) (by decide) (by decide) (Bnd2_of_ne m ρ c main_arg6 (by decide)) (Bnd4_of_ne m ρ c main_arg6 (by decide))

/-- THE FRAME, at any float instance: every weakly fair execution terminates, nothing faulting, and the argument arrays
    end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (Bnd5_main_arg0 m ρ c),
      (h c _ (mem_uc main_arg1 (by decide))).trans (Bnd5_main_arg1 m ρ c),
      (h c _ (mem_uc main_arg2 (by decide))).trans (Bnd5_main_arg2 m ρ c),
      (h c _ (mem_uc main_arg3 (by decide))).trans (Bnd5_main_arg3 m ρ c),
      (h c _ (mem_uc main_arg4 (by decide))).trans (Bnd5_main_arg4 m ρ c),
      (h c _ (mem_uc main_arg5 (by decide))).trans (Bnd5_main_arg5 m ρ c),
      (h c _ (mem_uc main_arg6 (by decide))).trans (Bnd5_main_arg6 m ρ c)⟩) (run_all m ρ)

/-- The same run with the result buffer named: it ends at the fold's value. -/
theorem run_result : θ_run defs (onTc (τ := τ) (main (F := F))) ⟨m, fun _ => 0, ρ⟩ (fun r => ∀ c : Dev nD,
      r.2.mem ((c.tc : Thread nD τ).loc main_v23) = Bnd5 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v23 (by decide)),
      (h c _ (mem_uc main_arg0 (by decide))).trans (Bnd5_main_arg0 m ρ c),
      (h c _ (mem_uc main_arg1 (by decide))).trans (Bnd5_main_arg1 m ρ c),
      (h c _ (mem_uc main_arg2 (by decide))).trans (Bnd5_main_arg2 m ρ c),
      (h c _ (mem_uc main_arg3 (by decide))).trans (Bnd5_main_arg3 m ρ c),
      (h c _ (mem_uc main_arg4 (by decide))).trans (Bnd5_main_arg4 m ρ c),
      (h c _ (mem_uc main_arg5 (by decide))).trans (Bnd5_main_arg5 m ρ c),
      (h c _ (mem_uc main_arg6 (by decide))).trans (Bnd5_main_arg6 m ρ c)⟩) (run_all m ρ)

end Cert.KernelIdeal.Frame

end
-- ==== Proof.Spec.lean ====
/-
  The two kernels' results, one entry at a time, as functions of plain rows of extended reals.

  Cosine part.  For a symptom row `e`, a relation row `rl` (both of length 128) and the symptom's
  mask value `mk`, the masked sum row is `x d = (e d + rl d) * mk`.  Its squared length is
  `sq = ∑ d, x d * x d`, and its guarded length is `sqrt sq` where `sq > 0` and `0` elsewhere (the
  inner guard replaces a non-positive `sq` by one before the root is taken).  Against a disease row
  `ds` with length `dnk`, the entry is the dot product `∑ d, ds d * x d` divided by the larger of
  `dnk * length` and a fixed small positive word.

  Linear part.  A hidden row is a rule row of length 512 followed by a cosine row of length 32768;
  against a weight row `w` of length 512 + 32768 its contribution is the sum of the two partial
  dot products.
-/
import Idealize.ShloMosaic.PureOps.Ideal
import Idealize.ShloMosaic.PureOps.Ideal.Laws
import Idealize.ShloMosaic.Lib.ValueIdx

noncomputable section

open scoped BigOperators
open Idealize.ShloMosaic

namespace Cert.Spec

/-- The masked sum of a symptom row and a relation row. -/
def xRow (e rl : Fin 128 → EReal) (mk : EReal) (d : Fin 128) : EReal := (e d + rl d) * mk

/-- The squared length of a row. -/
def sqNorm (x : Fin 128 → EReal) : EReal := ∑ d : Fin 128, x d * x d

/-- The guarded length: the root of `sq` where `sq` is positive, zero elsewhere. -/
def safeNorm (sq : EReal) : EReal :=
  Scalar.select (Ideal.cmp .ogt sq 0)
    (Ideal.sqrt (Scalar.select (Ideal.cmp .ogt sq 0) sq (Ideal.ofBits .f32 0x3F800000#32))) 0

/-- The length of a disease row. -/
def dnorm (ds : Fin 128 → EReal) : EReal := Ideal.sqrt (∑ d : Fin 128, ds d * ds d)

/-- One cosine entry, from a symptom row, a relation row, a disease row, the symptom's mask value
    and the disease row's length. -/
def cosElem (e rl ds : Fin 128 → EReal) (mk dnk : EReal) : EReal :=
  Ideal.div (∑ d : Fin 128, ds d * xRow e rl mk d)
    (max (dnk * safeNorm (sqNorm (xRow e rl mk))) (Ideal.ofBits .f32 0x358637BD#32))

/-- One hidden row's contribution to one output: the rule part against the first 512 weights plus
    the cosine part against the remaining 32768. -/
def fcRow (rule : Fin 512 → EReal) (kgrow : Fin 32768 → EReal) (w : Fin 33280 → EReal) : EReal :=
  (∑ c : Fin 512, rule c * w ⟨c.val, by have := c.isLt; omega⟩)
    + ∑ n : Fin 32768, kgrow n * w ⟨512 + n.val, by have := n.isLt; omega⟩

end Cert.Spec

end
-- ==== Proof.KI.Pay0.lean ====
/-
  The cosine kernel's stored block read at an index, at the extended reals.

  One grid point handles 512 symptoms.  Row `8 s + r` of the flattened 4096×128 block is the masked sum
  of symptom row `s` and relation row `r` (the flattening of the 512×8×128 array is row-major).  The stored
  entry `(k, 8 s + r)` is the dot product of disease row `k` with that row (a matrix product accumulated
  into zero, after a transpose; the narrowing of its operands is the identity on extended reals) divided
  by the larger of (the disease row's length times the row's guarded length) and a small positive word.
  The row's squared length is a sum along the lanes; the guarded length is read through two one-row
  broadcasts.
-/
import proofs.«120060_j231928234454_2_alg».proof.Proof.Gen.KernelIdeal.Skeleton
import proofs.«120060_j231928234454_2_alg».proof.Proof.Spec
import Idealize.ShloMosaic.Lib.ValueLayout
import Idealize.ShloMosaic.PureOps.Ideal.Laws

noncomputable section

open scoped BigOperators
open Idealize.ShloMosaic Idealize.ShloMosaic.ValueIdx
open Cert.KernelIdeal Cert.KernelIdeal.Gen

namespace Cert.KernelIdeal.Pay

theorem matmul_cos_apply_l0 (i : S64x4096.Idx) (q : dot_S64x128_S128x4096_S64x4096_1_0_0_1_n_n.contr.Idx) : (dot_S64x128_S128x4096_S64x4096_1_0_0_1_n_n.lhsIdx i q 0).val = (i 0).val := by
  unfold DotDims.lhsIdx
  rw [dif_neg (show ¬(0 : Fin S64x128.rank) ∈ dot_S64x128_S128x4096_S64x4096_1_0_0_1_n_n.lhsBatch by decide), dif_pos (show (0 : Fin S64x128.rank) ∈ dot_S64x128_S128x4096_S64x4096_1_0_0_1_n_n.lhsNonContracting by decide)]
  rfl
theorem matmul_cos_apply_l1 (i : S64x4096.Idx) (q : dot_S64x128_S128x4096_S64x4096_1_0_0_1_n_n.contr.Idx) : (dot_S64x128_S128x4096_S64x4096_1_0_0_1_n_n.lhsIdx i q 1).val = (q ⟨0, by decide⟩).val :=
  dot_S64x128_S128x4096_S64x4096_1_0_0_1_n_n.lhsIdx_val_of_single rfl i q
theorem matmul_cos_apply_r0 (i : S64x4096.Idx) (q : dot_S64x128_S128x4096_S64x4096_1_0_0_1_n_n.contr.Idx) : (dot_S64x128_S128x4096_S64x4096_1_0_0_1_n_n.rhsIdx i q 0).val = (q ⟨0, by decide⟩).val :=
  dot_S64x128_S128x4096_S64x4096_1_0_0_1_n_n.rhsIdx_val_of_single rfl i q
theorem matmul_cos_apply_r1 (i : S64x4096.Idx) (q : dot_S64x128_S128x4096_S64x4096_1_0_0_1_n_n.contr.Idx) : (dot_S64x128_S128x4096_S64x4096_1_0_0_1_n_n.rhsIdx i q 1).val = (i 1).val := by
  unfold DotDims.rhsIdx
  rw [dif_neg (show ¬(1 : Fin S128x4096.rank) ∈ dot_S64x128_S128x4096_S64x4096_1_0_0_1_n_n.rhsBatch by decide), dif_pos (show (1 : Fin S128x4096.rank) ∈ dot_S64x128_S128x4096_S64x4096_1_0_0_1_n_n.rhsNonContracting by decide)]
  rfl

/-- A plain matrix product 64×128 by 128×4096 accumulated into zero, read at `(i, j)`: the sum over the
    contracted coordinate of the left operand's row `i` times the right operand's column `j`. -/
theorem matmul_cos_apply (lhs : FVec Ideal S64x128 .bf16) (rhs : FVec Ideal S128x4096 .bf16) (i : Fin 64) (j : Fin 4096) :
    matmul dot_S64x128_S128x4096_S64x4096_1_0_0_1_n_n none lhs rhs (constant (F := Ideal) S64x4096 .f32 0x00000000#32) (ix2 i j)
      = ∑ c : Fin 128, lhs (ix2 i c) * rhs (ix2 c j) := by
  simp only [matmul]
  rw [Ideal.matmul_constant_zero_apply, ← Equiv.sum_comp (contrEquiv1 dot_S64x128_S128x4096_S64x4096_1_0_0_1_n_n 128 rfl rfl).symm]
  refine Finset.sum_congr rfl fun c _ => ?_
  have hc := contrEquiv1_symm_val dot_S64x128_S128x4096_S64x4096_1_0_0_1_n_n 128 rfl rfl c
  have el : dot_S64x128_S128x4096_S64x4096_1_0_0_1_n_n.lhsIdx (ix2 i j) ((contrEquiv1 dot_S64x128_S128x4096_S64x4096_1_0_0_1_n_n 128 rfl rfl).symm c) = ix2 i c := funext fun a => Fin.ext (by
    match a with
    | ⟨0, _⟩ => exact matmul_cos_apply_l0 _ _
    | ⟨1, _⟩ => exact (matmul_cos_apply_l1 _ _).trans hc)
  have er : dot_S64x128_S128x4096_S64x4096_1_0_0_1_n_n.rhsIdx (ix2 i j) ((contrEquiv1 dot_S64x128_S128x4096_S64x4096_1_0_0_1_n_n 128 rfl rfl).symm c) = ix2 c j := funext fun a => Fin.ext (by
    match a with
    | ⟨0, _⟩ => exact (matmul_cos_apply_r0 _ _).trans hc
    | ⟨1, _⟩ => exact matmul_cos_apply_r1 _ _)
  rw [el, er]

section Layout
variable {α : Type}

/-- A symptom row repeated over the eight relations. -/
theorem bcast_embed_apply (v : S512x1x128.Idx → α) (s : Fin 512) (r : Fin 8) (c : Fin 128) :
    broadcastTo S512x8x128 v broadcasts_S512x1x128_S512x8x128 (ix3 s r c) = v (ix3 s (0 : Fin 1) c) :=
  broadcastTo_apply v _ _ _ fun a => match a with | ⟨0, _⟩ => rfl | ⟨1, _⟩ => rfl | ⟨2, _⟩ => rfl

/-- A relation row repeated over the symptoms. -/
theorem bcast_rel_apply (v : S1x8x128.Idx → α) (s : Fin 512) (r : Fin 8) (c : Fin 128) :
    broadcastTo S512x8x128 v broadcasts_S1x8x128_S512x8x128 (ix3 s r c) = v (ix3 (0 : Fin 1) r c) :=
  broadcastTo_apply v _ _ _ fun a => match a with | ⟨0, _⟩ => rfl | ⟨1, _⟩ => rfl | ⟨2, _⟩ => rfl

/-- A symptom's mask value repeated over relations and lanes. -/
theorem bcast_mask_apply (v : S512x1x1.Idx → α) (s : Fin 512) (r : Fin 8) (c : Fin 128) :
    broadcastTo S512x8x128 v broadcasts_S512x1x1_S512x8x128 (ix3 s r c) = v (ix3 s (0 : Fin 1) (0 : Fin 1)) :=
  broadcastTo_apply v _ _ _ fun a => match a with | ⟨0, _⟩ => rfl | ⟨1, _⟩ => rfl | ⟨2, _⟩ => rfl

/-- A disease row's length repeated along the columns. -/
theorem bcast_dn_apply (v : S64x1.Idx → α) (k : Fin 64) (n : Fin 4096) :
    broadcastTo S64x4096 v broadcasts_S64x1_S64x4096 (ix2 k n) = v (ix2 k (0 : Fin 1)) :=
  broadcastTo_apply v _ _ _ fun a => match a with | ⟨0, _⟩ => rfl | ⟨1, _⟩ => rfl

/-- The symptom block with a unit middle axis. -/
theorem cast_embed_apply (v : S512x128.Idx → α) (s : Fin 512) (c : Fin 128) :
    shapeCast S512x1x128 v shapeCasts_S512x128_S512x1x128 (ix3 s (0 : Fin 1) c) = v (ix2 s c) :=
  shapeCast_apply v _ _ _ (by
    rw [Shape.rowMajor_val_three, Shape.rowMajor_val_two]
    show s.val * 128 + c.val = (s.val * 1 + 0) * 128 + c.val
    omega)

/-- The mask with two unit axes. -/
theorem cast_mask_apply (v : S512.Idx → α) (s : Fin 512) :
    shapeCast S512x1x1 v shapeCasts_S512_S512x1x1 (ix3 s (0 : Fin 1) (0 : Fin 1)) = v (ix1 s) :=
  shapeCast_apply v _ _ _ (by
    rw [Shape.rowMajor_val_three, Shape.rowMajor_val_one]
    show s.val = (s.val * 1 + 0) * 1 + 0
    omega)

/-- The row-major flattening of symptoms × relations: row `8 s + r` is `(s, r)`. -/
theorem cast_rows_apply (v : S512x8x128.Idx → α) (s : Fin 512) (r : Fin 8) (c : Fin 128) (n : Fin 4096)
    (hn : n.val = 8 * s.val + r.val) :
    shapeCast S4096x128 v shapeCasts_S512x8x128_S4096x128 (ix2 n c) = v (ix3 s r c) :=
  shapeCast_apply v _ _ _ (by
    rw [Shape.rowMajor_val_three, Shape.rowMajor_val_two]
    show (s.val * 8 + r.val) * 128 + c.val = n.val * 128 + c.val
    rw [hn]; omega)

end Layout

/-- A sum along the lanes of a 4096×128 block, read at row `n`. -/
theorem rowsum_apply (src : FVec Ideal S4096x128 .f32) (hφ : FKind.Formats .f32)
    (hacc : (0x00000000#32 : BitVec 32) = 0x00000000#32) (n : Fin 4096) :
    multiReduction .add [1] S4096 src 0x00000000#32 reduces_S4096x128_S4096 hφ hacc (ix1 n)
      = ∑ c : Fin 128, src (ix2 n c) := by
  refine (Ideal.multiReduction_add_single src 0x00000000#32 reduces_S4096x128_S4096 hφ hacc (ix1 n)).trans ?_
  refine Finset.sum_congr rfl fun c _ => congrArg src ?_
  funext a
  match a with
  | ⟨0, _⟩ => rfl
  | ⟨1, _⟩ => rfl

/-- The masked sum rows: the symptom block plus the relation block, times the mask, flattened to
    4096 rows (the kernel's own operations, over the three loaded blocks). -/
def xrows (v0 : Vec Ideal S512x128 .f32) (v1 : Vec Ideal S8x128 .f32) (v3 : Vec Ideal S512 .f32) : FVec Ideal S4096x128 .f32 :=
  have v4 : FVec Ideal S512 .f32 := shapeCast S512 v3 shapeCasts_S512_S512
  have v7 : FVec Ideal S512x1x128 .f32 := shapeCast S512x1x128 v0 shapeCasts_S512x128_S512x1x128
  have v8 : FVec Ideal S1x8x128 .f32 := shapeCast S1x8x128 v1 shapeCasts_S8x128_S1x8x128
  have v9 : FVec Ideal S512x8x128 .f32 := broadcastTo S512x8x128 v7 broadcasts_S512x1x128_S512x8x128
  have v10 : FVec Ideal S512x8x128 .f32 := broadcastTo S512x8x128 v8 broadcasts_S1x8x128_S512x8x128
  have v11 : FVec Ideal S512x8x128 .f32 := addf v9 v10
  have v12 : FVec Ideal S512x1x1 .f32 := shapeCast S512x1x1 v4 shapeCasts_S512_S512x1x1
  have v13 : FVec Ideal S512x8x128 .f32 := broadcastTo S512x8x128 v12 broadcasts_S512x1x1_S512x8x128
  have v14 : FVec Ideal S512x8x128 .f32 := mulf v11 v13
  shapeCast S4096x128 v14 shapeCasts_S512x8x128_S4096x128

/-- What the kernel stores, from the masked sum rows `v15`, the disease block and the disease lengths. -/
def cosTail (v15 : FVec Ideal S4096x128 .f32) (v2 : Vec Ideal S64x128 .f32) (v5 : Vec Ideal S64x1 .f32) : FVec Ideal S64x4096 .f32 :=
  have v6 : FVec Ideal S64x1 .f32 := shapeCast S64x1 v5 shapeCasts_S64x1_S64x1
  have v16 : FVec Ideal S4096x128 .f32 := mulf v15 v15
  have v17 : FVec Ideal S4096 .f32 := multiReduction .add [1] S4096 v16 0x00000000#32 reduces_S4096x128_S4096 (.inl rfl) rfl
  have cst_8 : Ideal .f32 := Scalar.ofBits .f32 0x00000000#32
  have v18 : FVec Ideal S4096 .f32 := broadcast S4096 cst_8
  have v19 : IVec S4096 1 := cmpf .ogt v17 v18
  have cst_9 : Ideal .f32 := Scalar.ofBits .f32 0x00000000#32
  have v20 : FVec Ideal S4096 .f32 := broadcast S4096 cst_9
  have v21 : IVec S4096 1 := cmpf .ogt v17 v20
  have cst_10 : Ideal .f32 := Scalar.ofBits .f32 0x3F800000#32
  have v22 : FVec Ideal S4096 .f32 := broadcast S4096 cst_10
  have v23 : FVec Ideal S4096 .f32 := select v21 v17 v22
  have v24 : FVec Ideal S4096 .f32 := sqrt v23
  have cst_11 : Ideal .f32 := Scalar.ofBits .f32 0x00000000#32
  have v25 : FVec Ideal S4096 .f32 := broadcast S4096 cst_11
  have v26 : FVec Ideal S4096 .f32 := select v19 v24 v25
  have v27 : FVec Ideal S64x128 .bf16 := truncf .bf16 v2 bitsLt_bf16_f32
  have v28 : FVec Ideal S4096x128 .bf16 := truncf .bf16 v15 bitsLt_bf16_f32
  have v29 : FVec Ideal S128x4096 .bf16 := transpose S128x4096 [1, 0] v28 transposes_S4096x128_p1_0_S128x4096
  have cst_12 : FVec Ideal S64x4096 .f32 := constant S64x4096 .f32 0x00000000#32
  have v30 : FVec Ideal S64x4096 .f32 := matmul dot_S64x128_S128x4096_S64x4096_1_0_0_1_n_n none v27 v29 cst_12
  have v31 : FVec Ideal S1x4096 .f32 := shapeCast S1x4096 v26 shapeCasts_S4096_S1x4096
  have v32 : FVec Ideal S64x4096 .f32 := broadcastTo S64x4096 v6 broadcasts_S64x1_S64x4096
  have v33 : FVec Ideal S64x4096 .f32 := broadcastTo S64x4096 v31 broadcasts_S1x4096_S64x4096
  have v34 : FVec Ideal S64x4096 .f32 := mulf v32 v33
  have cst_13 : Ideal .f32 := Scalar.ofBits .f32 0x358637BD#32
  have v35 : FVec Ideal S64x4096 .f32 := broadcast S64x4096 cst_13
  have v36 : FVec Ideal S64x4096 .f32 := maximumf v34 v35
  divf v30 v36

/-- The stored block is the second part applied to the first. -/
theorem k0_pay1_eq (x0 : Vec Ideal S512x128 .f32) (x1 : Vec Ideal S8x128 .f32) (x2 : Vec Ideal S64x128 .f32)
    (x3 : Vec Ideal S512 .f32) (x5 : Vec Ideal S64x1 .f32) :
    k0_pay1 (F := Ideal) x0 x1 x2 x3 x5 = cosTail (xrows x0 x1 x3) x2 x5 := rfl

/-- Row `8 s + r` of the masked sum rows. -/
theorem xrows_apply (x0 : Vec Ideal S512x128 .f32) (x1 : Vec Ideal S8x128 .f32) (x3 : Vec Ideal S512 .f32)
    (s : Fin 512) (r : Fin 8) (c : Fin 128) (n : Fin 4096) (hn : n.val = 8 * s.val + r.val) :
    xrows x0 x1 x3 (ix2 n c) = Cert.Spec.xRow (fun d => x0 (ix2 s d)) (fun d => x1 (ix2 r d)) (x3 (ix1 s)) c := by
  unfold xrows
  rw [cast_rows_apply _ s r c n hn, mulf_apply, addf_apply, bcast_embed_apply, bcast_rel_apply, bcast_mask_apply,
    cast_embed_apply, shapeCast_ab_1ab_apply, cast_mask_apply, shapeCast_self]
  rfl

/-- The guarded length read at a row. -/
theorem guard_apply (q : FVec Ideal S4096 .f32) (n : Fin 4096) :
    select (cmpf .ogt q (broadcast S4096 (Scalar.ofBits (F := Ideal) .f32 0x00000000#32)))
        (sqrt (select (cmpf .ogt q (broadcast S4096 (Scalar.ofBits (F := Ideal) .f32 0x00000000#32))) q
          (broadcast S4096 (Scalar.ofBits (F := Ideal) .f32 0x3F800000#32))))
        (broadcast S4096 (Scalar.ofBits (F := Ideal) .f32 0x00000000#32)) (ix1 n)
      = Cert.Spec.safeNorm (q (ix1 n)) := by
  unfold Cert.Spec.safeNorm
  show Scalar.select (Ideal.cmp .ogt (q (ix1 n)) (Ideal.ofBits .f32 0x00000000#32))
      (Ideal.sqrt (Scalar.select (Ideal.cmp .ogt (q (ix1 n)) (Ideal.ofBits .f32 0x00000000#32)) (q (ix1 n))
        (Ideal.ofBits .f32 0x3F800000#32))) (Ideal.ofBits .f32 0x00000000#32) = _
  rw [Ideal.ofBits_zero_f32]

/-- The stored entry from the masked sum rows: the dot product over the larger of the product of
    lengths and the small word. -/
theorem cosTail_apply (X : FVec Ideal S4096x128 .f32) (x2 : Vec Ideal S64x128 .f32) (x5 : Vec Ideal S64x1 .f32)
    (k : Fin 64) (n : Fin 4096) :
    cosTail X x2 x5 (ix2 k n)
      = Ideal.div (∑ c : Fin 128, x2 (ix2 k c) * X (ix2 n c))
          (max (x5 (ix2 k (0 : Fin 1)) * Cert.Spec.safeNorm (∑ c : Fin 128, X (ix2 n c) * X (ix2 n c)))
            (Ideal.ofBits .f32 0x358637BD#32)) := by
  unfold cosTail
  rw [divf_apply, matmul_cos_apply, maximumf_apply, mulf_apply, bcast_dn_apply, shapeCast_self,
    broadcastTo_1b_ab_apply, shapeCast_a_1a_apply, guard_apply, rowsum_apply]
  refine congrArg₂ Ideal.div (Finset.sum_congr rfl fun c _ => ?_) rfl
  rw [truncf_apply, transpose_ix2_apply, truncf_apply]

/-- The cosine kernel's stored entry `(k, 8 s + r)`. -/
theorem pay0_apply (x0 : Vec Ideal S512x128 .f32) (x1 : Vec Ideal S8x128 .f32) (x2 : Vec Ideal S64x128 .f32)
    (x3 : Vec Ideal S512 .f32) (x5 : Vec Ideal S64x1 .f32) (k : Fin 64) (s : Fin 512) (r : Fin 8) :
    k0_pay1 (F := Ideal) x0 x1 x2 x3 x5
        (ix2 k (⟨8 * s.val + r.val, by have := s.isLt; have := r.isLt; omega⟩ : Fin 4096))
      = Cert.Spec.cosElem (fun d => x0 (ix2 s d)) (fun d => x1 (ix2 r d)) (fun d => x2 (ix2 k d)) (x3 (ix1 s))
          (x5 (ix2 k (0 : Fin 1))) := by
  rw [k0_pay1_eq, cosTail_apply]
  unfold Cert.Spec.cosElem Cert.Spec.sqNorm
  have hX : ∀ c : Fin 128,
      xrows x0 x1 x3 (ix2 (⟨8 * s.val + r.val, by have := s.isLt; have := r.isLt; omega⟩ : Fin 4096) c)
        = Cert.Spec.xRow (fun d => x0 (ix2 s d)) (fun d => x1 (ix2 r d)) (x3 (ix1 s)) c :=
    fun c => xrows_apply x0 x1 x3 s r c _ rfl
  simp only [hX]

end Cert.KernelIdeal.Pay

end
-- ==== Proof.KI.Kg.lean ====
/-
  The first pallas_call's output array after its region, at the exact (extended-real) instance, as ONE
  function of the arrays the region finds.

  The output array has 64 rows (one per disease) and 32768 columns; column `n` belongs to symptom `n / 8`
  and relation `n % 8`.  The grid has 8 points; point `t` writes columns `4096 t … 4096 t + 4095`, and reads
  symptom rows `512 t … 512 t + 511` (with their mask values), all 8 relation rows, all 64 disease rows and
  their lengths.  Inside a block, column `q` is symptom `q / 8` of the block and relation `q % 8`; since
  `4096 = 8 · 512`, symptom `q / 8` of block `t` is symptom `(4096 t + q) / 8` of the whole array and the relation
  is `(4096 t + q) % 8`.  So every block written is the restriction of one function of the column, and the
  eight blocks tile the array.
-/
import proofs.«120060_j231928234454_2_alg».proof.Proof.KI.Region0
import proofs.«120060_j231928234454_2_alg».proof.Proof.Spec
import proofs.«120060_j231928234454_2_alg».proof.Proof.KI.Pay0
import Idealize.ShloMosaic.Lib.Pipeline.Value
import Idealize.ShloMosaic.Lib.Tactic

noncomputable section

namespace Cert.KernelIdeal.Frame

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents on entry to the region, at the exact instance
variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- A grid point is one of 8. -/
theorem point_lt (t : Fin cfg0.N) : t.val < 8 := lt_of_lt_of_eq t.isLt N_0
/-- And conversely. -/
theorem lt_points {n : Nat} (h : n < 8) : n < cfg0.N := lt_of_lt_of_eq h N_0.symm

/-! ## The function -/

/-- Entry (`k`, `n`) of the output: the cosine entry of symptom row `n / 8` (with its mask value), relation row
    `n % 8` and disease row `k` (with its length), all read from the entry contents `V`. -/
def kgEntry (c : Dev nD) (k : Fin 64) (n : Fin 32768) : EReal :=
  Cert.Spec.cosElem
    (fun d => (V c main_arg2 : S4096x128.Idx → Elt Ideal .f32) (ix2 ⟨n.val / 8, by have := n.isLt; omega⟩ d))
    (fun d => (V c main_arg3 : S8x128.Idx → Elt Ideal .f32) (ix2 ⟨n.val % 8, by omega⟩ d))
    (fun d => (V c main_arg4 : S64x128.Idx → Elt Ideal .f32) (ix2 k d))
    ((V c main_v2 : S4096.Idx → Elt Ideal .f32) (ix1 ⟨n.val / 8, by have := n.isLt; omega⟩))
    ((V c main_v6 : S64x1.Idx → Elt Ideal .f32) (ix2 k 0))

/-- The whole array. -/
def kgArr (c : Dev nD) : S64x32768.Idx → Elt Ideal .f32 := fun i => kgEntry V c (i 0) (i 1)

/-- The body's value at one entry of its block, in terms of rows of the five input blocks: entry (`k`, `8 s + r`)
    is the cosine entry of the block's symptom row `s`, relation row `r` and disease row `k`. -/
def PayAt : Prop :=
  ∀ (x0 : Vec Ideal S512x128 .f32) (x1 : Vec Ideal S8x128 .f32) (x2 : Vec Ideal S64x128 .f32) (x3 : Vec Ideal S512 .f32)
    (x5 : Vec Ideal S64x1 .f32) (k : Fin 64) (s : Fin 512) (r : Fin 8),
    k0_pay1 (F := Ideal) x0 x1 x2 x3 x5 (ix2 k ⟨8 * s.val + r.val, by have := s.isLt; have := r.isLt; omega⟩)
      = Cert.Spec.cosElem (fun d => x0 (ix2 s d)) (fun d => x1 (ix2 r d)) (fun d => x2 (ix2 k d)) (x3 (ix1 s)) (x5 (ix2 k 0))

/-! ## Which block each window is on at a point -/

/-- The index maps over the grid: the symptom rows and the mask move with the point, the relation rows, the
    disease rows and their lengths stay at block 0, the output's columns move with the point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = t.val
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-! ## Each input block, read in the array -/

/-- Symptom block at point `t`: row `x 0` of the block is row `512 t + x 0` of the array. -/
theorem symptoms_at (c : Dev nD) (t : Fin cfg0.N) (x : S512x128.Idx) (i : S4096x128.Idx)
    (h0 : (i 0).val = 512 * t.val + (x 0).val) (h1 : (i 1).val = (x 1).val) :
    (iblk0 V c 0 t : Vec Ideal S512x128 .f32) x = (V c main_arg2 : S4096x128.Idx → Elt Ideal .f32) i := by
  obtain ⟨e0, e1, -⟩ := block_indices t
  unfold iblk0
  rw [View.read_apply]
  show V c main_arg2 _ = V c main_arg2 _
  refine congrArg _ ?_
  funext a; apply Fin.ext
  match a with
  | ⟨0, _⟩ => show win0_0.index t (0 : Fin 2) * 512 + 1 * (x 0).val = (i 0).val; omega
  | ⟨1, _⟩ => show win0_0.index t (1 : Fin 2) * 128 + 1 * (x 1).val = (i 1).val; omega

/-- Relation block: the whole array at every point. -/
theorem relations_at (c : Dev nD) (t : Fin cfg0.N) (x : S8x128.Idx) :
    (iblk0 V c 1 t : Vec Ideal S8x128 .f32) x = (V c main_arg3 : S8x128.Idx → Elt Ideal .f32) x := by
  obtain ⟨-, -, e0, e1, -⟩ := block_indices t
  unfold iblk0
  rw [View.read_apply]
  show V c main_arg3 _ = V c main_arg3 _
  refine congrArg _ ?_
  funext a; apply Fin.ext
  match a with
  | ⟨0, _⟩ => show win0_1.index t (0 : Fin 2) * 8 + 1 * (x 0).val = (x 0).val; omega
  | ⟨1, _⟩ => show win0_1.index t (1 : Fin 2) * 128 + 1 * (x 1).val = (x 1).val; omega

/-- Disease block: the whole array at every point. -/
theorem diseases_at (c : Dev nD) (t : Fin cfg0.N) (x : S64x128.Idx) :
    (iblk0 V c 2 t : Vec Ideal S64x128 .f32) x = (V c main_arg4 : S64x128.Idx → Elt Ideal .f32) x := by
  obtain ⟨-, -, -, -, e0, e1, -⟩ := block_indices t
  unfold iblk0
  rw [View.read_apply]
  show V c main_arg4 _ = V c main_arg4 _
  refine congrArg _ ?_
  funext a; apply Fin.ext
  match a with
  | ⟨0, _⟩ => show win0_2.index t (0 : Fin 2) * 64 + 1 * (x 0).val = (x 0).val; omega
  | ⟨1, _⟩ => show win0_2.index t (1 : Fin 2) * 128 + 1 * (x 1).val = (x 1).val; omega

/-- Mask block at point `t`: entry `x 0` of the block is entry `512 t + x 0` of the array. -/
theorem mask_at (c : Dev nD) (t : Fin cfg0.N) (x : S512.Idx) (i : S4096.Idx)
    (h0 : (i 0).val = 512 * t.val + (x 0).val) :
    (iblk0 V c 3 t : Vec Ideal S512 .f32) x = (V c main_v2 : S4096.Idx → Elt Ideal .f32) i := by
  obtain ⟨-, -, -, -, -, -, e0, -⟩ := block_indices t
  unfold iblk0
  rw [View.read_apply]
  show V c main_v2 _ = V c main_v2 _
  refine congrArg _ ?_
  funext a; apply Fin.ext
  match a with
  | ⟨0, _⟩ => show win0_3.index t (0 : Fin 1) * 512 + 1 * (x 0).val = (i 0).val; omega

/-- Disease-length block: the whole array at every point. -/
theorem lengths_at (c : Dev nD) (t : Fin cfg0.N) (x : S64x1.Idx) :
    (iblk0 V c 4 t : Vec Ideal S64x1 .f32) x = (V c main_v6 : S64x1.Idx → Elt Ideal .f32) x := by
  obtain ⟨-, -, -, -, -, -, -, e0, e1, -⟩ := block_indices t
  unfold iblk0
  rw [View.read_apply]
  show V c main_v6 _ = V c main_v6 _
  refine congrArg _ ?_
  funext a; apply Fin.ext
  match a with
  | ⟨0, _⟩ => show win0_4.index t (0 : Fin 2) * 64 + 1 * (x 0).val = (x 0).val; omega
  | ⟨1, _⟩ => show win0_4.index t (1 : Fin 2) * 1 + 1 * (x 1).val = (x 1).val; omega

/-! ## What a point writes back -/

/-- The body's value at entry (`k`, `8 s + r`) of point `t`'s block is the array function at row `k`, column
    `4096 t + 8 s + r`: the column's symptom is `512 t + s` and its relation is `r`. -/
theorem body_entry (hpay : PayAt) (c : Dev nD) (t : Fin cfg0.N) (k : Fin 64) (s : Fin 512) (r : Fin 8)
    (i : S64x32768.Idx) (hi0 : (i 0).val = k.val) (hi1 : (i 1).val = 4096 * t.val + (8 * s.val + r.val)) :
    k0_pay1 (F := Ideal) (iblk0 V c 0 t) (iblk0 V c 1 t) (iblk0 V c 2 t) (iblk0 V c 3 t) (iblk0 V c 4 t)
        (ix2 k ⟨8 * s.val + r.val, by have := s.isLt; have := r.isLt; omega⟩) = kgArr V c i := by
  have hs := s.isLt
  have hr := r.isLt
  have ht := point_lt t
  refine (hpay (iblk0 V c 0 t) (iblk0 V c 1 t) (iblk0 V c 2 t) (iblk0 V c 3 t) (iblk0 V c 4 t) k s r).trans ?_
  unfold kgArr kgEntry
  have hk : i 0 = k := Fin.ext hi0
  have a0 : (fun d => (iblk0 V c 0 t : Vec Ideal S512x128 .f32) (ix2 s d))
      = fun d => (V c main_arg2 : S4096x128.Idx → Elt Ideal .f32) (ix2 ⟨(i 1).val / 8, by have := (i 1).isLt; omega⟩ d) :=
    funext fun d => symptoms_at V c t (ix2 s d) _ (by show (i 1).val / 8 = 512 * t.val + s.val; omega) rfl
  have a1 : (fun d => (iblk0 V c 1 t : Vec Ideal S8x128 .f32) (ix2 r d))
      = fun d => (V c main_arg3 : S8x128.Idx → Elt Ideal .f32) (ix2 ⟨(i 1).val % 8, by omega⟩ d) :=
    funext fun d => (relations_at V c t (ix2 r d)).trans (congrArg _ (by
      funext a; match a with
      | ⟨0, _⟩ => exact Fin.ext (by show r.val = (i 1).val % 8; omega)
      | ⟨1, _⟩ => rfl))
  have a2 : (fun d => (iblk0 V c 2 t : Vec Ideal S64x128 .f32) (ix2 k d))
      = fun d => (V c main_arg4 : S64x128.Idx → Elt Ideal .f32) (ix2 (i 0) d) :=
    funext fun d => by rw [hk]; exact diseases_at V c t (ix2 k d)
  have a3 : (iblk0 V c 3 t : Vec Ideal S512 .f32) (ix1 s)
      = (V c main_v2 : S4096.Idx → Elt Ideal .f32) (ix1 ⟨(i 1).val / 8, by have := (i 1).isLt; omega⟩) :=
    mask_at V c t (ix1 s) _ (by show (i 1).val / 8 = 512 * t.val + s.val; omega)
  have a4 : (iblk0 V c 4 t : Vec Ideal S64x1 .f32) (ix2 k 0)
      = (V c main_v6 : S64x1.Idx → Elt Ideal .f32) (ix2 (i 0) 0) := by
    rw [hk]; exact lengths_at V c t (ix2 k 0)
  rw [a0, a1, a2, a3, a4]

/-- WHAT POINT `t` WRITES BACK is block `t` of the array function. -/
theorem written_eq (hpay : PayAt) (c : Dev nD) (t : Fin cfg0.N) :
    (dat0 V c).flushed 5 t = ((cfg0.win 5).blk t).view.read (Elt Ideal) (kgArr V c) := by
  show (cfg0.win 5).cut (grid0.coords t) ((dat0 V c).after 5 t) = _
  rw [after0_5]
  unfold out0_5
  rw [View.canon_unit_zero zeros2]
  simp only [View.ld_unit_zero (S := S512x128) zeros2, View.ld_unit_zero (S := S8x128) zeros2,
    View.ld_unit_zero (S := S64x128) zeros2, View.ld_unit_zero (S := S512) zeros1, View.ld_unit_zero (S := S64x1) zeros2]
  obtain ⟨-, -, -, -, -, -, -, -, -, e0, e1⟩ := block_indices t
  funext (j : S64x4096.Idx)
  have hj0 : (j 0).val < 64 := (j 0).isLt
  have hj1 : (j 1).val < 4096 := (j 1).isLt
  have hj : j = ix2 (⟨(j 0).val, hj0⟩ : Fin 64) ⟨8 * (⟨(j 1).val / 8, by omega⟩ : Fin 512).val + (⟨(j 1).val % 8, by omega⟩ : Fin 8).val, by omega⟩ := by
    funext a
    match a with
    | ⟨0, _⟩ => rfl
    | ⟨1, _⟩ => exact Fin.ext (by show (j 1).val = 8 * ((j 1).val / 8) + (j 1).val % 8; omega)
  show k0_pay1 (F := Ideal) (iblk0 V c 0 t) (iblk0 V c 1 t) (iblk0 V c 2 t) (iblk0 V c 3 t) (iblk0 V c 4 t) j
    = kgArr V c (((cfg0.win 5).blk t).view.emb j)
  refine (congrArg (k0_pay1 (F := Ideal) (iblk0 V c 0 t) (iblk0 V c 1 t) (iblk0 V c 2 t) (iblk0 V c 3 t) (iblk0 V c 4 t)) hj).trans ?_
  refine body_entry V hpay c t _ _ _ _ ?_ ?_
  · show win0_5.index t (0 : Fin 2) * 64 + 1 * (j 0).val = (j 0).val; omega
  · show win0_5.index t (1 : Fin 2) * 4096 + 1 * (j 1).val = 4096 * t.val + (8 * ((j 1).val / 8) + (j 1).val % 8); omega

/-! ## The blocks tile the array -/

/-- An index of the array is in point `t`'s block iff each coordinate is in the block's range on its axis. -/
theorem mem_block (t : Fin cfg0.N) (i : S64x32768.Idx) :
    i ∈ ((cfg0.win 5).blk t).view.set ↔ ∀ a : Fin 2, win0_5.index t a * S64x4096.size a ≤ (i a).val ∧ (i a).val < win0_5.index t a * S64x4096.size a + S64x4096.size a := by
  show i ∈ ((View.whole main_v7).slice (win0_5.rect t)).set ↔ _
  rw [View.set_slice_whole, Rect.mem_set_unit]
  exact Iff.rfl

/-- Column `n` lies in the block of point `n / 4096`, which is written back. -/
theorem covered (i : S64x32768.Idx) :
    ∃ t : Fin cfg0.N, (cfg0.win 5).flush t = true ∧ i ∈ ((cfg0.win 5).blk t).view.set := by
  have hi0 : (i 0).val < 64 := (i 0).isLt
  have hi1 : (i 1).val < 32768 := (i 1).isLt
  have hlt : (i 1).val / 4096 < cfg0.N := lt_points (by omega)
  refine ⟨⟨(i 1).val / 4096, hlt⟩, flush0_5 _, ?_⟩
  rw [mem_block]
  obtain ⟨-, -, -, -, -, -, -, -, -, e0, e1⟩ := block_indices ⟨(i 1).val / 4096, hlt⟩
  have e1' : win0_5.index ⟨(i 1).val / 4096, hlt⟩ (1 : Fin 2) = (i 1).val / 4096 := e1
  intro a
  match a with
  | ⟨0, _⟩ =>
    show win0_5.index ⟨(i 1).val / 4096, _⟩ (0 : Fin 2) * 64 ≤ (i 0).val ∧ (i 0).val < win0_5.index ⟨(i 1).val / 4096, _⟩ (0 : Fin 2) * 64 + 64
    omega
  | ⟨1, _⟩ =>
    show win0_5.index ⟨(i 1).val / 4096, _⟩ (1 : Fin 2) * 4096 ≤ (i 1).val ∧ (i 1).val < win0_5.index ⟨(i 1).val / 4096, _⟩ (1 : Fin 2) * 4096 + 4096
    omega

/-! ## The array after the region -/

/-- The output array after the region's last point is the array function, given the body's value at an entry. -/
theorem kg_arr_of (hpay : PayAt) (c : Dev nD) : (dat0 (F := Ideal) V c).arrAt 5 cfg0.N = kgArr V c :=
  (dat0 V c).arrAt_eq_of_cover 5 (kgArr V c) (fun t _ => written_eq V hpay c t) covered

/-- Entry (`k`, `n`) of the output array after the region, given the body's value at an entry. -/
theorem kg_final_of (hpay : PayAt) (c : Dev nD) (k : Fin 64) (n : Fin 32768) :
    (dat0 (F := Ideal) V c).arrAt 5 cfg0.N (ValueIdx.ix2 k n)
      = Cert.Spec.cosElem (fun d => V c main_arg2 (ix2 ⟨n.val / 8, by have := n.isLt; omega⟩ d))
          (fun d => V c main_arg3 (ix2 ⟨n.val % 8, by omega⟩ d)) (fun d => V c main_arg4 (ix2 k d))
          (V c main_v2 (ix1 ⟨n.val / 8, by have := n.isLt; omega⟩)) (V c main_v6 (ix2 k 0)) :=
  congrFun (kg_arr_of V hpay c) (ix2 k n)

/-- Entry (`k`, `n`) of the output array after the region: the cosine entry of symptom row `n / 8` (with its mask
    value), relation row `n % 8` and disease row `k` (with its length). -/
theorem kg_final (c : Dev nD) (k : Fin 64) (n : Fin 32768) :
    (dat0 (F := Ideal) V c).arrAt 5 cfg0.N (ValueIdx.ix2 k n)
      = Cert.Spec.cosElem (fun d => V c main_arg2 (ix2 ⟨n.val / 8, by have := n.isLt; omega⟩ d))
          (fun d => V c main_arg3 (ix2 ⟨n.val % 8, by omega⟩ d)) (fun d => V c main_arg4 (ix2 k d))
          (V c main_v2 (ix1 ⟨n.val / 8, by have := n.isLt; omega⟩)) (V c main_v6 (ix2 k 0)) :=
  kg_final_of V Cert.KernelIdeal.Pay.pay0_apply c k n

/-- The whole array. -/
theorem kg_arr (c : Dev nD) : (dat0 (F := Ideal) V c).arrAt 5 cfg0.N = kgArr V c :=
  kg_arr_of V Cert.KernelIdeal.Pay.pay0_apply c

end Cert.KernelIdeal.Frame

end
-- ==== Proof.KI.LinPieces.lean ====
/-
  The linear kernel's three control cases, each read as one value: what the stores of a case leave in the accumulator
  and in the output block, as the kernel's arithmetic applied to the three input blocks and to the accumulator the
  case finds. At the first point of a row block the accumulator read back is the zero row just stored; at the last
  point the output block receives the accumulator as updated at that same point.
-/
import proofs.«120060_j231928234454_2_alg».proof.Proof.KI.Region1
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 buffer, -/
theorem lin_hz2 : (![0, 0] : Fin 2 → Nat) = fun _ => 0 := funext fun a => by fin_cases a <;> rfl
/-- and of a rank-3 buffer. -/
theorem lin_hz3 : (![0, 0, 0] : Fin 3 → Nat) = fun _ => 0 := funext fun a => by fin_cases a <;> rfl

/-- A middle point adds the row's contribution to the accumulator it finds. -/
theorem sout1_B_0_eq (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : ¬cond1_1 i)
    (x0 : Vec F S1x1x512 .f32) (x1 : Vec F S1x1x32768 .f32) (x2 : Vec F S64x33280 .f32) (xs0 : Vec F S1x64 .f32) :
    sout1_B_0 c i arg2 harg2 arg3 harg3 arg4 harg4 arg5 harg5 arg6 harg6 hc0 hc1 x0 x1 x2 xs0 = k1_pay2 x0 x1 x2 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  rw [View.canon_unit_zero lin_hz2]
  simp only [View.readAt_eq_ld, harg2.read_unread, harg3.read_unread, harg4.read_unread, harg6.read_unread, View.ld_unit_zero (S := S1x1x512) lin_hz3, View.ld_unit_zero (S := S1x1x32768) lin_hz3, View.ld_unit_zero (S := S64x33280) lin_hz2, View.ld_unit_zero (S := S1x64) lin_hz2]

/-- The first point of a row block adds the row's contribution to the zero row it has just stored. -/
theorem sout1_A_0_eq (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : cond1_0 i) (hc1 : ¬cond1_1 i)
    (x0 : Vec F S1x1x512 .f32) (x1 : Vec F S1x1x32768 .f32) (x2 : Vec F S64x33280 .f32) :
    sout1_A_0 c i arg2 harg2 arg3 harg3 arg4 harg4 arg5 harg5 arg6 harg6 hc0 hc1 x0 x1 x2 = k1_pay2 x0 x1 x2 (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S1x64) lin_hz2, View.readCov_unit_zero (S := S1x64) _ lin_hz2]
  simp only [View.readAt_eq_ld, harg2.read_unread, harg3.read_unread, harg4.read_unread, harg6.read_unread, View.ld_unit_zero (S := S1x1x512) lin_hz3, View.ld_unit_zero (S := S1x1x32768) lin_hz3, View.ld_unit_zero (S := S64x33280) lin_hz2, View.ld_unit_zero (S := S1x64) lin_hz2]

/-- The last point of a row block copies the updated accumulator into the output block. -/
theorem out1_C_3_eq (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : cond1_1 i)
    (x0 : Vec F S1x1x512 .f32) (x1 : Vec F S1x1x32768 .f32) (x2 : Vec F S64x33280 .f32) (xs0 : Vec F S1x64 .f32) :
    out1_C_3 c i arg2 harg2 arg3 harg3 arg4 harg4 arg5 harg5 arg6 harg6 hc0 hc1 x0 x1 x2 xs0 = k1_pay3 (k1_pay2 x0 x1 x2 xs0) := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero lin_hz3, View.readCov_unit_zero (S := S1x64) _ lin_hz2]
  simp only [View.readAt_eq_ld, harg2.read_unread, harg3.read_unread, harg4.read_unread, harg6.read_unread, View.ld_unit_zero (S := S1x1x512) lin_hz3, View.ld_unit_zero (S := S1x1x32768) lin_hz3, View.ld_unit_zero (S := S64x33280) lin_hz2, View.ld_unit_zero (S := S1x64) lin_hz2]

/-- and leaves the updated accumulator behind. -/
theorem sout1_C_0_eq (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : cond1_1 i)
    (x0 : Vec F S1x1x512 .f32) (x1 : Vec F S1x1x32768 .f32) (x2 : Vec F S64x33280 .f32) (xs0 : Vec F S1x64 .f32) :
    sout1_C_0 c i arg2 harg2 arg3 harg3 arg4 harg4 arg5 harg5 arg6 harg6 hc0 hc1 x0 x1 x2 xs0 = k1_pay2 x0 x1 x2 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero lin_hz2]
  simp only [View.readAt_eq_ld, harg2.read_unread, harg3.read_unread, harg4.read_unread, harg6.read_unread, View.ld_unit_zero (S := S1x1x512) lin_hz3, View.ld_unit_zero (S := S1x1x32768) lin_hz3, View.ld_unit_zero (S := S64x33280) lin_hz2, View.ld_unit_zero (S := S1x64) lin_hz2]

end Cert.KernelIdeal.Frame

end
-- ==== Proof.KI.Pay1.lean ====
/-
  The linear kernel's stored values read at an index, at the extended reals.

  At every grid point the kernel adds to its 1×64 accumulator the row whose entry `d` is the rule row
  against the first 512 weights of weight row `d` plus the cosine row against the remaining 32768: two
  matrix products of a one-row left operand, each accumulated into zero.  The narrowing of the operands
  to a shorter float format is the identity on extended reals, the slices pick the two column ranges of
  the weight block and the transposes swap the coordinates, so each product is a plain dot product along
  the weight row.  The first grid point of a core stores the zero row; the last copies the accumulator out.
-/
import proofs.«120060_j231928234454_2_alg».proof.Proof.Gen.KernelIdeal.Skeleton
import proofs.«120060_j231928234454_2_alg».proof.Proof.Spec
import Idealize.ShloMosaic.Lib.ValueLayout
import Idealize.ShloMosaic.PureOps.Ideal.Laws

noncomputable section

open scoped BigOperators
open Idealize.ShloMosaic Idealize.ShloMosaic.ValueIdx
open Cert.KernelIdeal Cert.KernelIdeal.Gen

namespace Cert.KernelIdeal.Pay

theorem matmul_rule_apply_l0 (i : S1x64.Idx) (q : dot_S1x512_S512x64_S1x64_1_0_0_1_n_n.contr.Idx) : (dot_S1x512_S512x64_S1x64_1_0_0_1_n_n.lhsIdx i q 0).val = (i 0).val := by
  unfold DotDims.lhsIdx
  rw [dif_neg (show ¬(0 : Fin S1x512.rank) ∈ dot_S1x512_S512x64_S1x64_1_0_0_1_n_n.lhsBatch by decide), dif_pos (show (0 : Fin S1x512.rank) ∈ dot_S1x512_S512x64_S1x64_1_0_0_1_n_n.lhsNonContracting by decide)]
  rfl
theorem matmul_rule_apply_l1 (i : S1x64.Idx) (q : dot_S1x512_S512x64_S1x64_1_0_0_1_n_n.contr.Idx) : (dot_S1x512_S512x64_S1x64_1_0_0_1_n_n.lhsIdx i q 1).val = (q ⟨0, by decide⟩).val :=
  dot_S1x512_S512x64_S1x64_1_0_0_1_n_n.lhsIdx_val_of_single rfl i q
theorem matmul_rule_apply_r0 (i : S1x64.Idx) (q : dot_S1x512_S512x64_S1x64_1_0_0_1_n_n.contr.Idx) : (dot_S1x512_S512x64_S1x64_1_0_0_1_n_n.rhsIdx i q 0).val = (q ⟨0, by decide⟩).val :=
  dot_S1x512_S512x64_S1x64_1_0_0_1_n_n.rhsIdx_val_of_single rfl i q
theorem matmul_rule_apply_r1 (i : S1x64.Idx) (q : dot_S1x512_S512x64_S1x64_1_0_0_1_n_n.contr.Idx) : (dot_S1x512_S512x64_S1x64_1_0_0_1_n_n.rhsIdx i q 1).val = (i 1).val := by
  unfold DotDims.rhsIdx
  rw [dif_neg (show ¬(1 : Fin S512x64.rank) ∈ dot_S1x512_S512x64_S1x64_1_0_0_1_n_n.rhsBatch by decide), dif_pos (show (1 : Fin S512x64.rank) ∈ dot_S1x512_S512x64_S1x64_1_0_0_1_n_n.rhsNonContracting by decide)]
  rfl

/-- A plain matrix product 1×512 by 512×64 accumulated into zero, read at `(i, j)`: the sum over the
    contracted coordinate of the left operand's row `i` times the right operand's column `j`. -/
theorem matmul_rule_apply (lhs : FVec Ideal S1x512 .bf16) (rhs : FVec Ideal S512x64 .bf16) (i : Fin 1) (j : Fin 64) :
    matmul dot_S1x512_S512x64_S1x64_1_0_0_1_n_n none lhs rhs (constant (F := Ideal) S1x64 .f32 0x00000000#32) (ix2 i j)
      = ∑ c : Fin 512, lhs (ix2 i c) * rhs (ix2 c j) := by
  simp only [matmul]
  rw [Ideal.matmul_constant_zero_apply, ← Equiv.sum_comp (contrEquiv1 dot_S1x512_S512x64_S1x64_1_0_0_1_n_n 512 rfl rfl).symm]
  refine Finset.sum_congr rfl fun c _ => ?_
  have hc := contrEquiv1_symm_val dot_S1x512_S512x64_S1x64_1_0_0_1_n_n 512 rfl rfl c
  have el : dot_S1x512_S512x64_S1x64_1_0_0_1_n_n.lhsIdx (ix2 i j) ((contrEquiv1 dot_S1x512_S512x64_S1x64_1_0_0_1_n_n 512 rfl rfl).symm c) = ix2 i c := funext fun a => Fin.ext (by
    match a with
    | ⟨0, _⟩ => exact matmul_rule_apply_l0 _ _
    | ⟨1, _⟩ => exact (matmul_rule_apply_l1 _ _).trans hc)
  have er : dot_S1x512_S512x64_S1x64_1_0_0_1_n_n.rhsIdx (ix2 i j) ((contrEquiv1 dot_S1x512_S512x64_S1x64_1_0_0_1_n_n 512 rfl rfl).symm c) = ix2 c j := funext fun a => Fin.ext (by
    match a with
    | ⟨0, _⟩ => exact (matmul_rule_apply_r0 _ _).trans hc
    | ⟨1, _⟩ => exact matmul_rule_apply_r1 _ _)
  rw [el, er]

theorem matmul_kg_apply_l0 (i : S1x64.Idx) (q : dot_S1x32768_S32768x64_S1x64_1_0_0_1_n_n.contr.Idx) : (dot_S1x32768_S32768x64_S1x64_1_0_0_1_n_n.lhsIdx i q 0).val = (i 0).val := by
  unfold DotDims.lhsIdx
  rw [dif_neg (show ¬(0 : Fin S1x32768.rank) ∈ dot_S1x32768_S32768x64_S1x64_1_0_0_1_n_n.lhsBatch by decide), dif_pos (show (0 : Fin S1x32768.rank) ∈ dot_S1x32768_S32768x64_S1x64_1_0_0_1_n_n.lhsNonContracting by decide)]
  rfl
theorem matmul_kg_apply_l1 (i : S1x64.Idx) (q : dot_S1x32768_S32768x64_S1x64_1_0_0_1_n_n.contr.Idx) : (dot_S1x32768_S32768x64_S1x64_1_0_0_1_n_n.lhsIdx i q 1).val = (q ⟨0, by decide⟩).val :=
  dot_S1x32768_S32768x64_S1x64_1_0_0_1_n_n.lhsIdx_val_of_single rfl i q
theorem matmul_kg_apply_r0 (i : S1x64.Idx) (q : dot_S1x32768_S32768x64_S1x64_1_0_0_1_n_n.contr.Idx) : (dot_S1x32768_S32768x64_S1x64_1_0_0_1_n_n.rhsIdx i q 0).val = (q ⟨0, by decide⟩).val :=
  dot_S1x32768_S32768x64_S1x64_1_0_0_1_n_n.rhsIdx_val_of_single rfl i q
theorem matmul_kg_apply_r1 (i : S1x64.Idx) (q : dot_S1x32768_S32768x64_S1x64_1_0_0_1_n_n.contr.Idx) : (dot_S1x32768_S32768x64_S1x64_1_0_0_1_n_n.rhsIdx i q 1).val = (i 1).val := by
  unfold DotDims.rhsIdx
  rw [dif_neg (show ¬(1 : Fin S32768x64.rank) ∈ dot_S1x32768_S32768x64_S1x64_1_0_0_1_n_n.rhsBatch by decide), dif_pos (show (1 : Fin S32768x64.rank) ∈ dot_S1x32768_S32768x64_S1x64_1_0_0_1_n_n.rhsNonContracting by decide)]
  rfl

/-- A plain matrix product 1×32768 by 32768×64 accumulated into zero, read at `(i, j)`: the sum over the
    contracted coordinate of the left operand's row `i` times the right operand's column `j`. -/
theorem matmul_kg_apply (lhs : FVec Ideal S1x32768 .bf16) (rhs : FVec Ideal S32768x64 .bf16) (i : Fin 1) (j : Fin 64) :
    matmul dot_S1x32768_S32768x64_S1x64_1_0_0_1_n_n none lhs rhs (constant (F := Ideal) S1x64 .f32 0x00000000#32) (ix2 i j)
      = ∑ c : Fin 32768, lhs (ix2 i c) * rhs (ix2 c j) := by
  simp only [matmul]
  rw [Ideal.matmul_constant_zero_apply, ← Equiv.sum_comp (contrEquiv1 dot_S1x32768_S32768x64_S1x64_1_0_0_1_n_n 32768 rfl rfl).symm]
  refine Finset.sum_congr rfl fun c _ => ?_
  have hc := contrEquiv1_symm_val dot_S1x32768_S32768x64_S1x64_1_0_0_1_n_n 32768 rfl rfl c
  have el : dot_S1x32768_S32768x64_S1x64_1_0_0_1_n_n.lhsIdx (ix2 i j) ((contrEquiv1 dot_S1x32768_S32768x64_S1x64_1_0_0_1_n_n 32768 rfl rfl).symm c) = ix2 i c := funext fun a => Fin.ext (by
    match a with
    | ⟨0, _⟩ => exact matmul_kg_apply_l0 _ _
    | ⟨1, _⟩ => exact (matmul_kg_apply_l1 _ _).trans hc)
  have er : dot_S1x32768_S32768x64_S1x64_1_0_0_1_n_n.rhsIdx (ix2 i j) ((contrEquiv1 dot_S1x32768_S32768x64_S1x64_1_0_0_1_n_n 32768 rfl rfl).symm c) = ix2 c j := funext fun a => Fin.ext (by
    match a with
    | ⟨0, _⟩ => exact (matmul_kg_apply_r0 _ _).trans hc
    | ⟨1, _⟩ => exact matmul_kg_apply_r1 _ _)
  rw [el, er]

/-- The zero row a core's first grid point stores. -/
theorem pay1_apply (d : Fin 64) : k1_pay1 (F := Ideal) (ix2 (0 : Fin 1) d) = 0 := by
  unfold k1_pay1
  rw [shapeCast_self]
  exact Ideal.ofBits_zero_f32

/-- The last grid point's copy of the accumulator into the output block. -/
theorem pay3_apply (v28 : Vec Ideal S1x64 .f32) (d : Fin 64) :
    k1_pay3 (F := Ideal) v28 (ix3 (0 : Fin 1) (0 : Fin 1) d) = v28 (ix2 (0 : Fin 1) d) := by
  unfold k1_pay3
  exact shapeCast_ab_1ab_apply v28 _ 0 0 d

/-- The accumulator's update at one grid point: the old entry plus the hidden row's contribution. -/
theorem pay2_apply (v3 : Vec Ideal S1x1x512 .f32) (v7 : Vec Ideal S1x1x32768 .f32) (v11 : Vec Ideal S64x33280 .f32)
    (v20 : Vec Ideal S1x64 .f32) (d : Fin 64) :
    k1_pay2 (F := Ideal) v3 v7 v11 v20 (ix2 (0 : Fin 1) d)
      = v20 (ix2 (0 : Fin 1) d)
        + Cert.Spec.fcRow (fun c => v3 (ix3 (0 : Fin 1) (0 : Fin 1) c)) (fun n => v7 (ix3 (0 : Fin 1) (0 : Fin 1) n))
            (fun j => v11 (ix2 d j)) := by
  unfold k1_pay2
  dsimp only
  rw [shapeCast_self, addf_apply, addf_apply, matmul_rule_apply, matmul_kg_apply]
  unfold Cert.Spec.fcRow
  refine congrArg (v20 (ix2 (0 : Fin 1) d) + ·) (congrArg₂ (· + ·) ?_ ?_)
  · refine Finset.sum_congr rfl fun c _ => ?_
    rw [truncf_apply, shapeCast_1ab_ab_apply, shapeCast_self, transpose_ix2_apply]
    have e := slice2_axis1_apply (n0 := 64) (n1 := 33280) (m := 512) 0 (truncf (F := Ideal) .bf16 v11 bitsLt_bf16_f32) slices_S64x33280_o0_0_S64x512 d c ⟨c.val, by have := c.isLt; omega⟩ (Nat.zero_add _).symm
    rw [e, truncf_apply]
  · refine Finset.sum_congr rfl fun n _ => ?_
    rw [truncf_apply, shapeCast_1ab_ab_apply, shapeCast_self, transpose_ix2_apply]
    have e := slice2_axis1_apply (n0 := 64) (n1 := 33280) (m := 32768) 512 (truncf (F := Ideal) .bf16 v11 bitsLt_bf16_f32) slices_S64x33280_o0_512_S64x32768 d n ⟨512 + n.val, by have := n.isLt; omega⟩ rfl
    rw [e, truncf_apply]

end Cert.KernelIdeal.Pay

end
-- ==== Proof.KI.LinAcc.lean ====
/-
  The linear kernel's accumulator, point by point, over the extended reals.

  Point t = 32 j + k of the 2 × 32 grid reads row t of the two hidden arrays (the rule part, 512 long, and the cosine part,
  32768 long) and the 64 × 33280 block of the weight array whose columns 33280 t … 33280 t + 33279 are, for each output d,
  the weights of row t. Its contribution to output d is the rule part against the first 512 of those weights plus the
  cosine part against the other 32768. The first point of a row block (k = 0) leaves in the accumulator that contribution
  alone — zero plus it —, every later point what it found plus its own; so after point t the accumulator's entry d is the
  sum of the contributions of rows 32 (t / 32) … t, by induction on t, and at the last point of row block j (k = 31), where
  the accumulator is copied into the output block, the block's entry d is the sum over all 32 rows of the block. Addition
  on the extended reals is commutative and associative with zero neutral, so the order of accumulation does not matter
  and nothing has to be finite.
-/
import proofs.«120060_j231928234454_2_alg».proof.Proof.KI.LinPieces
import proofs.«120060_j231928234454_2_alg».proof.Proof.Spec
import proofs.«120060_j231928234454_2_alg».proof.Proof.KI.Pay1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## The three cases at an entry, over the extended reals -/

section Steps

open Cert.KernelIdeal.Pay

/-- First point of a row block: the accumulator's entry is the row's contribution alone (zero plus it). -/
theorem stepA_acc (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : cond1_0 i) (hc1 : ¬cond1_1 i)
    (x0 : Vec Ideal S1x1x512 .f32) (x1 : Vec Ideal S1x1x32768 .f32) (x2 : Vec Ideal S64x33280 .f32) (d : Fin 64) :
    sout1_A_0 (F := Ideal) c i arg2 harg2 arg3 harg3 arg4 harg4 arg5 harg5 arg6 harg6 hc0 hc1 x0 x1 x2 (ix2 (0 : Fin 1) d)
      = Cert.Spec.fcRow (fun cc => x0 (ix3 (0 : Fin 1) (0 : Fin 1) cc)) (fun n => x1 (ix3 (0 : Fin 1) (0 : Fin 1) n)) (fun jj => x2 (ix2 d jj)) := by
  rw [sout1_A_0_eq]
  refine (pay2_apply x0 x1 x2 (k1_pay1 (F := Ideal)) d).trans ?_
  rw [pay1_apply d, zero_add]

/-- Middle point: the entry found plus the row's contribution. -/
theorem stepB_acc (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : ¬cond1_1 i)
    (x0 : Vec Ideal S1x1x512 .f32) (x1 : Vec Ideal S1x1x32768 .f32) (x2 : Vec Ideal S64x33280 .f32) (xs0 : Vec Ideal S1x64 .f32) (d : Fin 64) :
    sout1_B_0 (F := Ideal) c i arg2 harg2 arg3 harg3 arg4 harg4 arg5 harg5 arg6 harg6 hc0 hc1 x0 x1 x2 xs0 (ix2 (0 : Fin 1) d)
      = xs0 (ix2 (0 : Fin 1) d) + Cert.Spec.fcRow (fun cc => x0 (ix3 (0 : Fin 1) (0 : Fin 1) cc)) (fun n => x1 (ix3 (0 : Fin 1) (0 : Fin 1) n)) (fun jj => x2 (ix2 d jj)) := by
  rw [sout1_B_0_eq]
  exact pay2_apply x0 x1 x2 xs0 d

/-- Last point: the same for the accumulator, -/
theorem stepC_acc (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : cond1_1 i)
    (x0 : Vec Ideal S1x1x512 .f32) (x1 : Vec Ideal S1x1x32768 .f32) (x2 : Vec Ideal S64x33280 .f32) (xs0 : Vec Ideal S1x64 .f32) (d : Fin 64) :
    sout1_C_0 (F := Ideal) c i arg2 harg2 arg3 harg3 arg4 harg4 arg5 harg5 arg6 harg6 hc0 hc1 x0 x1 x2 xs0 (ix2 (0 : Fin 1) d)
      = xs0 (ix2 (0 : Fin 1) d) + Cert.Spec.fcRow (fun cc => x0 (ix3 (0 : Fin 1) (0 : Fin 1) cc)) (fun n => x1 (ix3 (0 : Fin 1) (0 : Fin 1) n)) (fun jj => x2 (ix2 d jj)) := by
  rw [sout1_C_0_eq]
  exact pay2_apply x0 x1 x2 xs0 d

/-- and the output block's entry is that updated accumulator entry. -/
theorem stepC_out (c : Dev nD) (i : grid1.Coords) (arg2 : Memref sig .tc .vmem S1x1x512 .f32) (harg2 : arg2.IsWhole) (arg3 : Memref sig .tc .vmem S1x1x32768 .f32) (harg3 : arg3.IsWhole) (arg4 : Memref sig .tc .vmem S64x33280 .f32) (harg4 : arg4.IsWhole) (arg5 : Memref sig .tc .vmem S1x1x64 .f32) (harg5 : arg5.IsWhole) (arg6 : Memref sig .tc .vmem S1x64 .f32) (harg6 : arg6.IsWhole) (hc0 : ¬cond1_0 i) (hc1 : cond1_1 i)
    (x0 : Vec Ideal S1x1x512 .f32) (x1 : Vec Ideal S1x1x32768 .f32) (x2 : Vec Ideal S64x33280 .f32) (xs0 : Vec Ideal S1x64 .f32) (d : Fin 64) :
    out1_C_3 (F := Ideal) c i arg2 harg2 arg3 harg3 arg4 harg4 arg5 harg5 arg6 harg6 hc0 hc1 x0 x1 x2 xs0 (ix3 (0 : Fin 1) (0 : Fin 1) d)
      = xs0 (ix2 (0 : Fin 1) d) + Cert.Spec.fcRow (fun cc => x0 (ix3 (0 : Fin 1) (0 : Fin 1) cc)) (fun n => x1 (ix3 (0 : Fin 1) (0 : Fin 1) n)) (fun jj => x2 (ix2 d jj)) := by
  rw [out1_C_3_eq]
  exact (pay3_apply (k1_pay2 (F := Ideal) x0 x1 x2 xs0) d).trans (pay2_apply x0 x1 x2 xs0 d)

end Steps

/-! ## Where the blocks sit in their arrays -/

/-- The windows' block indices over the grid: point `t` reads row `t` of the two hidden arrays and column block `t` of
    the weights, and works on output row `t / 32`. -/
theorem idx1_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = t.val
    ∧ win1_3.index t (0 : Fin 3) = t.val / 32 ∧ win1_3.index t (1 : Fin 3) = 0 ∧ win1_3.index t (2 : Fin 3) = 0 :=
  (by decide +kernel : ∀ t : Fin grid1.N, _)

section Blocks

variable {F : FTy → Type} [FloatOps F]
variable (V : (c : Dev nD) → (b : Ref sig .tc) → Buf (Elt F) ((c : Thread nD τ).loc b))

theorem iblk1_0_apply (c : Dev nD) (t : Fin cfg1.N) (ht : t.val < 64) (cc : Fin 512) :
    iblk1 V c 0 t (ix3 (0 : Fin 1) (0 : Fin 1) cc) = V c main_v8 (ix3 (⟨t.val, ht⟩ : Fin 64) (0 : Fin 1) cc) := by
  obtain ⟨e0, e1, e2, -⟩ := idx1_facts t
  unfold iblk1
  rw [View.read_apply]
  show V c main_v8 _ = V c main_v8 _
  refine congrArg (V c main_v8) ?_
  funext a
  apply Fin.ext
  match a with
  | ⟨0, _⟩ => show win1_0.index t (0 : Fin 3) * 1 + 1 * 0 = t.val; omega
  | ⟨1, _⟩ => show win1_0.index t (1 : Fin 3) * 1 + 1 * 0 = 0; omega
  | ⟨2, _⟩ => show win1_0.index t (2 : Fin 3) * 512 + 1 * cc.val = cc.val; omega

theorem iblk1_1_apply (c : Dev nD) (t : Fin cfg1.N) (ht : t.val < 64) (n : Fin 32768) :
    iblk1 V c 1 t (ix3 (0 : Fin 1) (0 : Fin 1) n) = V c main_v9 (ix3 (⟨t.val, ht⟩ : Fin 64) (0 : Fin 1) n) := by
  obtain ⟨-, -, -, e0, e1, e2, -⟩ := idx1_facts t
  unfold iblk1
  rw [View.read_apply]
  show V c main_v9 _ = V c main_v9 _
  refine congrArg (V c main_v9) ?_
  funext a
  apply Fin.ext
  match a with
  | ⟨0, _⟩ => show win1_1.index t (0 : Fin 3) * 1 + 1 * 0 = t.val; omega
  | ⟨1, _⟩ => show win1_1.index t (1 : Fin 3) * 1 + 1 * 0 = 0; omega
  | ⟨2, _⟩ => show win1_1.index t (2 : Fin 3) * 32768 + 1 * n.val = n.val; omega

theorem iblk1_2_apply (c : Dev nD) (t : Fin cfg1.N) (d : Fin 64) (jj : Fin 33280) (hj : 33280 * t.val + jj.val < 2129920) :
    iblk1 V c 2 t (ix2 d jj) = V c main_arg5 (ix2 d (⟨33280 * t.val + jj.val, hj⟩ : Fin 2129920)) := by
  obtain ⟨-, -, -, -, -, -, e0, e1, -⟩ := idx1_facts t
  unfold iblk1
  rw [View.read_apply]
  show V c main_arg5 _ = V c main_arg5 _
  refine congrArg (V c main_arg5) ?_
  funext a
  apply Fin.ext
  match a with
  | ⟨0, _⟩ => show win1_2.index t (0 : Fin 2) * 64 + 1 * d.val = d.val; omega
  | ⟨1, _⟩ => show win1_2.index t (1 : Fin 2) * 33280 + 1 * jj.val = 33280 * t.val + jj.val; omega

end Blocks

/-! ## The accumulator after each point -/

section Invariant

variable (V : (c : Dev nD) → (b : Ref sig .tc) → Buf (Elt Ideal) ((c : Thread nD τ).loc b))

/-- Row `n` of the hidden matrix (its rule part in the first array, its cosine part in the second) against weight row `d`,
    whose entries for that row are columns `33280 n … 33280 n + 33279` of the weight array; zero past the last row. -/
def rowC (c : Dev nD) (n : ℕ) (d : Fin 64) : EReal :=
  if h : n < 64 then
    Cert.Spec.fcRow (fun cc => V c main_v8 (ix3 (⟨n, h⟩ : Fin 64) (0 : Fin 1) cc)) (fun m => V c main_v9 (ix3 (⟨n, h⟩ : Fin 64) (0 : Fin 1) m)) (fun jj => V c main_arg5 (ix2 d (⟨33280 * n + jj.val, by have := jj.isLt; omega⟩ : Fin 2129920)))
  else 0

/-- The row the blocks of point `t` contribute is row `t`. -/
theorem row_iblk (c : Dev nD) (t : Fin cfg1.N) (d : Fin 64) :
    Cert.Spec.fcRow (fun cc => iblk1 V c 0 t (ix3 (0 : Fin 1) (0 : Fin 1) cc)) (fun n => iblk1 V c 1 t (ix3 (0 : Fin 1) (0 : Fin 1) n)) (fun jj => iblk1 V c 2 t (ix2 d jj))
      = rowC V c t.val d := by
  have ht : t.val < 64 := lt_of_lt_of_eq t.isLt (show cfg1.N = 64 from N_1)
  unfold rowC
  rw [dif_pos ht]
  exact congr (congr (congrArg Cert.Spec.fcRow (funext fun cc => iblk1_0_apply V c t ht cc)) (funext fun n => iblk1_1_apply V c t ht n))
    (funext fun jj => iblk1_2_apply V c t d jj _)

/-- The rows of the current row block up to and including row `n`, summed. -/
def accSum (c : Dev nD) (n : ℕ) (d : Fin 64) : EReal :=
  ∑ s ∈ Finset.range (n % 32 + 1), rowC V c (32 * (n / 32) + s) d

theorem accSum_reset (c : Dev nD) (n : ℕ) (d : Fin 64) (h0 : n % 32 = 0) : accSum V c n d = rowC V c n d := by
  unfold accSum
  have e : 32 * (n / 32) + 0 = n := by omega
  rw [h0, Finset.sum_range_succ, Finset.range_zero, Finset.sum_empty, zero_add, e]

theorem accSum_step (c : Dev nD) (n : ℕ) (d : Fin 64) (h0 : ¬(n + 1) % 32 = 0) :
    accSum V c (n + 1) d = accSum V c n d + rowC V c (n + 1) d := by
  unfold accSum
  have e1 : (n + 1) % 32 = n % 32 + 1 := by omega
  have e2 : (n + 1) / 32 = n / 32 := by omega
  have e3 : 32 * (n / 32) + (n % 32 + 1) = n + 1 := by omega
  rw [e1, e2, Finset.sum_range_succ (fun s => rowC V c (32 * (n / 32) + s) d) (n % 32 + 1), e3]

/-- After point `n` the accumulator's entry `d` is the sum of the rows of its row block up to row `n`. -/
theorem acc_inv (c : Dev nD) : ∀ (n : ℕ) (h : n < cfg1.N) (d : Fin 64),
    (outsAt1 (F := Ideal) V c n h).2 (ix2 (0 : Fin 1) d) = accSum V c n d
  | 0, h, d => by
    have h0 : (⟨0, h⟩ : Fin cfg1.N).val % 32 = 0 := rfl
    have h1 : ¬(⟨0, h⟩ : Fin cfg1.N).val % 32 = 31 := by dsimp only; omega
    rw [outsAt1_A V c ⟨0, h⟩ h0 h1]
    dsimp only
    rw [accSum_reset V c 0 d rfl]
    exact (stepA_acc c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) scM1_0 (Memref.isWhole_whole _) ((hcond1_0 ⟨0, h⟩).mpr h0) (fun hh => h1 ((hcond1_1 ⟨0, h⟩).mp hh)) (iblk1 V c 0 ⟨0, h⟩) (iblk1 V c 1 ⟨0, h⟩) (iblk1 V c 2 ⟨0, h⟩) d).trans (row_iblk V c ⟨0, h⟩ d)
  | n + 1, h, d => by
    by_cases h0 : (n + 1) % 32 = 0
    · have h1 : ¬(n + 1) % 32 = 31 := by omega
      rw [outsAt1_A V c ⟨n + 1, h⟩ h0 h1]
      dsimp only
      rw [accSum_reset V c (n + 1) d h0]
      exact (stepA_acc c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) scM1_0 (Memref.isWhole_whole _) ((hcond1_0 ⟨n + 1, h⟩).mpr h0) (fun hh => h1 ((hcond1_1 ⟨n + 1, h⟩).mp hh)) (iblk1 V c 0 ⟨n + 1, h⟩) (iblk1 V c 1 ⟨n + 1, h⟩) (iblk1 V c 2 ⟨n + 1, h⟩) d).trans (row_iblk V c ⟨n + 1, h⟩ d)
    · by_cases h1 : (n + 1) % 32 = 31
      · rw [outsAt1_C V c ⟨n + 1, h⟩ h0 h1]
        dsimp only
        rw [accSum_step V c n d h0, ← acc_inv c n (Nat.lt_of_succ_lt h) d, ← row_iblk V c ⟨n + 1, h⟩ d]
        exact stepC_acc c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) scM1_0 (Memref.isWhole_whole _) (fun hh => h0 ((hcond1_0 ⟨n + 1, h⟩).mp hh)) ((hcond1_1 ⟨n + 1, h⟩).mpr h1) (iblk1 V c 0 ⟨n + 1, h⟩) (iblk1 V c 1 ⟨n + 1, h⟩) (iblk1 V c 2 ⟨n + 1, h⟩) (outsAt1 V c n (Nat.lt_of_succ_lt h)).2 d
      · rw [outsAt1_B V c ⟨n + 1, h⟩ h0 h1]
        dsimp only
        rw [accSum_step V c n d h0, ← acc_inv c n (Nat.lt_of_succ_lt h) d, ← row_iblk V c ⟨n + 1, h⟩ d]
        exact stepB_acc c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) scM1_0 (Memref.isWhole_whole _) (fun hh => h0 ((hcond1_0 ⟨n + 1, h⟩).mp hh)) (fun hh => h1 ((hcond1_1 ⟨n + 1, h⟩).mp hh)) (iblk1 V c 0 ⟨n + 1, h⟩) (iblk1 V c 1 ⟨n + 1, h⟩) (iblk1 V c 2 ⟨n + 1, h⟩) (outsAt1 V c n (Nat.lt_of_succ_lt h)).2 d

/-- At the last point of a row block the output block's entry `d` is the sum of the block's rows up to that point. -/
theorem out_last (c : Dev nD) : ∀ (n : ℕ) (h : n < cfg1.N), n % 32 = 31 → ∀ d : Fin 64,
    (outsAt1 (F := Ideal) V c n h).1 (ix3 (0 : Fin 1) (0 : Fin 1) d) = accSum V c n d
  | 0, _, h31, _ => absurd h31 (by decide)
  | n + 1, h, h31, d => by
    have h0 : ¬(n + 1) % 32 = 0 := by omega
    rw [outsAt1_C V c ⟨n + 1, h⟩ h0 h31]
    dsimp only
    rw [accSum_step V c n d h0, ← acc_inv V c n (Nat.lt_of_succ_lt h) d, ← row_iblk V c ⟨n + 1, h⟩ d]
    exact stepC_out c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) scM1_0 (Memref.isWhole_whole _) (fun hh => h0 ((hcond1_0 ⟨n + 1, h⟩).mp hh)) ((hcond1_1 ⟨n + 1, h⟩).mpr h31) (iblk1 V c 0 ⟨n + 1, h⟩) (iblk1 V c 1 ⟨n + 1, h⟩) (iblk1 V c 2 ⟨n + 1, h⟩) (outsAt1 V c n (Nat.lt_of_succ_lt h)).2 d

/-- At the last point of row block `j` all 32 rows are in. -/
theorem accSum_last (c : Dev nD) (j : Fin 2) (d : Fin 64) :
    accSum V c (32 * j.val + 31) d = ∑ k : Fin 32, rowC V c (32 * j.val + k.val) d := by
  unfold accSum
  have e1 : (32 * j.val + 31) % 32 = 31 := by omega
  have e2 : (32 * j.val + 31) / 32 = j.val := by omega
  rw [e1, e2]
  exact Finset.sum_range (fun s => rowC V c (32 * j.val + s) d)

/-- The output block after the last point of row block `j`: entry `d` is the sum over the block's 32 rows of the row's
    contribution against weight row `d`. -/
theorem lin_last (c : Dev nD) (j : Fin 2) (d : Fin 64) (h : 32 * j.val + 31 < cfg1.N) :
    (outsAt1 (F := Ideal) V c (32 * j.val + 31) h).1 (ix3 (0 : Fin 1) (0 : Fin 1) d)
      = ∑ k : Fin 32, Cert.Spec.fcRow (fun cc => V c main_v8 (ix3 (⟨32 * j.val + k.val, by have := j.isLt; have := k.isLt; omega⟩ : Fin 64) (0 : Fin 1) cc)) (fun m => V c main_v9 (ix3 (⟨32 * j.val + k.val, by have := j.isLt; have := k.isLt; omega⟩ : Fin 64) (0 : Fin 1) m)) (fun jj => V c main_arg5 (ix2 d (⟨33280 * (32 * j.val + k.val) + jj.val, by have := j.isLt; have := k.isLt; have := jj.isLt; omega⟩ : Fin 2129920))) := by
  rw [out_last V c (32 * j.val + 31) h (by omega) d, accSum_last V c j d]
  refine Finset.sum_congr rfl fun k _ => ?_
  have hk : 32 * j.val + k.val < 64 := by have := j.isLt; have := k.isLt; omega
  unfold rowC
  rw [dif_pos hk]

end Invariant

end Cert.KernelIdeal.Frame

end
-- ==== Proof.KI.LinOut.lean ====
/-
  The second pallas_call's output array after its region, at the exact (extended-real) instance, from what the
  output block holds after the last point of each row block.

  The grid has 2 × 32 points; point `t` belongs to row block `t / 32`.  The output array has 2 blocks of 64
  entries, block `j` for row block `j`.  The output window's block is written back only at the last point of a row
  block (`t % 32 = 31`), so block `j` of the array is written exactly once, at point `32 j + 31`, with what the
  output buffer holds after that point; and the two blocks tile the array.
-/
import proofs.«120060_j231928234454_2_alg».proof.Proof.KI.Region1
import Idealize.ShloMosaic.PureOps.Ideal
import Idealize.ShloMosaic.Lib.ValueIdx
import Idealize.ShloMosaic.Lib.Pipeline.Value
import Idealize.ShloMosaic.Lib.Tactic

noncomputable section

namespace Cert.KernelIdeal.Frame

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents on entry to the region, at the exact instance
variable (V : (c : Dev nD) → (b : Ref sig .tc) → Buf (Elt Ideal) ((c : Thread nD τ).loc b))

/-- A grid point is one of 64. -/
theorem linout_point_lt (t : Fin cfg1.N) : t.val < 64 := lt_of_lt_of_eq t.isLt N_1

/-- The last point of row block `j` is a grid point. -/
theorem linout_last_lt (j : Fin 2) : 32 * j.val + 31 < cfg1.N :=
  lt_of_lt_of_eq (by have := j.isLt; omega) N_1.symm

/-- The pair (output block, accumulator) after a position depends on the position only. -/
theorem linout_outs_congr (c : Dev nD) (n n' : ℕ) (h : n = n') (hn : n < cfg1.N) (hn' : n' < cfg1.N) :
    outsAt1 (F := Ideal) V c n hn = outsAt1 (F := Ideal) V c n' hn' := by
  subst h; rfl

/-- The array assembled from its two blocks of 64. -/
def linArr (S : Fin 2 → Fin 64 → EReal) : S2x1x64.Idx → Elt Ideal .f32 := fun i => S (i 0) (i 2)

/-- The output window's index map over the grid: block `t / 32`. -/
theorem linout_block_index : ∀ t : Fin cfg1.N,
    win1_3.index t (0 : Fin 3) = t.val / 32 ∧ win1_3.index t (1 : Fin 3) = 0 ∧ win1_3.index t (2 : Fin 3) = 0 :=
  (by decide +kernel : ∀ t : Fin grid1.N, _)

/-- WHAT A WRITING POINT WRITES BACK: at the last point of row block `j`, block `j` of the assembled array. -/
theorem linout_written (c : Dev nD) (S : Fin 2 → Fin 64 → EReal)
    (hlast : ∀ (j : Fin 2) (d : Fin 64),
      (outsAt1 (F := Ideal) V c (32 * j.val + 31) (linout_last_lt j)).1 (ValueIdx.ix3 (0 : Fin 1) (0 : Fin 1) d) = S j d)
    (t : Fin cfg1.N) (hf : (cfg1.win 3).flush t = true) :
    (dat1 (F := Ideal) V c).flushed 3 t = ((cfg1.win 3).blk t).view.read (Elt Ideal) (linArr S) := by
  have h31 : t.val % 32 = 31 := (flush1_3 t).mp hf
  have htN : t.val < 64 := linout_point_lt t
  obtain ⟨e0, e1, e2⟩ := linout_block_index t
  show (cfg1.win 3).cut (grid1.coords t) ((dat1 V c).after 3 t) = _
  rw [after1_3]
  funext (y : S1x1x64.Idx)
  show (outsAt1 (F := Ideal) V c t.val t.isLt).1 y = linArr S (((cfg1.win 3).blk t).view.emb y)
  have hy0 : (y 0).val < 1 := (y 0).isLt
  have hy1 : (y 1).val < 1 := (y 1).isLt
  have hy2 : (y 2).val < 64 := (y 2).isLt
  have hy : y = ix3 (0 : Fin 1) (0 : Fin 1) (⟨(y 2).val, hy2⟩ : Fin 64) := by
    funext a
    match a with
    | ⟨0, _⟩ => exact Fin.ext (by show (y 0).val = 0; omega)
    | ⟨1, _⟩ => exact Fin.ext (by show (y 1).val = 0; omega)
    | ⟨2, _⟩ => rfl
  have hj : t.val / 32 < 2 := by omega
  have hpos : outsAt1 (F := Ideal) V c t.val t.isLt
      = outsAt1 (F := Ideal) V c (32 * (⟨t.val / 32, hj⟩ : Fin 2).val + 31) (linout_last_lt ⟨t.val / 32, hj⟩) :=
    linout_outs_congr V c _ _ (by show t.val = 32 * (t.val / 32) + 31; omega) _ _
  rw [hpos]
  refine (congrArg (outsAt1 (F := Ideal) V c (32 * (⟨t.val / 32, hj⟩ : Fin 2).val + 31) (linout_last_lt ⟨t.val / 32, hj⟩)).1 hy).trans ?_
  refine (hlast ⟨t.val / 32, hj⟩ ⟨(y 2).val, hy2⟩).trans ?_
  show S ⟨t.val / 32, hj⟩ ⟨(y 2).val, hy2⟩ = S ((((cfg1.win 3).blk t).view.emb y) 0) ((((cfg1.win 3).blk t).view.emb y) 2)
  refine congrArg₂ S (Fin.ext ?_) (Fin.ext ?_)
  · show t.val / 32 = win1_3.index t (0 : Fin 3) * 1 + 1 * (y 0).val; omega
  · show (y 2).val = win1_3.index t (2 : Fin 3) * 64 + 1 * (y 2).val; omega

/-- An index of the array is in point `t`'s block iff each coordinate is in the block's range on its axis. -/
theorem linout_mem_block (t : Fin cfg1.N) (i : S2x1x64.Idx) :
    i ∈ ((cfg1.win 3).blk t).view.set ↔ ∀ a : Fin 3, win1_3.index t a * S1x1x64.size a ≤ (i a).val ∧ (i a).val < win1_3.index t a * S1x1x64.size a + S1x1x64.size a := by
  show i ∈ ((View.whole main_v10).slice (win1_3.rect t)).set ↔ _
  rw [View.set_slice_whole, Rect.mem_set_unit]
  exact Iff.rfl

/-- Entry (`j`, 0, `d`) lies in the block of point `32 j + 31`, which is written back. -/
theorem linout_covered (i : S2x1x64.Idx) :
    ∃ t : Fin cfg1.N, (cfg1.win 3).flush t = true ∧ i ∈ ((cfg1.win 3).blk t).view.set := by
  have hi0 : (i 0).val < 2 := (i 0).isLt
  have hi1 : (i 1).val < 1 := (i 1).isLt
  have hi2 : (i 2).val < 64 := (i 2).isLt
  have hlt : 32 * (i 0).val + 31 < cfg1.N := lt_of_lt_of_eq (by omega) N_1.symm
  refine ⟨⟨32 * (i 0).val + 31, hlt⟩, (flush1_3 _).mpr (by show (32 * (i 0).val + 31) % 32 = 31; omega), ?_⟩
  rw [linout_mem_block]
  obtain ⟨e0, e1, e2⟩ := linout_block_index ⟨32 * (i 0).val + 31, hlt⟩
  have e0' : win1_3.index ⟨32 * (i 0).val + 31, hlt⟩ (0 : Fin 3) = (32 * (i 0).val + 31) / 32 := e0
  intro a
  match a with
  | ⟨0, _⟩ =>
    show win1_3.index ⟨32 * (i 0).val + 31, hlt⟩ (0 : Fin 3) * 1 ≤ (i 0).val ∧ (i 0).val < win1_3.index ⟨32 * (i 0).val + 31, hlt⟩ (0 : Fin 3) * 1 + 1
    omega
  | ⟨1, _⟩ =>
    show win1_3.index ⟨32 * (i 0).val + 31, hlt⟩ (1 : Fin 3) * 1 ≤ (i 1).val ∧ (i 1).val < win1_3.index ⟨32 * (i 0).val + 31, hlt⟩ (1 : Fin 3) * 1 + 1
    omega
  | ⟨2, _⟩ =>
    show win1_3.index ⟨32 * (i 0).val + 31, hlt⟩ (2 : Fin 3) * 64 ≤ (i 2).val ∧ (i 2).val < win1_3.index ⟨32 * (i 0).val + 31, hlt⟩ (2 : Fin 3) * 64 + 64
    omega

/-- The output array after the region's last point is the array assembled from the two last-point blocks. -/
theorem lin_arr_of (c : Dev nD) (S : Fin 2 → Fin 64 → EReal)
    (hlast : ∀ (j : Fin 2) (d : Fin 64),
      (outsAt1 (F := Ideal) V c (32 * j.val + 31) (linout_last_lt j)).1 (ValueIdx.ix3 (0 : Fin 1) (0 : Fin 1) d) = S j d) :
    (dat1 (F := Ideal) V c).arrAt 3 cfg1.N = linArr S :=
  (dat1 V c).arrAt_eq_of_cover 3 (linArr S) (fun t hf => linout_written V c S hlast t hf) linout_covered

/-- Entry (`j`, 0, `d`) of the output array after the region is entry `d` of what the output block holds after
    the last point of row block `j`. -/
theorem lin_out_of (c : Dev nD) (S : Fin 2 → Fin 64 → EReal)
    (hlast : ∀ (j : Fin 2) (d : Fin 64),
      (outsAt1 (F := Ideal) V c (32 * j.val + 31) (linout_last_lt j)).1 (ValueIdx.ix3 (0 : Fin 1) (0 : Fin 1) d) = S j d)
    (j : Fin 2) (d : Fin 64) :
    (dat1 (F := Ideal) V c).arrAt 3 cfg1.N (ValueIdx.ix3 j (0 : Fin 1) d) = S j d :=
  congrFun (lin_arr_of V c S hlast) (ix3 j (0 : Fin 1) d)

end Cert.KernelIdeal.Frame

end
-- ==== Proof.KI.Lin.lean ====
/-
  The linear kernel's output array after its region: entry (j, 0, d) is the sum over the 32 rows 32 j … 32 j + 31 of the
  hidden matrix of the row's contribution against weight row d — the output block left at the last point of row block j,
  which is the one point that writes block j back.
-/
import proofs.«120060_j231928234454_2_alg».proof.Proof.KI.LinAcc
import proofs.«120060_j231928234454_2_alg».proof.Proof.KI.LinOut

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

theorem lin_final (V : (c : Dev nD) → (b : Ref sig .tc) → Buf (Elt Ideal) ((c : Thread nD τ).loc b)) (c : Dev nD) (j : Fin 2) (d : Fin 64) :
    (dat1 (F := Ideal) V c).arrAt 3 cfg1.N (ValueIdx.ix3 j (0 : Fin 1) d)
      = ∑ k : Fin 32, Cert.Spec.fcRow (fun cc => V c main_v8 (ix3 (⟨32 * j.val + k.val, by have := j.isLt; have := k.isLt; omega⟩ : Fin 64) (0 : Fin 1) cc)) (fun m => V c main_v9 (ix3 (⟨32 * j.val + k.val, by have := j.isLt; have := k.isLt; omega⟩ : Fin 64) (0 : Fin 1) m)) (fun jj => V c main_arg5 (ix2 d (⟨33280 * (32 * j.val + k.val) + jj.val, by have := j.isLt; have := k.isLt; have := jj.isLt; omega⟩ : Fin 2129920))) :=
  lin_out_of V c
    (fun j d => ∑ k : Fin 32, Cert.Spec.fcRow (fun cc => V c main_v8 (ix3 (⟨32 * j.val + k.val, by have := j.isLt; have := k.isLt; omega⟩ : Fin 64) (0 : Fin 1) cc)) (fun m => V c main_v9 (ix3 (⟨32 * j.val + k.val, by have := j.isLt; have := k.isLt; omega⟩ : Fin 64) (0 : Fin 1) m)) (fun jj => V c main_arg5 (ix2 d (⟨33280 * (32 * j.val + k.val) + jj.val, by have := j.isLt; have := k.isLt; have := jj.isLt; omega⟩ : Fin 2129920))))
    (fun j d => lin_last V c j d (linout_last_lt j)) j d

end Cert.KernelIdeal.Frame

end
-- ==== Proof.RefSpec.lean ====
/-
  The whole result as one function of the seven argument arrays.

  For symptom `s = n / 8` and relation `r = n % 8` the cosine table's entry `(k, n)` is the cosine entry of the
  symptom's embedding row, the relation's row, disease row `k`, the symptom's mask value and the disease row's
  length. A hidden row is disease row `k`'s 512 rule features followed by its 32768 cosine entries; the 64 hidden rows
  laid end to end are the 2129920 inputs of the linear layer, so output `d` before the bias is the sum over the
  hidden rows of each row's product with the matching stretch `33280·row … 33280·row + 33279` of weight row `d`.
  The result is the logistic tail of that sum plus the bias.
-/
import proofs.«120060_j231928234454_2_alg».proof.Proof.Spec
import Idealize.ShloMosaic.PureOps
import Idealize.ShloMosaic.Lib.ValueIdx

noncomputable section

open scoped BigOperators
open Idealize.ShloMosaic Idealize.ShloMosaic.ValueIdx

namespace Cert.RefSpec

/-- The mask: one where the indicator is not zero, zero elsewhere, as a float. Both programs compute it with
    this one host term; it is carried as a name and never opened. -/
def maskOf (a0 : IVec ⟨1, ![4096]⟩ 32) : FVec Ideal ⟨1, ![4096]⟩ .f32 :=
  uitofp .f32 (cmpi .ne a0 (broadcastInDim ⟨1, ![4096]⟩ ![] (by decide) (constantI ⟨0, ![]⟩ 32 0#32)))

/-- The symptom of column `n` of the cosine table. -/
abbrev symOf (n : Fin 32768) : Fin 4096 := ⟨n.val / 8, by have := n.isLt; omega⟩
/-- The relation of column `n` of the cosine table. -/
abbrev relOf (n : Fin 32768) : Fin 8 := ⟨n.val % 8, by omega⟩

/-- The length of disease row `k`. -/
def dnOf (a4 : FVec Ideal ⟨2, ![64, 128]⟩ .f32) (k : Fin 64) : EReal :=
  Spec.dnorm fun d => a4 (ix2 k d)

/-- Entry `(k, n)` of the cosine table. -/
def kgOf (a0 : IVec ⟨1, ![4096]⟩ 32) (a2 : FVec Ideal ⟨2, ![4096, 128]⟩ .f32) (a3 : FVec Ideal ⟨2, ![8, 128]⟩ .f32)
    (a4 : FVec Ideal ⟨2, ![64, 128]⟩ .f32) (k : Fin 64) (n : Fin 32768) : EReal :=
  Spec.cosElem (fun d => a2 (ix2 (symOf n) d)) (fun d => a3 (ix2 (relOf n) d)) (fun d => a4 (ix2 k d))
    (maskOf a0 (ix1 (symOf n))) (dnOf a4 k)

/-- Position `j` of hidden row `row` among the linear layer's inputs. -/
abbrev flatPos (row : Fin 64) (j : Fin 33280) : Fin 2129920 :=
  ⟨33280 * row.val + j.val, by have := row.isLt; have := j.isLt; omega⟩

/-- Output `d` of the linear layer before the bias: hidden rows outermost. -/
def linOf (a0 : IVec ⟨1, ![4096]⟩ 32) (a1 : FVec Ideal ⟨2, ![64, 512]⟩ .f32) (a2 : FVec Ideal ⟨2, ![4096, 128]⟩ .f32)
    (a3 : FVec Ideal ⟨2, ![8, 128]⟩ .f32) (a4 : FVec Ideal ⟨2, ![64, 128]⟩ .f32)
    (a5 : FVec Ideal ⟨2, ![64, 2129920]⟩ .f32) (d : Fin 64) : EReal :=
  ∑ row : Fin 64, Spec.fcRow (fun c => a1 (ix2 row c)) (fun n => kgOf a0 a2 a3 a4 row n)
    (fun j => a5 (ix2 d (flatPos row j)))

/-- The logistic tail `1 / (1 + exp (−x))`, with the host's one word and its division. Both programs end with
    it; it is carried as a name and never opened. -/
def sigTail (x : EReal) : EReal :=
  Ideal.div (Ideal.ofBits .f32 0x3F800000#32) (Ideal.ofBits .f32 0x3F800000#32 + Ideal.exp (-x))

/-- Output `d`. -/
def outOf (a0 : IVec ⟨1, ![4096]⟩ 32) (a1 : FVec Ideal ⟨2, ![64, 512]⟩ .f32) (a2 : FVec Ideal ⟨2, ![4096, 128]⟩ .f32)
    (a3 : FVec Ideal ⟨2, ![8, 128]⟩ .f32) (a4 : FVec Ideal ⟨2, ![64, 128]⟩ .f32)
    (a5 : FVec Ideal ⟨2, ![64, 2129920]⟩ .f32) (a6 : FVec Ideal ⟨1, ![64]⟩ .f32) (d : Fin 64) : EReal :=
  sigTail (linOf a0 a1 a2 a3 a4 a5 d + a6 (ix1 d))

/-- The result array: one row of the 64 outputs. -/
def G (a0 : IVec ⟨1, ![4096]⟩ 32) (a1 : FVec Ideal ⟨2, ![64, 512]⟩ .f32) (a2 : FVec Ideal ⟨2, ![4096, 128]⟩ .f32)
    (a3 : FVec Ideal ⟨2, ![8, 128]⟩ .f32) (a4 : FVec Ideal ⟨2, ![64, 128]⟩ .f32)
    (a5 : FVec Ideal ⟨2, ![64, 2129920]⟩ .f32) (a6 : FVec Ideal ⟨1, ![64]⟩ .f32) : FVec Ideal ⟨2, ![1, 64]⟩ .f32 :=
  fun i => outOf a0 a1 a2 a3 a4 a5 a6 ⟨(i 1).val, (i 1).isLt⟩

/-- The result at row 0, column `d`. -/
theorem G_apply (a0 : IVec ⟨1, ![4096]⟩ 32) (a1 : FVec Ideal ⟨2, ![64, 512]⟩ .f32) (a2 : FVec Ideal ⟨2, ![4096, 128]⟩ .f32)
    (a3 : FVec Ideal ⟨2, ![8, 128]⟩ .f32) (a4 : FVec Ideal ⟨2, ![64, 128]⟩ .f32)
    (a5 : FVec Ideal ⟨2, ![64, 2129920]⟩ .f32) (a6 : FVec Ideal ⟨1, ![64]⟩ .f32) (z : Fin 1) (d : Fin 64) :
    G a0 a1 a2 a3 a4 a5 a6 (ix2 z d) = outOf a0 a1 a2 a3 a4 a5 a6 d := rfl

end Cert.RefSpec

end
-- ==== Proof.KI.HostReads.lean ====
/-
  The kernel program's host operations, read one entry at a time.

  Outside its two kernels the program computes, on the host: before the first kernel the mask (one where the
  indicator is not zero) and each disease row's length, the root taken after the row sums are laid out as a column;
  between the kernels a unit middle axis put on the rule features and on the cosine table; after the second kernel
  the two partial outputs added, the bias added, and the logistic tail. Each is read here at an index, from an
  arbitrary assignment of contents to the buffers, as the same scalar expressions the specification is written in.
-/
import proofs.«120060_j231928234454_2_alg».proof.Proof.Gen.KernelIdeal.Launch
import proofs.«120060_j231928234454_2_alg».proof.Proof.RefSpec
import proofs.«120060_j231928234454_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx
open Idealize.ShloMosaic.StableHlo

namespace Cert.KernelIdeal.HostReads

open Cert.KernelIdeal Cert.KernelIdeal.Gen

variable (W : Valuation τ sig (Elt Ideal))

/-- The mask is the shared host term of the indicator array. -/
theorem mask_read :
    StableHlo.after (hostOps0 (F := Ideal)) W (Proc.devRef .tc main_v2)
      = Cert.RefSpec.maskOf (W (Proc.devRef .tc main_arg0)) := by
  after_results
  rfl

/-! ## Before the first kernel: the disease rows' lengths -/

/-- The host's sum of a `[64, 128]` array along its rows, from the zero word: row `k`'s sum. -/
theorem reduce_row (x : S64x128.Idx → EReal) (k : Fin 64) :
    Host.reduceAdd (F := Ideal) (φ := .f32) x (constant (F := Ideal) S_ .f32 0x00000000#32) reducesTo_S64x128_S64_d1 h_S_ (ix1 k)
      = ∑ d : Fin 128, x (ix2 k d) := by
  simp only [Host.reduceAdd, Ideal.hostReduceAdd_def]
  rw [Ideal.hostReduceAdd_single reducesTo_S64x128_S64_d1 (by decide)]
  rw [show constant (F := Ideal) S_ .f32 0x00000000#32 (Shape.Idx.first h_S_) = 0 from Ideal.ofBits_zero_f32, zero_add]
  refine Finset.sum_congr rfl fun d _ => congrArg x (funext fun a => Fin.ext (by
    match a with
    | ⟨0, _⟩ => rfl
    | ⟨1, _⟩ => rfl))

/-- Entry `(k, 0)` of the column of lengths is disease row `k`'s length. -/
theorem dn_read (k : Fin 64) :
    StableHlo.after (hostOps0 (F := Ideal)) W (Proc.devRef .tc main_v6) (ix2 k (0 : Fin 1))
      = Cert.RefSpec.dnOf (W (Proc.devRef .tc main_arg4)) k := by
  have e : (StableHlo.after (hostOps0 (F := Ideal)) W (Proc.devRef .tc main_v6) : S64x1.Idx → EReal)
      = Host.sqrt (F := Ideal) (φ := .f32) (broadcastInDim S64x1 ![0] bcast_S64_S64x1_0
          (Host.reduceAdd (F := Ideal) (φ := .f32)
            (mulf (W (Proc.devRef .tc main_arg4) : S64x128.Idx → EReal) (W (Proc.devRef .tc main_arg4)))
            (constant (F := Ideal) S_ .f32 0x00000000#32) reducesTo_S64x128_S64_d1 h_S_)) := by
    after_results <;> rfl
  rw [e]
  generalize (W (Proc.devRef .tc main_arg4) : S64x128.Idx → EReal) = x4
  show Ideal.sqrt (broadcastInDim (s := S64) S64x1 ![0] bcast_S64_S64x1_0 _ (ix2 k (0 : Fin 1))) = _
  rw [broadcastInDim_apply ![0] bcast_S64_S64x1_0 _ (ix2 k (0 : Fin 1)) (ix1 k) (fun a => by
    match a with
    | ⟨0, _⟩ => show k.val = if (64 : Nat) = 1 then 0 else k.val; rw [if_neg (by decide)]), reduce_row]
  rfl

/-! ## Between the kernels: a unit middle axis -/

/-- The rule features with a unit middle axis. -/
theorem v8_read (row : Fin 64) (cc : Fin 512) :
    StableHlo.after (hostOps1 (F := Ideal)) W (Proc.devRef .tc main_v8) (ix3 row (0 : Fin 1) cc)
      = W (Proc.devRef .tc main_arg1) (ix2 row cc) := by
  have e : (StableHlo.after (hostOps1 (F := Ideal)) W (Proc.devRef .tc main_v8) : S64x1x512.Idx → EReal)
      = broadcastInDim S64x1x512 ![0, 2] bcast_S64x512_S64x1x512_0_2 (W (Proc.devRef .tc main_arg1) : S64x512.Idx → EReal) := by
    after_results <;> rfl
  rw [e]
  exact broadcastInDim_apply ![0, 2] bcast_S64x512_S64x1x512_0_2 _ (ix3 row (0 : Fin 1) cc) (ix2 row cc) (fun a => by
    match a with
    | ⟨0, _⟩ => show row.val = if (64 : Nat) = 1 then 0 else row.val; rw [if_neg (by decide)]
    | ⟨1, _⟩ => show cc.val = if (512 : Nat) = 1 then 0 else cc.val; rw [if_neg (by decide)])

/-- The cosine table with a unit middle axis. -/
theorem v9_read (row : Fin 64) (n : Fin 32768) :
    StableHlo.after (hostOps1 (F := Ideal)) W (Proc.devRef .tc main_v9) (ix3 row (0 : Fin 1) n)
      = W (Proc.devRef .tc main_v7) (ix2 row n) := by
  have e : (StableHlo.after (hostOps1 (F := Ideal)) W (Proc.devRef .tc main_v9) : S64x1x32768.Idx → EReal)
      = broadcastInDim S64x1x32768 ![0, 2] bcast_S64x32768_S64x1x32768_0_2 (W (Proc.devRef .tc main_v7) : S64x32768.Idx → EReal) := by
    after_results <;> rfl
  rw [e]
  exact broadcastInDim_apply ![0, 2] bcast_S64x32768_S64x1x32768_0_2 _ (ix3 row (0 : Fin 1) n) (ix2 row n) (fun a => by
    match a with
    | ⟨0, _⟩ => show row.val = if (64 : Nat) = 1 then 0 else row.val; rw [if_neg (by decide)]
    | ⟨1, _⟩ => show n.val = if (32768 : Nat) = 1 then 0 else n.val; rw [if_neg (by decide)])

/-! ## After the second kernel: the partial outputs, the bias and the logistic tail -/

/-- Row `p` of a `[2, 1, 64]` array, cut out and flattened to 64 entries, at entry `d`. -/
theorem part_apply (X : S2x1x64.Idx → EReal) (p : Fin 2) (hs : S2x1x64.Slices ![p.val, 0, 0] S1x1x64) (d : Fin 64) :
    shapeCast S64 (extractStridedSlice S1x1x64 ![p.val, 0, 0] X hs) shapeCasts_S1x1x64_S64 (ix1 d)
      = X (ix3 p (0 : Fin 1) d) := by
  rw [shapeCast_apply _ shapeCasts_S1x1x64_S64 (ix1 d) (ix3 (0 : Fin 1) (0 : Fin 1) d) (by
    rw [Shape.rowMajor_val_three, Shape.rowMajor_val_one]
    show (0 * 1 + 0) * 64 + d.val = d.val
    omega)]
  exact extractStridedSlice_apply ![p.val, 0, 0] X hs (ix3 (0 : Fin 1) (0 : Fin 1) d) (ix3 p (0 : Fin 1) d) (fun a => by
    match a with
    | ⟨0, _⟩ => show p.val = p.val + 0; omega
    | ⟨1, _⟩ => show 0 = 0 + 0; omega
    | ⟨2, _⟩ => show d.val = 0 + d.val; omega)

/-- The host's last operations, as one term of the partial outputs `X` and the bias `b`, read at `(z, d)`. -/
theorem tail_term_apply (X : S2x1x64.Idx → EReal) (b : S64.Idx → EReal) (z : Fin 1) (d : Fin 64) :
    shapeCast S1x64
        (Host.divf (F := Ideal) (φ := .f32)
          (broadcastInDim (s := S_) S64 ![] bcast_S_S64 (constant (F := Ideal) S_ .f32 0x3F800000#32))
          (addf (broadcastInDim (s := S_) S64 ![] bcast_S_S64 (constant (F := Ideal) S_ .f32 0x3F800000#32))
            (Host.exp (F := Ideal) (φ := .f32) (Host.negf (F := Ideal) (φ := .f32)
              (addf
                (addf
                  (shapeCast S64 (extractStridedSlice S1x1x64 ![0, 0, 0] X slices_S2x1x64_S1x1x64_0_0_0) shapeCasts_S1x1x64_S64)
                  (shapeCast S64 (extractStridedSlice S1x1x64 ![1, 0, 0] X slices_S2x1x64_S1x1x64_1_0_0) shapeCasts_S1x1x64_S64))
                b)))))
        shapeCasts_S64_S1x64 (ix2 z d)
      = Cert.RefSpec.sigTail ((X (ix3 (0 : Fin 2) (0 : Fin 1) d) + X (ix3 (1 : Fin 2) (0 : Fin 1) d)) + b (ix1 d)) := by
  rw [shapeCast_a_1a_apply]
  have h0 : shapeCast S64 (extractStridedSlice S1x1x64 ![0, 0, 0] X slices_S2x1x64_S1x1x64_0_0_0) shapeCasts_S1x1x64_S64 (ix1 d)
      = X (ix3 (0 : Fin 2) (0 : Fin 1) d) := part_apply X (0 : Fin 2) slices_S2x1x64_S1x1x64_0_0_0 d
  have h1 : shapeCast S64 (extractStridedSlice S1x1x64 ![1, 0, 0] X slices_S2x1x64_S1x1x64_1_0_0) shapeCasts_S1x1x64_S64 (ix1 d)
      = X (ix3 (1 : Fin 2) (0 : Fin 1) d) := part_apply X (1 : Fin 2) slices_S2x1x64_S1x1x64_1_0_0 d
  show Cert.RefSpec.sigTail
      ((shapeCast S64 (extractStridedSlice S1x1x64 ![0, 0, 0] X slices_S2x1x64_S1x1x64_0_0_0) shapeCasts_S1x1x64_S64 (ix1 d)
          + shapeCast S64 (extractStridedSlice S1x1x64 ![1, 0, 0] X slices_S2x1x64_S1x1x64_1_0_0) shapeCasts_S1x1x64_S64 (ix1 d))
        + b (ix1 d)) = _
  rw [h0, h1]

/-- Output `d`: the two partial outputs added, then the bias, then the logistic tail. -/
theorem tail_read (z : Fin 1) (d : Fin 64) :
    StableHlo.after (hostOps2 (F := Ideal)) W (Proc.devRef .tc main_v23) (ix2 z d)
      = Cert.RefSpec.sigTail
          (@HAdd.hAdd EReal EReal EReal instHAdd
            (@HAdd.hAdd EReal EReal EReal instHAdd
              (W (Proc.devRef .tc main_v10) (ix3 (0 : Fin 2) (0 : Fin 1) d))
              (W (Proc.devRef .tc main_v10) (ix3 (1 : Fin 2) (0 : Fin 1) d)))
            (W (Proc.devRef .tc main_arg6) (ix1 d))) := by
  have e : (StableHlo.after (hostOps2 (F := Ideal)) W (Proc.devRef .tc main_v23) : S1x64.Idx → EReal)
      = shapeCast S1x64
          (Host.divf (F := Ideal) (φ := .f32)
            (broadcastInDim (s := S_) S64 ![] bcast_S_S64 (constant (F := Ideal) S_ .f32 0x3F800000#32))
            (addf (broadcastInDim (s := S_) S64 ![] bcast_S_S64 (constant (F := Ideal) S_ .f32 0x3F800000#32))
              (Host.exp (F := Ideal) (φ := .f32) (Host.negf (F := Ideal) (φ := .f32)
                (addf
                  (addf
                    (shapeCast S64 (extractStridedSlice S1x1x64 ![0, 0, 0]
                      (W (Proc.devRef .tc main_v10) : S2x1x64.Idx → EReal) slices_S2x1x64_S1x1x64_0_0_0) shapeCasts_S1x1x64_S64)
                    (shapeCast S64 (extractStridedSlice S1x1x64 ![1, 0, 0]
                      (W (Proc.devRef .tc main_v10) : S2x1x64.Idx → EReal) slices_S2x1x64_S1x1x64_1_0_0) shapeCasts_S1x1x64_S64))
                  (W (Proc.devRef .tc main_arg6) : S64.Idx → EReal))))))
          shapeCasts_S64_S1x64 := by
    after_results <;> rfl
  rw [e]
  exact tail_term_apply (W (Proc.devRef .tc main_v10)) (W (Proc.devRef .tc main_arg6)) z d

end Cert.KernelIdeal.HostReads

end
-- ==== Proof.KI.Value.lean ====
/-
  The kernel program's result, at the ideal instance, is the specification `G` of the launch arguments.
  Reading the fold backwards from the result buffer: the last host stretch applies the logistic tail to
  partial₀ + partial₁ + bias; each partial sum is the linear kernel's output block, Σ over its 32 rows of
  ⟨rule_row, W_row⟩ + ⟨kg_row, W'_row⟩, where the rule rows are the argument's (through a broadcast that inserts a unit
  axis), the weights are the argument's, and kg is the cosine kernel's output array: entry (k, n) the cosine of disease
  row k against (embed_{n / 8} + rel_{n % 8}) · mask_{n / 8}, the mask and the disease norms computed by the first host
  stretch. The two halves of 32 rows are the 64 rows of the specification's sum.
-/
import proofs.«120060_j231928234454_2_alg».proof.Proof.KI.Ends
import proofs.«120060_j231928234454_2_alg».proof.Proof.KI.Kg
import proofs.«120060_j231928234454_2_alg».proof.Proof.KI.Lin
import proofs.«120060_j231928234454_2_alg».proof.Proof.KI.HostReads
import proofs.«120060_j231928234454_2_alg».proof.Proof.RefSpec

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.RefSpec Idealize.ShloMosaic.ValueIdx

variable (m : (ℓ : Loc nD τ sig) → Buf (Elt Ideal) ℓ) (ρ : Dev nD → PrngReg)

/-! ## What the cosine kernel's region is entered from -/

theorem ent0_arg2 (c : Dev nD) : Ent0 m ρ c main_arg2 = (m ((c : Thread nD τ).loc main_arg2)) := Bnd1_keep m ρ c main_arg2 (by decide)
theorem ent0_arg3 (c : Dev nD) : Ent0 m ρ c main_arg3 = (m ((c : Thread nD τ).loc main_arg3)) := Bnd1_keep m ρ c main_arg3 (by decide)
theorem ent0_arg4 (c : Dev nD) : Ent0 m ρ c main_arg4 = (m ((c : Thread nD τ).loc main_arg4)) := Bnd1_keep m ρ c main_arg4 (by decide)
theorem ent0_mask (c : Dev nD) : Ent0 m ρ c main_v2 = maskOf (m ((c : Thread nD τ).loc main_arg0)) :=
  Cert.KernelIdeal.HostReads.mask_read (Bnd0 m ρ c)
theorem ent0_dn (c : Dev nD) (k : Fin 64) : Ent0 m ρ c main_v6 (ix2 k (0 : Fin 1)) = dnOf (m ((c : Thread nD τ).loc main_arg4)) k :=
  Cert.KernelIdeal.HostReads.dn_read (Bnd0 m ρ c) k

/-- The cosine kernel's output array is the specification's `kgOf`. -/
theorem kg_array (c : Dev nD) (k : Fin 64) (n : Fin 32768) :
    Bnd2 m ρ c (Proc.devRef .tc main_v7) (ix2 k n) = kgOf (m ((c : Thread nD τ).loc main_arg0)) (m ((c : Thread nD τ).loc main_arg2)) (m ((c : Thread nD τ).loc main_arg3)) (m ((c : Thread nD τ).loc main_arg4)) k n := by
  refine (congrFun (Bnd2_arr m ρ c 5) _).trans ?_
  rw [kg_final (Ent0 m ρ) c k n, ent0_arg2, ent0_arg3, ent0_arg4, ent0_mask, ent0_dn]
  rfl

/-! ## What the linear kernel's region is entered from -/

theorem ent1_v8 (c : Dev nD) (row : Fin 64) (cc : Fin 512) :
    Ent1 m ρ c main_v8 (ix3 row (0 : Fin 1) cc) = (m ((c : Thread nD τ).loc main_arg1)) (ix2 row cc) :=
  (Cert.KernelIdeal.HostReads.v8_read (Bnd2 m ρ c) row cc).trans
    (congrFun ((Bnd2_of_ne m ρ c main_arg1 (by decide)).trans (Bnd1_keep m ρ c main_arg1 (by decide))) _)
theorem ent1_v9 (c : Dev nD) (row : Fin 64) (n : Fin 32768) :
    Ent1 m ρ c main_v9 (ix3 row (0 : Fin 1) n) = kgOf (m ((c : Thread nD τ).loc main_arg0)) (m ((c : Thread nD τ).loc main_arg2)) (m ((c : Thread nD τ).loc main_arg3)) (m ((c : Thread nD τ).loc main_arg4)) row n :=
  (Cert.KernelIdeal.HostReads.v9_read (Bnd2 m ρ c) row n).trans (kg_array m ρ c row n)
theorem ent1_arg5 (c : Dev nD) : Ent1 m ρ c main_arg5 = (m ((c : Thread nD τ).loc main_arg5)) :=
  (Bnd3_keep m ρ c main_arg5 (by decide)).trans ((Bnd2_of_ne m ρ c main_arg5 (by decide)).trans (Bnd1_keep m ρ c main_arg5 (by decide)))

/-- One row's contribution, as the specification writes it. -/
abbrev rowTerm (c : Dev nD) (d : Fin 64) (row : Fin 64) : EReal :=
  Cert.Spec.fcRow (fun cc => (m ((c : Thread nD τ).loc main_arg1)) (ix2 row cc)) (fun n => kgOf (m ((c : Thread nD τ).loc main_arg0)) (m ((c : Thread nD τ).loc main_arg2)) (m ((c : Thread nD τ).loc main_arg3)) (m ((c : Thread nD τ).loc main_arg4)) row n)
    (fun jj => (m ((c : Thread nD τ).loc main_arg5)) (ix2 d (flatPos row jj)))

/-- The rows the linear kernel's region finds are the specification's rows. -/
theorem rows_eq (c : Dev nD) (j : Fin 2) (d : Fin 64) :
    (∑ k : Fin 32, Cert.Spec.fcRow (fun cc => Ent1 m ρ c main_v8 (ix3 (⟨32 * j.val + k.val, by have := j.isLt; have := k.isLt; omega⟩ : Fin 64) (0 : Fin 1) cc))
          (fun n => Ent1 m ρ c main_v9 (ix3 (⟨32 * j.val + k.val, by have := j.isLt; have := k.isLt; omega⟩ : Fin 64) (0 : Fin 1) n))
          (fun jj => Ent1 m ρ c main_arg5 (ix2 d (⟨33280 * (32 * j.val + k.val) + jj.val, by have := j.isLt; have := k.isLt; have := jj.isLt; omega⟩ : Fin 2129920))) : EReal)
      = ∑ k : Fin 32, rowTerm m c d ⟨32 * j.val + k.val, by have := j.isLt; have := k.isLt; omega⟩ := by
  refine Finset.sum_congr rfl fun k _ => ?_
  exact congr (congr (congrArg Cert.Spec.fcRow (funext fun cc => ent1_v8 m ρ c _ cc)) (funext fun n => ent1_v9 m ρ c _ n))
    (funext fun jj => congrFun (ent1_arg5 m ρ c) _)

/-- The linear kernel's output block `j`: the sum of its 32 rows' contributions. -/
theorem partial_sum (c : Dev nD) (j : Fin 2) (d : Fin 64) :
    Bnd4 m ρ c (Proc.devRef .tc main_v10) (ix3 j (0 : Fin 1) d)
      = ∑ k : Fin 32, rowTerm m c d ⟨32 * j.val + k.val, by have := j.isLt; have := k.isLt; omega⟩ :=
  (congrFun (Bnd4_arr m ρ c 3) _).trans ((lin_final (Ent1 m ρ) c j d).trans (rows_eq m ρ c j d))

/-- Two halves of 32 rows are the 64 rows. -/
theorem sum_halves (f : Fin 64 → EReal) :
    (∑ k : Fin 32, f ⟨32 * (0 : Fin 2).val + k.val, by have := k.isLt; omega⟩)
      + (∑ k : Fin 32, f ⟨32 * (1 : Fin 2).val + k.val, by have := k.isLt; omega⟩) = ∑ row : Fin 64, f row := by
  rw [show (∑ row : Fin 64, f row) = ∑ row : Fin (32 + 32), f row from rfl, Fin.sum_univ_add]
  congr 1 <;> refine Finset.sum_congr rfl fun k _ => congrArg f (Fin.ext ?_) <;> simp

/-- THE VALUE: the result buffer at the program's end is `G` of the launch arguments. -/
theorem result_eq_G (c : Dev nD) :
    Bnd5 m ρ c (Proc.devRef .tc main_v23)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨z, d, rfl⟩ : ∃ (z : Fin 1) (d : Fin 64), i = ix2 z d := ⟨i 0, i 1, eq_ix2 i⟩
  rw [G_apply]
  refine (Cert.KernelIdeal.HostReads.tail_read (Bnd4 m ρ c) z d).trans ?_
  rw [partial_sum m ρ c 0 d, partial_sum m ρ c 1 d, sum_halves,
    show Bnd4 m ρ c (Proc.devRef .tc main_arg6) = (m ((c : Thread nD τ).loc main_arg6)) from
      (Bnd4_of_ne m ρ c main_arg6 (by decide)).trans ((Bnd3_keep m ρ c main_arg6 (by decide)).trans
        ((Bnd2_of_ne m ρ c main_arg6 (by decide)).trans (Bnd1_keep m ρ c main_arg6 (by decide))))]
  rfl

end Cert.KernelIdeal.Frame

end
-- ==== Proof.SumRows.lean ====
/-
  A long sum cut into rows, and each row into a head and a tail.

  The flat positions `0 … R·(A+B) − 1` are read row-major as `R` rows of `A + B` entries; each row is its first `A`
  entries followed by its last `B`. In a commutative additive monoid the sum over all positions is the sum over the
  rows of (the sum over the row's head plus the sum over its tail): only commutativity and associativity of the
  addition are used, so the statement holds on the extended reals with no finiteness side condition.
-/
import Mathlib.Algebra.BigOperators.Fin
import Mathlib.Logic.Equiv.Fin.Basic

open scoped BigOperators

namespace Cert.SumRows

/-- Position `j` of row `r` lies inside the flat range. -/
theorem pos_lt {N R W : ℕ} (hN : N = R * W) {r j : ℕ} (hr : r < R) (hj : j < W) : W * r + j < N := by
  subst hN
  calc W * r + j < W * r + W := by omega
    _ = W * (r + 1) := (Nat.mul_succ W r).symm
    _ ≤ W * R := Nat.mul_le_mul_left _ hr
    _ = R * W := Nat.mul_comm _ _

/-- The sum over the flat positions, regrouped: rows outermost, each row its head of `A` entries then its tail of `B`. -/
theorem sum_rows_split {M : Type*} [AddCommMonoid M] {N : ℕ} (R A B : ℕ) (hN : N = R * (A + B)) (f : Fin N → M) :
    ∑ k : Fin N, f k
      = ∑ r : Fin R,
          ((∑ a : Fin A, f ⟨(A + B) * r.val + a.val, pos_lt hN r.isLt (by have := a.isLt; omega)⟩)
            + ∑ b : Fin B, f ⟨(A + B) * r.val + (A + b.val), pos_lt hN r.isLt (by have := b.isLt; omega)⟩) := by
  subst hN
  rw [← finProdFinEquiv.sum_comp, Fintype.sum_prod_type]
  refine Finset.sum_congr rfl fun r _ => ?_
  rw [Fin.sum_univ_add]
  refine congrArg₂ (· + ·) (Finset.sum_congr rfl fun a _ => congrArg f (Fin.ext ?_))
    (Finset.sum_congr rfl fun b _ => congrArg f (Fin.ext ?_))
  · simp [finProdFinEquiv]; omega
  · simp [finProdFinEquiv]; omega

end Cert.SumRows
-- ==== Proof.RefValue.lean ====
/-
  The reference's result is the specification.

  The reference computes its result in 59 whole-array steps. Read one entry at a time they are: the masked sum row
  of symptom `n / 8` and relation `n % 8` (a reshape of the `[4096, 8, 128]` table to `[32768, 128]`), its squared
  length and guarded length, each disease row's length, the dot products, their quotient by the larger of the
  product of lengths and the small word; then the rule features and the cosine table side by side, the 64 rows of
  33280 laid end to end, and the product with the transposed weights: a sum over 2129920 positions, which is cut
  into the 64 rows and each row into its 512 rule positions and 32768 cosine positions (addition on the extended
  reals is commutative and associative, so no finiteness is needed); last the bias and the logistic tail.
  The host's reductions start from the zero word, which is the extended real zero and disappears.
-/
import proofs.«120060_j231928234454_2_alg».proof.Proof.Gen.ReferenceIdeal.Read
import proofs.«120060_j231928234454_2_alg».proof.Proof.RefSpec
import proofs.«120060_j231928234454_2_alg».proof.Proof.SumRows

noncomputable section

open scoped BigOperators
open Idealize.ShloMosaic Idealize.ShloMosaic.ValueIdx
open Cert.ReferenceIdeal Cert.ReferenceIdeal.Gen Cert.ReferenceIdeal.Read

namespace Cert.RefValue

open Cert.RefSpec

variable (x0 : (⟨S4096, .i32⟩ : BufTy).Contents (Elt Ideal)) (x1 : (⟨S64x512, .f32⟩ : BufTy).Contents (Elt Ideal))
  (x2 : (⟨S4096x128, .f32⟩ : BufTy).Contents (Elt Ideal)) (x3 : (⟨S8x128, .f32⟩ : BufTy).Contents (Elt Ideal))
  (x4 : (⟨S64x128, .f32⟩ : BufTy).Contents (Elt Ideal)) (x5 : (⟨S64x2129920, .f32⟩ : BufTy).Contents (Elt Ideal))
  (x6 : (⟨S64, .f32⟩ : BufTy).Contents (Elt Ideal))

/-! ## The constants, read at an index -/

theorem cst_zero (j : S_.Idx) : val_main_cst (F := Ideal) j = 0 := Ideal.ofBits_zero_f32
theorem cst4_zero (j : S_.Idx) : val_main_cst_4 (F := Ideal) j = 0 := Ideal.ofBits_zero_f32
theorem v14_zero (i : S32768.Idx) : val_main_v14 (F := Ideal) i = 0 := by
  rw [val_main_v14_apply]; exact Ideal.ofBits_zero_f32
theorem v16_zero (i : S32768.Idx) : val_main_v16 (F := Ideal) i = 0 := by
  rw [val_main_v16_apply]; exact Ideal.ofBits_zero_f32
theorem call1_zero (i : S32768.Idx) : val_main_call1_v1 (F := Ideal) i = 0 := by
  rw [val_main_call1_v1_apply]; exact Ideal.ofBits_zero_f32
theorem call0_one (i : S32768.Idx) : val_main_call0_v1 (F := Ideal) i = Ideal.ofBits .f32 0x3F800000#32 := by
  rw [val_main_call0_v1_apply]; rfl
theorem v30_eps (i : S64x32768.Idx) : val_main_v30 (F := Ideal) i = Ideal.ofBits .f32 0x358637BD#32 := by
  rw [val_main_v30_apply]; rfl
theorem v41_one (i : S1x64.Idx) : val_main_v41 (F := Ideal) i = Ideal.ofBits .f32 0x3F800000#32 := by
  rw [val_main_v41_apply]; rfl
theorem v43_one (i : S1x64.Idx) : val_main_v43 (F := Ideal) i = Ideal.ofBits .f32 0x3F800000#32 := by
  rw [val_main_v43_apply]; rfl

/-! ## The cosine table -/

/-- The mask is the shared host term. -/
theorem mask_eq : val_main_v2 (F := Ideal) x0 = maskOf x0 := rfl

/-- Row `n` of the reshaped table is the masked sum row of symptom `n / 8` and relation `n % 8`. -/
theorem x_at (n : Fin 32768) (d : Fin 128) :
    val_main_v11 (F := Ideal) x0 x2 x3 (ix2 n d)
      = Spec.xRow (fun d => x2 (ix2 (symOf n) d)) (fun d => x3 (ix2 (relOf n) d)) (maskOf x0 (ix1 (symOf n))) d := by
  rw [val_main_v11_apply, val_main_v10_apply, val_main_v7_apply, val_main_v5_apply, val_main_v3_apply,
    val_main_v6_apply, val_main_v4_apply, val_main_v9_apply, val_main_v8_apply, mask_eq]
  have hn := n.isLt
  have hd := d.isLt
  have e2 : idx_main_v3 (idx_main_v5 (idx_main_v11 (ix2 n d))) = ix2 (symOf n) d := funext fun a => Fin.ext (by
    match a with
    | ⟨0, _⟩ => show (n.val * 128 + d.val) / 1024 = n.val / 8; omega
    | ⟨1, _⟩ => show (n.val * 128 + d.val) % 128 = d.val; omega)
  have e3 : idx_main_v4 (idx_main_v6 (idx_main_v11 (ix2 n d))) = ix2 (relOf n) d := funext fun a => Fin.ext (by
    match a with
    | ⟨0, _⟩ => show (n.val * 128 + d.val) / 128 % 8 = n.val % 8; omega
    | ⟨1, _⟩ => show (n.val * 128 + d.val) % 128 = d.val; omega)
  have e0 : idx_main_v8 (idx_main_v9 (idx_main_v11 (ix2 n d))) = ix1 (symOf n) := funext fun a => Fin.ext (by
    match a with
    | ⟨0, _⟩ => show (n.val * 128 + d.val) / 1024 = n.val / 8; omega)
  rw [e2, e3, e0]
  rfl

/-- The squared length of row `n`. -/
theorem sq_at (n : Fin 32768) :
    val_main_v13 (F := Ideal) x0 x2 x3 (ix1 n)
      = Spec.sqNorm (Spec.xRow (fun d => x2 (ix2 (symOf n) d)) (fun d => x3 (ix2 (relOf n) d)) (maskOf x0 (ix1 (symOf n)))) := by
  rw [val_main_v13_apply, cst_zero, zero_add]
  unfold Spec.sqNorm
  refine Finset.sum_congr rfl fun k _ => ?_
  have e : idx_main_v13 (ix1 n) k = ix2 n k := funext fun a => Fin.ext (by
    match a with
    | ⟨0, _⟩ => rfl
    | ⟨1, _⟩ => rfl)
  rw [e, val_main_v12_apply, x_at]
  rfl

/-- The guarded length of row `n`. -/
theorem xn_at (n : Fin 32768) :
    val_main_v20 (F := Ideal) x0 x2 x3 (ix1 n)
      = Spec.safeNorm (Spec.sqNorm (Spec.xRow (fun d => x2 (ix2 (symOf n) d)) (fun d => x3 (ix2 (relOf n) d)) (maskOf x0 (ix1 (symOf n))))) := by
  rw [val_main_v20_apply, val_main_v15_apply, val_main_v19_apply, val_main_v18_apply, val_main_v17_apply,
    v14_zero, v16_zero, call0_one, call1_zero, sq_at]
  rfl

/-- The length of disease row `k`. -/
theorem dn_at (k : Fin 64) : val_main_v23 (F := Ideal) x4 (ix1 k) = dnOf x4 k := by
  rw [val_main_v23_apply, val_main_v22_apply, cst4_zero, zero_add]
  unfold dnOf Spec.dnorm
  refine congrArg Ideal.sqrt (Finset.sum_congr rfl fun d _ => ?_)
  have e : idx_main_v22 (ix1 k) d = ix2 k d := funext fun a => Fin.ext (by
    match a with
    | ⟨0, _⟩ => rfl
    | ⟨1, _⟩ => rfl)
  rw [e]
  rfl

/-- The dot product of disease row `k` and row `n`. -/
theorem dots_at (k : Fin 64) (n : Fin 32768) :
    val_main_v24 (F := Ideal) x0 x2 x3 x4 (ix2 k n)
      = ∑ d : Fin 128, x4 (ix2 k d)
          * Spec.xRow (fun d => x2 (ix2 (symOf n) d)) (fun d => x3 (ix2 (relOf n) d)) (maskOf x0 (ix1 (symOf n))) d := by
  rw [val_main_v24_apply]
  refine Finset.sum_congr rfl fun d _ => ?_
  have el : lidx_main_v24 (ix2 k n) d = ix2 k d := funext fun a => Fin.ext (by
    match a with
    | ⟨0, _⟩ => rfl
    | ⟨1, _⟩ => rfl)
  have er : ridx_main_v24 (ix2 k n) d = ix2 n d := funext fun a => Fin.ext (by
    match a with
    | ⟨0, _⟩ => rfl
    | ⟨1, _⟩ => rfl)
  rw [el, er, x_at]

/-- Entry `(k, n)` of the cosine table. -/
theorem kg_at (k : Fin 64) (n : Fin 32768) :
    val_main_v32 (F := Ideal) x0 x2 x3 x4 (ix2 k n) = kgOf x0 x2 x3 x4 k n := by
  rw [val_main_v32_apply, val_main_v31_apply, val_main_v29_apply, val_main_v27_apply, val_main_v25_apply,
    val_main_v28_apply, val_main_v26_apply, v30_eps, dots_at]
  have e1 : idx_main_v25 (idx_main_v27 (ix2 k n)) = ix1 k := funext fun a => Fin.ext (by
    match a with
    | ⟨0, _⟩ => rfl)
  have e2 : idx_main_v26 (idx_main_v28 (ix2 k n)) = ix1 n := funext fun a => Fin.ext (by
    match a with
    | ⟨0, _⟩ => rfl)
  rw [e1, e2, dn_at, xn_at]
  rfl

/-! ## The hidden rows and the linear layer -/

/-- A hidden row's first 512 entries are the rule features. -/
theorem hid_rule (row : Fin 64) (c : Fin 512) :
    val_main_v33 (F := Ideal) x0 x1 x2 x3 x4 (ix2 row (⟨c.val, by have := c.isLt; omega⟩ : Fin 33280)) = x1 (ix2 row c) := by
  unfold val_main_v33
  generalize val_main_v32 (F := Ideal) x0 x2 x3 x4 = y
  exact concatenate_pair_apply_left 1 x1 y concatenates_S64x512_S64x32768_S64x33280_d1 _ rfl _ (fun b => by
    match b with
    | ⟨0, _⟩ => rfl
    | ⟨1, _⟩ => rfl)

/-- A hidden row's last 32768 entries are its row of the cosine table. -/
theorem hid_kg (row : Fin 64) (n : Fin 32768) :
    val_main_v33 (F := Ideal) x0 x1 x2 x3 x4 (ix2 row (⟨512 + n.val, by have := n.isLt; omega⟩ : Fin 33280))
      = kgOf x0 x2 x3 x4 row n := by
  rw [← kg_at]
  unfold val_main_v33
  generalize val_main_v32 (F := Ideal) x0 x2 x3 x4 = y
  exact concatenate_pair_apply_right 1 x1 y concatenates_S64x512_S64x32768_S64x33280_d1 _ rfl rfl _
    (fun b hb => by
      match b with
      | ⟨0, _⟩ => rfl
      | ⟨1, _⟩ => exact absurd rfl hb)
    (by show n.val + 512 = 512 + n.val; omega)

/-- The linear layer's output `d` before the bias: the sum over all 2129920 positions, cut into the hidden rows. -/
theorem lin_at (z : Fin 1) (d : Fin 64) :
    val_main_v36 (F := Ideal) x0 x1 x2 x3 x4 x5 (ix2 z d) = linOf x0 x1 x2 x3 x4 x5 d := by
  rw [val_main_v36_apply]
  refine (Cert.SumRows.sum_rows_split 64 512 32768 rfl _).trans ?_
  unfold linOf
  refine Finset.sum_congr rfl fun row _ => ?_
  unfold Spec.fcRow
  have hz := z.isLt
  have hrow := row.isLt
  refine congrArg₂ (· + ·) (Finset.sum_congr rfl fun c _ => ?_) (Finset.sum_congr rfl fun n _ => ?_)
  · have hc := c.isLt
    rw [val_main_v34_apply, val_main_v35_apply]
    have e1 : idx_main_v34 (lidx_main_v36 (ix2 z d) ⟨(512 + 32768) * row.val + c.val,
          by omega⟩)
        = ix2 row (⟨c.val, by omega⟩ : Fin 33280) := funext fun a => Fin.ext (by
      match a with
      | ⟨0, _⟩ => show (z.val * 2129920 + ((512 + 32768) * row.val + c.val)) / 33280 = row.val; omega
      | ⟨1, _⟩ => show (z.val * 2129920 + ((512 + 32768) * row.val + c.val)) % 33280 = c.val; omega)
    have e2 : idx_main_v35 (ridx_main_v36 (ix2 z d) ⟨(512 + 32768) * row.val + c.val,
          by omega⟩)
        = ix2 d (flatPos row (⟨c.val, by omega⟩ : Fin 33280)) := funext fun a => Fin.ext (by
      match a with
      | ⟨0, _⟩ => rfl
      | ⟨1, _⟩ => show (512 + 32768) * row.val + c.val = 33280 * row.val + c.val; omega)
    rw [e1, e2, hid_rule]
  · have hn := n.isLt
    rw [val_main_v34_apply, val_main_v35_apply]
    have e1 : idx_main_v34 (lidx_main_v36 (ix2 z d) ⟨(512 + 32768) * row.val + (512 + n.val),
          by omega⟩)
        = ix2 row (⟨512 + n.val, by omega⟩ : Fin 33280) := funext fun a => Fin.ext (by
      match a with
      | ⟨0, _⟩ => show (z.val * 2129920 + ((512 + 32768) * row.val + (512 + n.val))) / 33280 = row.val; omega
      | ⟨1, _⟩ => show (z.val * 2129920 + ((512 + 32768) * row.val + (512 + n.val))) % 33280 = 512 + n.val; omega)
    have e2 : idx_main_v35 (ridx_main_v36 (ix2 z d) ⟨(512 + 32768) * row.val + (512 + n.val),
          by omega⟩)
        = ix2 d (flatPos row (⟨512 + n.val, by omega⟩ : Fin 33280)) := funext fun a => Fin.ext (by
      match a with
      | ⟨0, _⟩ => rfl
      | ⟨1, _⟩ => show (512 + 32768) * row.val + (512 + n.val) = 33280 * row.val + (512 + n.val); omega)
    rw [e1, e2, hid_kg]

/-! ## The result -/

/-- Output `d`: the logistic tail of the linear layer's output plus the bias. -/
theorem out_at (z : Fin 1) (d : Fin 64) :
    val_main_v44 (F := Ideal) x0 x1 x2 x3 x4 x5 x6 (ix2 z d) = outOf x0 x1 x2 x3 x4 x5 x6 d := by
  rw [val_main_v44_apply, val_main_v42_apply, val_main_v40_apply, val_main_v39_apply, val_main_v38_apply,
    val_main_v37_apply, v43_one, v41_one, lin_at]
  have e : idx_main_v37 (ix2 z d) = ix1 d := funext fun a => Fin.ext (by
    match a with
    | ⟨0, _⟩ => rfl)
  rw [e]
  rfl

/-- THE REFERENCE IS THE SPECIFICATION: the last stage of the reference, as a function of the seven argument
    arrays, is `G` of them. -/
theorem ref_eq_G : val_main_v44 (F := Ideal) x0 x1 x2 x3 x4 x5 x6 = G x0 x1 x2 x3 x4 x5 x6 := by
  funext i
  obtain ⟨z, d, rfl⟩ : ∃ (z : Fin 1) (d : Fin 64), i = ix2 z d := ⟨i 0, i 1, eq_ix2 i⟩
  rw [out_at]
  rfl

end Cert.RefValue

end
-- ==== Proof.lean ====
/-
  The certificate of the cosine-similarity + linear-layer kernel against its jnp reference.

  The kernel program runs a cosine-similarity pallas_call (a grid of 8 symptom tiles, kg[k, 8 s + r] =
  ⟨dise_k, x_{s,r}⟩ / max(‖dise_k‖ · ‖x_{s,r}‖, ε) with x_{s,r} = (embed_s + rel_r) · mask_s) and a linear pallas_call
  (a 2 × 32 grid; point (j, k) adds row 32 j + k's contribution ⟨rule_row, W_row⟩ + ⟨kg_row, W'_row⟩ to an accumulator
  kept in scratch, reset at k = 0 and copied out at k = 31), then adds the two partial sums and the bias and applies the
  logistic function. The reference computes the same cosine similarities on the host, concatenates them with the rule
  features, flattens, and takes ONE matrix product with the transposed weight over all 2,129,920 entries.

  Frames: each program's run terminates without a fault and leaves its arguments as launched — for the kernel program
  (at both instances) from the run over its five segments, for the reference from its host run.
  Equality at the ideal instance: both results are the logistic of Σ_row (⟨rule_row, W_row⟩ + ⟨kg_row, W'_row⟩) + bias —
  the reference's long sum regrouped by rows and split at column 512, the kernel's two partial sums of 32 rows each
  joined; addition of extended reals is commutative and associative with neutral 0, so no finiteness of the inputs is used.
-/
import proofs.«120060_j231928234454_2_alg».proof.Defs
import proofs.«120060_j231928234454_2_alg».proof.Proof.Gen.Kernel
import proofs.«120060_j231928234454_2_alg».proof.Proof.Gen.KernelIdeal
import proofs.«120060_j231928234454_2_alg».proof.Proof.Gen.ReferenceIdeal
import proofs.«120060_j231928234454_2_alg».proof.Proof.Gen.ReferenceIdeal.Run
import proofs.«120060_j231928234454_2_alg».proof.Proof.Gen.ReferenceIdeal.Read
import proofs.«120060_j231928234454_2_alg».proof.Proof.Gen.Pre_finite_inputs
import proofs.«120060_j231928234454_2_alg».proof.Proof.K.Ends
import proofs.«120060_j231928234454_2_alg».proof.Proof.KI.Ends
import proofs.«120060_j231928234454_2_alg».proof.Proof.KI.Value
import proofs.«120060_j231928234454_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ
theorem frame_ki : Cert.frame_KernelIdeal := fun m ρ _ => Cert.KernelIdeal.Frame.frame m ρ
/-- The reference has no kernel: its frame is its host run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The ideal pass rewrote no operation. -/
theorem preserves : Cert.preserves_Kernel_KernelIdeal := trivial

/-- At the ideal instance both programs, run from memories agreeing on the arguments, end with the result buffer at the
    specification `G` of the arguments: the kernel program by reading its run's fold back to the launch memory, the
    reference by reading its host run one operation at a time and regrouping the long sum by rows. -/
theorem algebraic : Cert.algebraic_KernelIdeal_ReferenceIdeal := by
  intro m ρ m' ρ' _ hagree
  refine ⟨fun c => Cert.RefSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Frame.result_eq_G m ρ c), (h c).2⟩)
      (Cert.KernelIdeal.Frame.run_result (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v44_eq, Cert.RefValue.ref_eq_G,
      (hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
